-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v7_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v7_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S4x2048x2048 : Shape := ⟨3, ![4, 2048, 2048]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg5 : FVec F S1024x1024 .f32) (main_arg6 : FVec F S1024x1024 .f32) (main_arg7 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg5
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg6
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg7
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  main_v33

def fn {F : FTy → Type} [FloatOps F] (main_arg0 : FVec F S4x2048x1024 .f32) (main_arg1 : FVec F S4x2048x1024 .f32) (main_arg2 : FVec F S4x2048x1024 .f32) (main_arg3 : IVec S4x2048x2048 1) (main_arg4 : FVec F S1024x1024 .f32) (main_arg5 : FVec F S1024x1024 .f32) (main_arg6 : FVec F S1024x1024 .f32) (main_arg7 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_arg6 main_arg7 main_v13 main_v16
-- ==== Kernel.lean ====
abbrev S4x2048x1024 : Shape := ⟨3, ![4, 2048, 1024]⟩
abbrev S4x2048x2048 : Shape := ⟨3, ![4, 2048, 2048]⟩
abbrev S1024x1024 : Shape := ⟨2, ![1024, 1024]⟩
abbrev S8192x1024 : Shape := ⟨2, ![8192, 1024]⟩
abbrev S4x16x2048x64 : Shape := ⟨4, ![4, 16, 2048, 64]⟩
abbrev S512x1024 : Shape := ⟨2, ![512, 1024]⟩
abbrev S1x16x512x64 : Shape := ⟨4, ![1, 16, 512, 64]⟩
abbrev S512x64 : Shape := ⟨2, ![512, 64]⟩
abbrev S1x1x512x64 : Shape := ⟨4, ![1, 1, 512, 64]⟩
abbrev S4x16x2048x2048 : Shape := ⟨4, ![4, 16, 2048, 2048]⟩
abbrev S1x1x2048x64 : Shape := ⟨4, ![1, 1, 2048, 64]⟩
abbrev S1x512x2048 : Shape := ⟨3, ![1, 512, 2048]⟩
abbrev S1x1x512x2048 : Shape := ⟨4, ![1, 1, 512, 2048]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S4x2048x16x64 : Shape := ⟨4, ![4, 2048, 16, 64]⟩

abbrev nBuf : Space → Nat
  | .hbm => 22
  | .vmem => 34
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x2048x2048, .i1⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S8192x1024, .f32⟩
  | .hbm, ⟨9, _⟩ => ⟨S4x16x2048x64, .bf16⟩
  | .hbm, ⟨10, _⟩ => ⟨S8192x1024, .f32⟩
  | .hbm, ⟨11, _⟩ => ⟨S4x16x2048x64, .bf16⟩
  | .hbm, ⟨12, _⟩ => ⟨S8192x1024, .f32⟩
  | .hbm, ⟨13, _⟩ => ⟨S4x16x2048x64, .bf16⟩
  | .hbm, ⟨14, _⟩ => ⟨S4x2048x2048, .i32⟩
  | .hbm, ⟨15, _⟩ => ⟨S4x16x2048x2048, .f32⟩
  | .hbm, ⟨16, _⟩ => ⟨S4x16x2048x64, .f32⟩
  | .hbm, ⟨17, _⟩ => ⟨S4x2048x16x64, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1x16x512x64, .bf16⟩
  | .local _ .vmem, ⟨4, _⟩ => ⟨S1x16x512x64, .bf16⟩
  | .local _ .vmem, ⟨5, _⟩ => ⟨S512x1024, .f32⟩
  | .local _ .vmem, ⟨6, _⟩ => ⟨S512x1024, .f32⟩
  | .local _ .vmem, ⟨7, _⟩ => ⟨S1024x1024, .f32⟩
  | .local _ .vmem, ⟨8, _⟩ => ⟨S1x16x512x64, .bf16⟩
  | .local _ .vmem, ⟨9, _⟩ => ⟨S1x16x512x64, .bf16⟩
  | .local _ .vmem, ⟨10, _⟩ => ⟨S512x1024, .f32⟩
  | .local _ .vmem, ⟨11, _⟩ => ⟨S512x1024, .f32⟩
  | .local _ .vmem, ⟨12, _⟩ => ⟨S1024x1024, .f32⟩
  | .local _ .vmem, ⟨13, _⟩ => ⟨S1x16x512x64, .bf16⟩
  | .local _ .vmem, ⟨14, _⟩ => ⟨S1x16x512x64, .bf16⟩
  | .local _ .vmem, ⟨15, _⟩ => ⟨S1x1x512x64, .bf16⟩
  | .local _ .vmem, ⟨16, _⟩ => ⟨S1x1x512x64, .bf16⟩
  | .local _ .vmem, ⟨17, _⟩ => ⟨S1x1x2048x64, .bf16⟩
  | .local _ .vmem, ⟨18, _⟩ => ⟨S1x1x2048x64, .bf16⟩
  | .local _ .vmem, ⟨19, _⟩ => ⟨S1x1x2048x64, .bf16⟩
  | .local _ .vmem, ⟨20, _⟩ => ⟨S1x1x2048x64, .bf16⟩
  | .local _ .vmem, ⟨21, _⟩ => ⟨S1x512x2048, .i32⟩
  | .local _ .vmem, ⟨22, _⟩ => ⟨S1x512x2048, .i32⟩
  | .local _ .vmem, ⟨23, _⟩ => ⟨S1x1x512x2048, .f32⟩
  | .local _ .vmem, ⟨24, _⟩ => ⟨S1x1x512x2048, .f32⟩
  | .local _ .vmem, ⟨25, _⟩ => ⟨S1x1x512x64, .f32⟩
  | .local _ .vmem, ⟨26, _⟩ => ⟨S1x1x512x64, .f32⟩
  | .local _ .vmem, ⟨27, _⟩ => ⟨S512x1024, .f32⟩
  | .local _ .vmem, ⟨28, _⟩ => ⟨S512x1024, .f32⟩
  | .local _ .vmem, ⟨29, _⟩ => ⟨S1024x1024, .f32⟩
  | .local _ .vmem, ⟨30, _⟩ => ⟨S512x1024, .f32⟩
  | .local _ .vmem, ⟨31, _⟩ => ⟨S512x1024, .f32⟩
  | .local _ .vmem, ⟨32, _⟩ => ⟨S512x1024, .f32⟩
  | .local _ .vmem, ⟨33, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc3_stg4_0 : Ref sig .tc := ⟨.vmem, 23, rfl⟩
abbrev cc3_stg4_1 : Ref sig .tc := ⟨.vmem, 24, rfl⟩
abbrev cc3_stg5_0 : Ref sig .tc := ⟨.vmem, 25, rfl⟩
abbrev cc3_stg5_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem3_1 : DmaSem sig := 22
abbrev cc3_sem4_0 : DmaSem sig := 23
abbrev cc3_sem4_1 : DmaSem sig := 24
abbrev cc3_sem5_0 : DmaSem sig := 25
abbrev cc3_sem5_1 : DmaSem sig := 26
abbrev cc4_sem0_0 : DmaSem sig := 27
abbrev cc4_sem0_1 : DmaSem sig := 28
abbrev cc4_sem1_0 : DmaSem sig := 29
abbrev cc4_sem2_0 : DmaSem sig := 30
abbrev cc4_sem2_1 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x16x512x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x16x512x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1x16x512x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨3, ![4, 4, 16], ![false, false, false]⟩

def cc3_transform_0 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc3_transform_1 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc3_transform_2 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc3_transform_4 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc3_transform_5 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage3_0 : Fin 2 → Memref sig .tc .vmem S1x1x512x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true]

abbrev stage3_1 : Fin 2 → Memref sig .tc .vmem S1x1x2048x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true]

abbrev stage3_2 : Fin 2 → Memref sig .tc .vmem S1x1x2048x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false, true]

abbrev stage3_3 : Fin 2 → Memref sig .tc .vmem S1x512x2048 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev stage3_4 : Fin 2 → Memref sig .tc .vmem S1x1x512x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, true]

abbrev stage3_5 : Fin 2 → Memref sig .tc .vmem S1x1x512x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true, true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S512x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  slices_S512x1024_o0_0_S512x64 : S512x1024.Slices ![0, 0] S512x64
  inb_S1x16x512x64_S1x1x512x64_0_0_0_0 : ∀ a, (![0, 0, 0, 0] : Fin 4 → Nat) a + S1x1x512x64.size a ≤ S1x16x512x64.size a
  h_S1x1x512x64 : 0 < S1x1x512x64.numel
  shapeCasts_S1x1x512x64_S512x64 : S1x1x512x64.ShapeCasts S512x64
  shapeCasts_S512x64_S1x1x512x64 : S512x64.ShapeCasts S1x1x512x64
  packedbf16_S1x16x512x64_S1x1x512x64_0_0_0_0 : (Rect.unit (s := S1x16x512x64) ![0, 0, 0, 0] S1x1x512x64.size inb_S1x16x512x64_S1x1x512x64_0_0_0_0).PackedRows (EltTy.packing .bf16)
  slices_S512x1024_o0_64_S512x64 : S512x1024.Slices ![0, 64] S512x64
  inb_S1x16x512x64_S1x1x512x64_0_1_0_0 : ∀ a, (![0, 1, 0, 0] : Fin 4 → Nat) a + S1x1x512x64.size a ≤ S1x16x512x64.size a
  packedbf16_S1x16x512x64_S1x1x512x64_0_1_0_0 : (Rect.unit (s := S1x16x512x64) ![0, 1, 0, 0] S1x1x512x64.size inb_S1x16x512x64_S1x1x512x64_0_1_0_0).PackedRows (EltTy.packing .bf16)
  slices_S512x1024_o0_128_S512x64 : S512x1024.Slices ![0, 128] S512x64
  inb_S1x16x512x64_S1x1x512x64_0_2_0_0 : ∀ a, (![0, 2, 0, 0] : Fin 4 → Nat) a + S1x1x512x64.size a ≤ S1x16x512x64.size a
  packedbf16_S1x16x512x64_S1x1x512x64_0_2_0_0 : (Rect.unit (s := S1x16x512x64) ![0, 2, 0, 0] S1x1x512x64.size inb_S1x16x512x64_S1x1x512x64_0_2_0_0).PackedRows (EltTy.packing .bf16)
  slices_S512x1024_o0_192_S512x64 : S512x1024.Slices ![0, 192] S512x64
  inb_S1x16x512x64_S1x1x512x64_0_3_0_0 : ∀ a, (![0, 3, 0, 0] : Fin 4 → Nat) a + S1x1x512x64.size a ≤ S1x16x512x64.size a
  packedbf16_S1x16x512x64_S1x1x512x64_0_3_0_0 : (Rect.unit (s := S1x16x512x64) ![0, 3, 0, 0] S1x1x512x64.size inb_S1x16x512x64_S1x1x512x64_0_3_0_0).PackedRows (EltTy.packing .bf16)
  slices_S512x1024_o0_256_S512x64 : S512x1024.Slices ![0, 256] S512x64
  inb_S1x16x512x64_S1x1x512x64_0_4_0_0 : ∀ a, (![0, 4, 0, 0] : Fin 4 → Nat) a + S1x1x512x64.size a ≤ S1x16x512x64.size a
  packedbf16_S1x16x512x64_S1x1x512x64_0_4_0_0 : (Rect.unit (s := S1x16x512x64) ![0, 4, 0, 0] S1x1x512x64.size inb_S1x16x512x64_S1x1x512x64_0_4_0_0).PackedRows (EltTy.packing .bf16)
  slices_S512x1024_o0_320_S512x64 : S512x1024.Slices ![0, 320] S512x64
  inb_S1x16x512x64_S1x1x512x64_0_5_0_0 : ∀ a, (![0, 5, 0, 0] : Fin 4 → Nat) a + S1x1x512x64.size a ≤ S1x16x512x64.size a
  packedbf16_S1x16x512x64_S1x1x512x64_0_5_0_0 : (Rect.unit (s := S1x16x512x64) ![0, 5, 0, 0] S1x1x512x64.size inb_S1x16x512x64_S1x1x512x64_0_5_0_0).PackedRows (EltTy.packing .bf16)
  slices_S512x1024_o0_384_S512x64 : S512x1024.Slices ![0, 384] S512x64
  inb_S1x16x512x64_S1x1x512x64_0_6_0_0 : ∀ a, (![0, 6, 0, 0] : Fin 4 → Nat) a + S1x1x512x64.size a ≤ S1x16x512x64.size a
  packedbf16_S1x16x512x64_S1x1x512x64_0_6_0_0 : (Rect.unit (s := S1x16x512x64) ![0, 6, 0, 0] S1x1x512x64.size inb_S1x16x512x64_S1x1x512x64_0_6_0_0).PackedRows (EltTy.packing .bf16)
  slices_S512x1024_o0_448_S512x64 : S512x1024.Slices ![0, 448] S512x64
  inb_S1x16x512x64_S1x1x512x64_0_7_0_0 : ∀ a, (![0, 7, 0, 0] : Fin 4 → Nat) a + S1x1x512x64.size a ≤ S1x16x512x64.size a
  packedbf16_S1x16x512x64_S1x1x512x64_0_7_0_0 : (Rect.unit (s := S1x16x512x64) ![0, 7, 0, 0] S1x1x512x64.size inb_S1x16x512x64_S1x1x512x64_0_7_0_0).PackedRows (EltTy.packing .bf16)
  slices_S512x1024_o0_512_S512x64 : S512x1024.Slices ![0, 512] S512x64
  inb_S1x16x512x64_S1x1x512x64_0_8_0_0 : ∀ a, (![0, 8, 0, 0] : Fin 4 → Nat) a + S1x1x512x64.size a ≤ S1x16x512x64.size a
  packedbf16_S1x16x512x64_S1x1x512x64_0_8_0_0 : (Rect.unit (s := S1x16x512x64) ![0, 8, 0, 0] S1x1x512x64.size inb_S1x16x512x64_S1x1x512x64_0_8_0_0).PackedRows (EltTy.packing .bf16)
  slices_S512x1024_o0_576_S512x64 : S512x1024.Slices ![0, 576] S512x64
  inb_S1x16x512x64_S1x1x512x64_0_9_0_0 : ∀ a, (![0, 9, 0, 0] : Fin 4 → Nat) a + S1x1x512x64.size a ≤ S1x16x512x64.size a
  packedbf16_S1x16x512x64_S1x1x512x64_0_9_0_0 : (Rect.unit (s := S1x16x512x64) ![0, 9, 0, 0] S1x1x512x64.size inb_S1x16x512x64_S1x1x512x64_0_9_0_0).PackedRows (EltTy.packing .bf16)
  slices_S512x1024_o0_640_S512x64 : S512x1024.Slices ![0, 640] S512x64
  inb_S1x16x512x64_S1x1x512x64_0_10_0_0 : ∀ a, (![0, 10, 0, 0] : Fin 4 → Nat) a + S1x1x512x64.size a ≤ S1x16x512x64.size a
  packedbf16_S1x16x512x64_S1x1x512x64_0_10_0_0 : (Rect.unit (s := S1x16x512x64) ![0, 10, 0, 0] S1x1x512x64.size inb_S1x16x512x64_S1x1x512x64_0_10_0_0).PackedRows (EltTy.packing .bf16)
  slices_S512x1024_o0_704_S512x64 : S512x1024.Slices ![0, 704] S512x64
  inb_S1x16x512x64_S1x1x512x64_0_11_0_0 : ∀ a, (![0, 11, 0, 0] : Fin 4 → Nat) a + S1x1x512x64.size a ≤ S1x16x512x64.size a
  packedbf16_S1x16x512x64_S1x1x512x64_0_11_0_0 : (Rect.unit (s := S1x16x512x64) ![0, 11, 0, 0] S1x1x512x64.size inb_S1x16x512x64_S1x1x512x64_0_11_0_0).PackedRows (EltTy.packing .bf16)
  slices_S512x1024_o0_768_S512x64 : S512x1024.Slices ![0, 768] S512x64
  inb_S1x16x512x64_S1x1x512x64_0_12_0_0 : ∀ a, (![0, 12, 0, 0] : Fin 4 → Nat) a + S1x1x512x64.size a ≤ S1x16x512x64.size a
  packedbf16_S1x16x512x64_S1x1x512x64_0_12_0_0 : (Rect.unit (s := S1x16x512x64) ![0, 12, 0, 0] S1x1x512x64.size inb_S1x16x512x64_S1x1x512x64_0_12_0_0).PackedRows (EltTy.packing .bf16)
  slices_S512x1024_o0_832_S512x64 : S512x1024.Slices ![0, 832] S512x64
  inb_S1x16x512x64_S1x1x512x64_0_13_0_0 : ∀ a, (![0, 13, 0, 0] : Fin 4 → Nat) a + S1x1x512x64.size a ≤ S1x16x512x64.size a
  packedbf16_S1x16x512x64_S1x1x512x64_0_13_0_0 : (Rect.unit (s := S1x16x512x64) ![0, 13, 0, 0] S1x1x512x64.size inb_S1x16x512x64_S1x1x512x64_0_13_0_0).PackedRows (EltTy.packing .bf16)
  slices_S512x1024_o0_896_S512x64 : S512x1024.Slices ![0, 896] S512x64
  inb_S1x16x512x64_S1x1x512x64_0_14_0_0 : ∀ a, (![0, 14, 0, 0] : Fin 4 → Nat) a + S1x1x512x64.size a ≤ S1x16x512x64.size a
  packedbf16_S1x16x512x64_S1x1x512x64_0_14_0_0 : (Rect.unit (s := S1x16x512x64) ![0, 14, 0, 0] S1x1x512x64.size inb_S1x16x512x64_S1x1x512x64_0_14_0_0).PackedRows (EltTy.packing .bf16)
  slices_S512x1024_o0_960_S512x64 : S512x1024.Slices ![0, 960] S512x64
  inb_S1x16x512x64_S1x1x512x64_0_15_0_0 : ∀ a, (![0, 15, 0, 0] : Fin 4 → Nat) a + S1x1x512x64.size a ≤ S1x16x512x64.size a
  packedbf16_S1x16x512x64_S1x1x512x64_0_15_0_0 : (Rect.unit (s := S1x16x512x64) ![0, 15, 0, 0] S1x1x512x64.size inb_S1x16x512x64_S1x1x512x64_0_15_0_0).PackedRows (EltTy.packing .bf16)
  natLt_1_32 : 1 < 32
  inb_S1x1x512x64_S1x1x512x64_0_0_0_0 : ∀ a, (![0, 0, 0, 0] : Fin 4 → Nat) a + S1x1x512x64.size a ≤ S1x1x512x64.size a
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  broadcasts_S512x1_S512x2048 : S512x1.Broadcasts S512x2048
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  shapeCasts_S512x2048_S1x1x512x2048 : S512x2048.ShapeCasts S1x1x512x2048
  transposes_S4x16x2048x64_S4x2048x16x64_0_2_1_3 : S4x16x2048x64.Transposes [0, 2, 1, 3] S4x2048x16x64
  shapeCasts_S4x2048x16x64_S8192x1024 : S4x2048x16x64.ShapeCasts S8192x1024
  reduces_S512x1024_S512 : S512x1024.Reduces [1] S512
  broadcasts_S512x1_S512x1024 : S512x1.Broadcasts S512x1024
  shapeCasts_S8192x1024_S4x2048x1024 : S8192x1024.ShapeCasts S4x2048x1024
  dot_S512x1024_S1024x1024_S512x1024_1_1_0_0_n_n_wf : DotDims.WF S512x1024 S1024x1024 S512x1024 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x512x64.size a ≤ S4x16x2048x64.size a
  hwx0_2 : ∀ i : grid0.Coords, EltTy.bits .bf16 = 32 ∨ (Rect.block (s := S4x16x2048x64) S1x16x512x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x1024.size a
  hwx1_0 : ∀ i : grid1.Coords, EltTy.bits .f32 = 32 ∨ (Rect.block (s := S8192x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x16x512x64.size a ≤ S4x16x2048x64.size a
  hwx1_2 : ∀ i : grid1.Coords, EltTy.bits .bf16 = 32 ∨ (Rect.block (s := S4x16x2048x64) S1x16x512x64.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .f32 = 32 ∨ (Rect.block (s := S8192x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x16x512x64.size a ≤ S4x16x2048x64.size a
  hwx2_2 : ∀ i : grid2.Coords, EltTy.bits .bf16 = 32 ∨ (Rect.block (s := S4x16x2048x64) S1x16x512x64.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x1x512x64.size a ≤ S4x16x2048x64.size a
  hwx3_0 : ∀ i : grid3.Coords, EltTy.bits .bf16 = 32 ∨ (Rect.block (s := S4x16x2048x64) S1x1x512x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x1x2048x64.size a ≤ S4x16x2048x64.size a
  hwx3_1 : ∀ i : grid3.Coords, EltTy.bits .bf16 = 32 ∨ (Rect.block (s := S4x16x2048x64) S1x1x2048x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1x2048x64.size a ≤ S4x16x2048x64.size a
  hwx3_2 : ∀ i : grid3.Coords, EltTy.bits .bf16 = 32 ∨ (Rect.block (s := S4x16x2048x64) S1x1x2048x64.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x512x2048.size a ≤ S4x2048x2048.size a
  hwx3_3 : ∀ i : grid3.Coords, EltTy.bits .i32 = 32 ∨ (Rect.block (s := S4x2048x2048) S1x512x2048.size (cc3_transform_3 i) (hinb3_3 i)).WholeWords (EltTy.packing .i32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x1x512x2048.size a ≤ S4x16x2048x2048.size a
  hwx3_4 : ∀ i : grid3.Coords, EltTy.bits .f32 = 32 ∨ (Rect.block (s := S4x16x2048x2048) S1x1x512x2048.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x1x512x64.size a ≤ S4x16x2048x64.size a
  hwx3_5 : ∀ i : grid3.Coords, EltTy.bits .f32 = 32 ∨ (Rect.block (s := S4x16x2048x64) S1x1x512x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x1024.size a ≤ S8192x1024.size a
  hwx4_0 : ∀ i : grid4.Coords, EltTy.bits .f32 = 32 ∨ (Rect.block (s := S8192x1024) S512x1024.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .f32 = 32 ∨ (Rect.block (s := S1024x1024) S1024x1024.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x1024.size a ≤ S8192x1024.size a
  hwx4_2 : ∀ i : grid4.Coords, EltTy.bits .f32 = 32 ∨ (Rect.block (s := S8192x1024) S512x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x1024.size a ≤ S8192x1024.size a
  hwx4_3 : ∀ i : grid4.Coords, EltTy.bits .f32 = 32 ∨ (Rect.block (s := S8192x1024) S512x1024.size (cc4_transform_3 i) (hinb4_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x16x512x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x16x512x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v4) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v5) S1x16x512x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v1) S1x1x512x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S1x1x2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v5) S1x1x2048x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v6) S1x512x2048.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v7_0) S1x1x512x2048.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v7_1) S1x1x512x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v9) S512x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v10) S512x1024.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v11) S512x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S4x2048x1024 : Shape := ⟨3, ![4, 2048, 1024]⟩
abbrev S4x2048x2048 : Shape := ⟨3, ![4, 2048, 2048]⟩
abbrev S1024x1024 : Shape := ⟨2, ![1024, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x1x2048x2048 : Shape := ⟨4, ![4, 1, 2048, 2048]⟩
abbrev S4x16x2048 : Shape := ⟨3, ![4, 16, 2048]⟩
abbrev S4x16x2048x1 : Shape := ⟨4, ![4, 16, 2048, 1]⟩
abbrev S4x2048 : Shape := ⟨2, ![4, 2048]⟩
abbrev S4x2048x1 : Shape := ⟨3, ![4, 2048, 1]⟩

abbrev nBuf : Space → Nat
  | .hbm => 68
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x2048x2048, .i1⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S4x2048x1024, .f32⟩
  | .hbm, ⟨9, _⟩ => ⟨S4x2048x16x64, .f32⟩
  | .hbm, ⟨10, _⟩ => ⟨S4x16x2048x64, .f32⟩
  | .hbm, ⟨11, _⟩ => ⟨S4x2048x1024, .f32⟩
  | .hbm, ⟨12, _⟩ => ⟨S4x2048x16x64, .f32⟩
  | .hbm, ⟨13, _⟩ => ⟨S4x16x2048x64, .f32⟩
  | .hbm, ⟨14, _⟩ => ⟨S4x2048x1024, .f32⟩
  | .hbm, ⟨15, _⟩ => ⟨S4x2048x16x64, .f32⟩
  | .hbm, ⟨16, _⟩ => ⟨S4x16x2048x64, .f32⟩
  | .hbm, ⟨17, _⟩ => ⟨S4x16x2048x2048, .f32⟩
  | .hbm, ⟨18, _⟩ => ⟨S_, .f32⟩
  | .hbm, ⟨19, _⟩ => ⟨S4x16x2048x2048, .f32⟩
  | .hbm, ⟨20, _⟩ => ⟨S4x16x2048x2048, .f32⟩
  | .hbm, ⟨21, _⟩ => ⟨S4x1x2048x2048, .i1⟩
  | .hbm, ⟨22, _⟩ => ⟨S_, .f32⟩
  | .hbm, ⟨23, _⟩ => ⟨S4x16x2048x2048, .i1⟩
  | .hbm, ⟨24, _⟩ => ⟨S4x16x2048x2048, .f32⟩
  | .hbm, ⟨25, _⟩ => ⟨S4x16x2048x2048, .f32⟩
  | .hbm, ⟨26, _⟩ => ⟨S_, .f32⟩
  | .hbm, ⟨27, _⟩ => ⟨S4x16x2048, .f32⟩
  | .hbm, ⟨28, _⟩ => ⟨S_, .f32⟩
  | .hbm, ⟨29, _⟩ => ⟨S4x16x2048, .f32⟩
  | .hbm, ⟨30, _⟩ => ⟨S4x16x2048, .f32⟩
  | .hbm, ⟨31, _⟩ => ⟨S4x16x2048x1, .f32⟩
  | .hbm, ⟨32, _⟩ => ⟨S4x16x2048x2048, .f32⟩
  | .hbm, ⟨33, _⟩ => ⟨S4x16x2048x2048, .f32⟩
  | .hbm, ⟨34, _⟩ => ⟨S4x16x2048x2048, .f32⟩
  | .hbm, ⟨35, _⟩ => ⟨S_, .f32⟩
  | .hbm, ⟨36, _⟩ => ⟨S4x16x2048, .f32⟩
  | .hbm, ⟨37, _⟩ => ⟨S4x16x2048x1, .f32⟩
  | .hbm, ⟨38, _⟩ => ⟨S4x16x2048x2048, .f32⟩
  | .hbm, ⟨39, _⟩ => ⟨S4x16x2048x2048, .f32⟩
  | .hbm, ⟨40, _⟩ => ⟨S4x16x2048x64, .f32⟩
  | .hbm, ⟨41, _⟩ => ⟨S4x2048x16x64, .f32⟩
  | .hbm, ⟨42, _⟩ => ⟨S4x2048x1024, .f32⟩
  | .hbm, ⟨43, _⟩ => ⟨S4x2048x1024, .f32⟩
  | .hbm, ⟨44, _⟩ => ⟨S4x2048x1024, .f32⟩
  | .hbm, ⟨45, _⟩ => ⟨S_, .f32⟩
  | .hbm, ⟨46, _⟩ => ⟨S4x2048, .f32⟩
  | .hbm, ⟨47, _⟩ => ⟨S4x2048x1, .f32⟩
  | .hbm, ⟨48, _⟩ => ⟨S_, .f32⟩
  | .hbm, ⟨49, _⟩ => ⟨S4x2048x1, .f32⟩
  | .hbm, ⟨50, _⟩ => ⟨S4x2048x1, .f32⟩
  | .hbm, ⟨51, _⟩ => ⟨S4x2048x1024, .f32⟩
  | .hbm, ⟨52, _⟩ => ⟨S4x2048x1024, .f32⟩
  | .hbm, ⟨53, _⟩ => ⟨S4x2048x1024, .f32⟩
  | .hbm, ⟨54, _⟩ => ⟨S_, .f32⟩
  | .hbm, ⟨55, _⟩ => ⟨S4x2048, .f32⟩
  | .hbm, ⟨56, _⟩ => ⟨S4x2048x1, .f32⟩
  | .hbm, ⟨57, _⟩ => ⟨S_, .f32⟩
  | .hbm, ⟨58, _⟩ => ⟨S4x2048x1, .f32⟩
  | .hbm, ⟨59, _⟩ => ⟨S4x2048x1, .f32⟩
  | .hbm, ⟨60, _⟩ => ⟨S4x2048x1024, .f32⟩
  | .hbm, ⟨61, _⟩ => ⟨S4x2048x1024, .f32⟩
  | .hbm, ⟨62, _⟩ => ⟨S_, .f32⟩
  | .hbm, ⟨63, _⟩ => ⟨S4x2048x1, .f32⟩
  | .hbm, ⟨64, _⟩ => ⟨S4x2048x1, .f32⟩
  | .hbm, ⟨65, _⟩ => ⟨S4x2048x1, .f32⟩
  | .hbm, ⟨66, _⟩ => ⟨S4x2048x1024, .f32⟩
  | .hbm, ⟨67, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩

abbrev nD : Nat := 1
abbrev τ : Topo := Topo.v7x

variable {F : FTy → Type} [FloatOps F]

class Facts₀ : Prop where
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  bcast_S4x2048x2048_S4x1x2048x2048_0_2_3 : S4x2048x2048.BroadcastsInDim S4x1x2048x2048 (![0, 2, 3] : Fin 3 → Fin S4x1x2048x2048.rank)
  bcast_S4x1x2048x2048_S4x16x2048x2048_0_1_2_3 : S4x1x2048x2048.BroadcastsInDim S4x16x2048x2048 (![0, 1, 2, 3] : Fin 4 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  reducesTo_S4x2048x1024_S4x2048_d2 : S4x2048x1024.ReducesTo [2] S4x2048
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x1024_0_1_2 : S4x2048x1.BroadcastsInDim S4x2048x1024 (![0, 1, 2] : Fin 3 → Fin S4x2048x1024.rank)
  dot_S4x2048x1024_S1024x1024_S4x2048x1024_2_1_01_0_n_n_wf : DotDims.WF S4x2048x1024 S1024x1024 S4x2048x1024 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.RunNamed.lean ====
/-
  The idealized kernel's run with its two results named. Every weakly fair execution of the program ends with each
  result buffer holding the contents of the last segment boundary — the fold of the host operations and of the five
  pipelined calls' write-backs from the launch memory — and with the eight argument arrays as launched.
-/
import proofs.«143923_j53437983097248_2_alg».proof.Proof.Gen.KernelIdeal.Frame

set_option maxRecDepth 16384

noncomputable section

namespace Cert.KernelIdeal.Block

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, its results read off the last boundary's contents: the normalised rows' buffer and the attention
    weights' buffer hold what the fold through the program leaves there; the arguments are unchanged. -/
theorem run_named : θ_run defs (onTc (τ := τ) (main (F := F))) ⟨m, fun _ => 0, ρ⟩ (fun r => ∀ c : Dev nD,
      r.2.mem ((c.tc : Thread nD τ).loc main_v12) = W11 m ρ c (Proc.devRef .tc main_v12)
      ∧ r.2.mem ((c.tc : Thread nD τ).loc main_v7_0) = W11 m ρ c (Proc.devRef .tc main_v7_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v12 (by decide)),
       h c _ (mem_uc main_v7_0 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.Block

end
-- ==== Proof.Spec.lean ====
/-
  Multi-head attention followed by a residual layer norm, as functions of the argument arrays, index by index, on
  the extended reals. No program is imported: every stage is a formula over literal shapes.

  With X_Q, X_K, X_V : [4, 2048, 1024] (batch, position, feature), the weights W : [1024, 1024] (output feature, input
  feature) and a mask M : [4, 2048, 2048] of bits:

  * `proj X W` at (b, h, s, d) is the inner product of row (b, s) of X with row 64 h + d of W: the projection, its
    1024 output features cut into 16 heads of 64;
  * `score Q K M` at (b, h, q, k) is the inner product of Q(b, h, q, ·) and K(b, h, k, ·) times one eighth, replaced
    by the large negative constant where the mask bit (b, q, k) is set;
  * `attn S` is the softmax of S along its last axis, written as it is computed: the exponential of the distance
    below the row's maximum, over the row's sum of those exponentials;
  * `ctx A V` at (b, h, q, d) is the sum over k of A(b, h, q, k) V(b, h, k, d);
  * `resid C W X` at (b, s, n) joins the heads back (feature e = 64 h + d), takes the inner product with row n of W
    and adds X(b, s, n);
  * `ln x` centres each row (b, s, ·) by its mean and scales it by the reciprocal square root of its variance plus
    a small constant.
-/
import Idealize.ShloMosaic.PureOps
import Idealize.ShloMosaic.PureOps.Ideal
import Idealize.ShloMosaic.Lib.ValueIdx

noncomputable section

open scoped BigOperators

namespace Cert.Mha

open Idealize.ShloMosaic Idealize.ShloMosaic.ValueIdx

abbrev SX : Shape := ⟨3, ![4, 2048, 1024]⟩
abbrev SW : Shape := ⟨2, ![1024, 1024]⟩
abbrev SH : Shape := ⟨4, ![4, 16, 2048, 64]⟩
abbrev SM : Shape := ⟨3, ![4, 2048, 2048]⟩
abbrev SA : Shape := ⟨4, ![4, 16, 2048, 2048]⟩

/-- The constants, each the value of its 32-bit pattern: -10^9, 1/8, -inf, 1024 and the layer norm's epsilon. -/
abbrev negBig : EReal := Ideal.ofBits .f32 0xCE6E6B28#32
abbrev eighth : EReal := Ideal.ofBits .f32 0x3E000000#32
abbrev negInf : EReal := Ideal.ofBits .f32 0xFF800000#32
abbrev width : EReal := Ideal.ofBits .f32 0x44800000#32
abbrev eps : EReal := Ideal.ofBits .f32 0x3727C5AC#32

/-- Feature 64 h + d: entry d of head h. -/
def headCol (h : Fin 16) (d : Fin 64) : Fin 1024 := ⟨h.val * 64 + d.val, by have := h.isLt; have := d.isLt; omega⟩

/-- The head a feature belongs to, and its place inside the head. -/
def headOf (e : Fin 1024) : Fin 16 := ⟨e.val / 64, by have := e.isLt; omega⟩
def withinHead (e : Fin 1024) : Fin 64 := ⟨e.val % 64, Nat.mod_lt _ (by decide)⟩

theorem headCol_headOf (e : Fin 1024) : headCol (headOf e) (withinHead e) = e :=
  Fin.ext (by show e.val / 64 * 64 + e.val % 64 = e.val; omega)

def proj (X : SX.Idx → EReal) (W : SW.Idx → EReal) : SH.Idx → EReal := fun i =>
  ∑ k : Fin 1024, X (ix3 (i 0) (i 2) k) * W (ix2 (headCol (i 1) (i 3)) k)

def score (Q K : SH.Idx → EReal) (M : SM.Idx → BitVec 1) : SA.Idx → EReal := fun i =>
  Scalar.select (M (ix3 (i 0) (i 2) (i 3))) negBig
    ((∑ e : Fin 64, Q (ix4 (i 0) (i 1) (i 2) e) * K (ix4 (i 0) (i 1) (i 3) e)) * eighth)

/-- The exponential of an entry's distance below its row's maximum. -/
def expo (S : SA.Idx → EReal) : SA.Idx → EReal := fun i =>
  Ideal.exp (S i - (Finset.univ : Finset (Fin 2048)).fold max negInf (fun j => S (ix4 (i 0) (i 1) (i 2) j)))

def attn (S : SA.Idx → EReal) : SA.Idx → EReal := fun i =>
  Ideal.div (expo S i) (∑ j : Fin 2048, expo S (ix4 (i 0) (i 1) (i 2) j))

def ctx (A : SA.Idx → EReal) (V : SH.Idx → EReal) : SH.Idx → EReal := fun i =>
  ∑ k : Fin 2048, A (ix4 (i 0) (i 1) (i 2) k) * V (ix4 (i 0) (i 1) k (i 3))

def resid (C : SH.Idx → EReal) (W : SW.Idx → EReal) (X : SX.Idx → EReal) : SX.Idx → EReal := fun i =>
  (∑ e : Fin 1024, C (ix4 (i 0) (headOf e) (i 1) (withinHead e)) * W (ix2 (i 2) e)) + X i

def mean (x : SX.Idx → EReal) (b : Fin 4) (s : Fin 2048) : EReal :=
  Ideal.div (∑ n : Fin 1024, x (ix3 b s n)) width

def centred (x : SX.Idx → EReal) : SX.Idx → EReal := fun i => x i - mean x (i 0) (i 1)

def variance (x : SX.Idx → EReal) (b : Fin 4) (s : Fin 2048) : EReal :=
  Ideal.div (∑ n : Fin 1024, centred x (ix3 b s n) * centred x (ix3 b s n)) width

def ln (x : SX.Idx → EReal) : SX.Idx → EReal := fun i =>
  centred x i * Ideal.rsqrt (variance x (i 0) (i 1) + eps)

/-! ### The same stages over rows laid flat

The kernel's projections and its output stage see the batch and position axes as ONE axis of 8192 rows, row
`2048 b + s`. The flat forms below are the stages above with that row index. -/

abbrev SF : Shape := ⟨2, ![8192, 1024]⟩

/-- Row 2048 b + s of the flat layout. -/
def flatRow (b : Fin 4) (s : Fin 2048) : Fin 8192 := ⟨b.val * 2048 + s.val, by have := b.isLt; have := s.isLt; omega⟩

def projFlat (Xf : SF.Idx → EReal) (W : SW.Idx → EReal) : SH.Idx → EReal := fun i =>
  ∑ k : Fin 1024, Xf (ix2 (flatRow (i 0) (i 2)) k) * W (ix2 (headCol (i 1) (i 3)) k)

def residFlat (Cf : SF.Idx → EReal) (W : SW.Idx → EReal) (Xf : SF.Idx → EReal) : SF.Idx → EReal := fun i =>
  (∑ e : Fin 1024, Cf (ix2 (i 0) e) * W (ix2 (i 1) e)) + Xf i

def meanFlat (x : SF.Idx → EReal) (r : Fin 8192) : EReal := Ideal.div (∑ n : Fin 1024, x (ix2 r n)) width

def centredFlat (x : SF.Idx → EReal) : SF.Idx → EReal := fun i => x i - meanFlat x (i 0)

def varianceFlat (x : SF.Idx → EReal) (r : Fin 8192) : EReal :=
  Ideal.div (∑ n : Fin 1024, centredFlat x (ix2 r n) * centredFlat x (ix2 r n)) width

def lnFlat (x : SF.Idx → EReal) : SF.Idx → EReal := fun i =>
  centredFlat x i * Ideal.rsqrt (varianceFlat x (i 0) + eps)

/-- The whole block's two results: the attention weights, and the normalised rows. -/
def weights (XQ XK : SX.Idx → EReal) (M : SM.Idx → BitVec 1) (WQ WK : SW.Idx → EReal) : SA.Idx → EReal :=
  attn (score (proj XQ WQ) (proj XK WK) M)

def output (XQ XK XV : SX.Idx → EReal) (M : SM.Idx → BitVec 1) (WQ WK WV WO : SW.Idx → EReal) : SX.Idx → EReal :=
  ln (resid (ctx (weights XQ XK M WQ WK) (proj XV WV)) WO XQ)

end Cert.Mha

end
-- ==== Proof.Flat.lean ====
/-
  Rows laid flat. The kernel's projections and its output stage see batch b and position s as ONE row index
  2048 b + s. This module relates that layout to the three-axis one: reading a flattened array, un-flattening a
  result, joining the 16 heads back into 1024 features (a transpose followed by a flattening), and the statement that
  the flat stages of the specification are the three-axis stages read at row 2048 b + s.
-/
import Idealize.ShloMosaic.Lib.Pipeline.Value
import Idealize.ShloMosaic.Lib.ValueIdx
import Idealize.ShloMosaic.Lib.ValueIdxCoords
import proofs.«143923_j53437983097248_2_alg».proof.Proof.Spec

noncomputable section

open scoped BigOperators

namespace Cert.Mha

open Idealize.ShloMosaic Idealize.ShloMosaic.ValueIdx

/-- Heads after positions: (batch, position, head, entry). -/
abbrev ST : Shape := ⟨4, ![4, 2048, 16, 64]⟩

section Layout

variable {α : Type}

/-- Flattening keeps row-major order: row `2048 b + s` of the flat array is row `(b, s)`. -/
theorem flatten_apply (X : SX.Idx → α) (h : SX.ShapeCasts SF) (b : Fin 4) (s : Fin 2048) (k : Fin 1024) :
    shapeCast SF X h (ix2 (flatRow b s) k) = X (ix3 b s k) :=
  shapeCast_apply X h _ _ (by
    rw [Shape.rowMajor_val_three, Shape.rowMajor_val_two]
    rfl)

/-- And back. -/
theorem unflatten_apply (Y : SF.Idx → α) (h : SF.ShapeCasts SX) (b : Fin 4) (s : Fin 2048) (n : Fin 1024) :
    shapeCast SX Y h (ix3 b s n) = Y (ix2 (flatRow b s) n) :=
  shapeCast_apply Y h _ _ (by
    rw [Shape.rowMajor_val_two, Shape.rowMajor_val_three]
    rfl)

/-- Joining the heads: moving the head axis behind the position axis and flattening puts entry `d` of head `h`
    at feature `64 h + d` of row `2048 b + s`. -/
theorem joinHeads_apply (C : SH.Idx → α) (ht : SH.Transposes [0, 2, 1, 3] ST) (hc : ST.ShapeCasts SF)
    (b : Fin 4) (s : Fin 2048) (e : Fin 1024) :
    shapeCast SF (transpose ST [0, 2, 1, 3] C ht) hc (ix2 (flatRow b s) e) = C (ix4 b (headOf e) s (withinHead e)) := by
  rw [shapeCast_apply (transpose ST [0, 2, 1, 3] C ht) hc (ix2 (flatRow b s) e) (ix4 b s (headOf e) (withinHead e)) (by
    rw [Shape.rowMajor_val_four, Shape.rowMajor_val_two]
    show ((b.val * 2048 + s.val) * 16 + e.val / 64) * 64 + e.val % 64 = (b.val * 2048 + s.val) * 1024 + e.val
    omega)]
  exact transpose_apply [0, 2, 1, 3] C ht _ (ix4 b (headOf e) s (withinHead e)) (fun ax => match ax with
    | ⟨0, _⟩ => rfl
    | ⟨1, _⟩ => rfl
    | ⟨2, _⟩ => rfl
    | ⟨3, _⟩ => rfl)

end Layout

/-- The projection of flattened rows is the projection. -/
theorem projFlat_flatten (X : SX.Idx → EReal) (W : SW.Idx → EReal) (h : SX.ShapeCasts SF) :
    projFlat (shapeCast SF X h) W = proj X W := by
  funext i
  unfold projFlat proj
  exact Finset.sum_congr rfl fun k _ =>
    congrArg (· * W (ix2 (headCol (i 1) (i 3)) k)) (flatten_apply X h (i 0) (i 2) k)

/-- The flat residual stage on joined heads and flattened rows, at row `2048 b + s`, is the residual stage at `(b, s)`. -/
theorem residFlat_rows (C : SH.Idx → EReal) (W : SW.Idx → EReal) (X : SX.Idx → EReal)
    (ht : SH.Transposes [0, 2, 1, 3] ST) (hc : ST.ShapeCasts SF) (hx : SX.ShapeCasts SF)
    (b : Fin 4) (s : Fin 2048) (n : Fin 1024) :
    residFlat (shapeCast SF (transpose ST [0, 2, 1, 3] C ht) hc) W (shapeCast SF X hx) (ix2 (flatRow b s) n)
      = resid C W X (ix3 b s n) := by
  show (∑ e : Fin 1024, shapeCast SF (transpose ST [0, 2, 1, 3] C ht) hc (ix2 (flatRow b s) e) * W (ix2 n e))
      + shapeCast SF X hx (ix2 (flatRow b s) n)
    = (∑ e : Fin 1024, C (ix4 b (headOf e) s (withinHead e)) * W (ix2 n e)) + X (ix3 b s n)
  rw [flatten_apply]
  exact congrArg (· + X (ix3 b s n)) (Finset.sum_congr rfl fun e _ => by rw [joinHeads_apply])

/-- Row statistics only see their own row: if a flat array and a three-axis array agree row by row, so do their
    normalised forms. -/
theorem lnFlat_rows (xf : SF.Idx → EReal) (x : SX.Idx → EReal)
    (hx : ∀ (b : Fin 4) (s : Fin 2048) (n : Fin 1024), xf (ix2 (flatRow b s) n) = x (ix3 b s n))
    (b : Fin 4) (s : Fin 2048) (n : Fin 1024) :
    lnFlat xf (ix2 (flatRow b s) n) = ln x (ix3 b s n) := by
  have hm : meanFlat xf (flatRow b s) = mean x b s :=
    congrArg (fun t => Ideal.div t width) (Finset.sum_congr rfl fun k _ => hx b s k)
  have hc : ∀ k : Fin 1024, centredFlat xf (ix2 (flatRow b s) k) = centred x (ix3 b s k) := fun k => by
    show xf (ix2 (flatRow b s) k) - meanFlat xf (flatRow b s) = x (ix3 b s k) - mean x b s
    rw [hx, hm]
  have hv : varianceFlat xf (flatRow b s) = variance x b s :=
    congrArg (fun t => Ideal.div t width) (Finset.sum_congr rfl fun k _ => by rw [hc k])
  show centredFlat xf (ix2 (flatRow b s) n) * Ideal.rsqrt (varianceFlat xf (flatRow b s) + eps)
    = centred x (ix3 b s n) * Ideal.rsqrt (variance x b s + eps)
  rw [hc n, hv]

end Cert.Mha

end
-- ==== Proof.Stretches.lean ====
/-
  What each pipelined call is entered with, and what the two results end holding, read through the program's host
  operations. Between the calls the program only re-lays arrays: the three inputs are flattened to 8192 rows before
  their projections, the mask bits are widened to words, the context is moved to (batch, position, head, entry) and
  flattened, the first input is flattened again as the residual, and the normalised rows are un-flattened at the end.
  No call writes an array another call's output lives in, so every array met here is either an argument as launched,
  such a re-laying of one, or what an earlier call left.
-/
import proofs.«143923_j53437983097248_2_alg».proof.Proof.Gen.KernelIdeal.Frame
import proofs.«143923_j53437983097248_2_alg».proof.Proof.Spec

set_option maxRecDepth 16384

noncomputable section

open scoped BigOperators

namespace Cert.KernelIdeal.Block

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg) (c : Dev nD)

/-! ## The projections' entry arrays -/

theorem rows_query_src : W0 m ρ c (Proc.devRef .tc main_arg0) = m ((c : Thread nD τ).loc main_arg0) :=
  calc W0 m ρ c (Proc.devRef .tc main_arg0)
    _ = m ((c : Thread nD τ).loc main_arg0) := rfl

/-- The first projection is entered with the query input flattened. -/
theorem rows_query : W1 m ρ c (Proc.devRef .tc main_v0)
    = shapeCast S8192x1024 (m ((c : Thread nD τ).loc main_arg0)) shapeCasts_S4x2048x1024_S8192x1024 := by
  have h : W1 m ρ c (Proc.devRef .tc main_v0) = shapeCast S8192x1024 (W0 m ρ c (Proc.devRef .tc main_arg0)) shapeCasts_S4x2048x1024_S8192x1024 := by
    show StableHlo.after hostOps0 (W0 m ρ c) (Proc.devRef .tc main_v0) = _
    after_results
    all_goals rfl
  rw [h]
  all_goals exact congrArg (fun x => shapeCast S8192x1024 x shapeCasts_S4x2048x1024_S8192x1024) (rows_query_src m ρ c)

/-- … and the query weight as launched. -/
theorem weight_query : W1 m ρ c (Proc.devRef .tc main_arg4) = m ((c : Thread nD τ).loc main_arg4) :=
  calc W1 m ρ c (Proc.devRef .tc main_arg4)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem rows_key_src : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- The second projection is entered with the key input flattened. -/
theorem rows_key : W3 m ρ c (Proc.devRef .tc main_v2)
    = shapeCast S8192x1024 (m ((c : Thread nD τ).loc main_arg1)) shapeCasts_S4x2048x1024_S8192x1024 := by
  have h : W3 m ρ c (Proc.devRef .tc main_v2) = shapeCast S8192x1024 (W2 m ρ c (Proc.devRef .tc main_arg1)) shapeCasts_S4x2048x1024_S8192x1024 := by
    show StableHlo.after hostOps1 (W2 m ρ c) (Proc.devRef .tc main_v2) = _
    after_results
    all_goals rfl
  rw [h]
  all_goals exact congrArg (fun x => shapeCast S8192x1024 x shapeCasts_S4x2048x1024_S8192x1024) (rows_key_src m ρ c)

/-- … and the key weight as launched. -/
theorem weight_key : W3 m ρ c (Proc.devRef .tc main_arg5) = m ((c : Thread nD τ).loc main_arg5) :=
  calc W3 m ρ c (Proc.devRef .tc main_arg5)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem rows_value_src : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- The third projection is entered with the value input flattened. -/
theorem rows_value : W5 m ρ c (Proc.devRef .tc main_v4)
    = shapeCast S8192x1024 (m ((c : Thread nD τ).loc main_arg2)) shapeCasts_S4x2048x1024_S8192x1024 := by
  have h : W5 m ρ c (Proc.devRef .tc main_v4) = shapeCast S8192x1024 (W4 m ρ c (Proc.devRef .tc main_arg2)) shapeCasts_S4x2048x1024_S8192x1024 := by
    show StableHlo.after hostOps2 (W4 m ρ c) (Proc.devRef .tc main_v4) = _
    after_results
    all_goals rfl
  rw [h]
  all_goals exact congrArg (fun x => shapeCast S8192x1024 x shapeCasts_S4x2048x1024_S8192x1024) (rows_value_src m ρ c)

/-- … and the value weight as launched. -/
theorem weight_value : W5 m ρ c (Proc.devRef .tc main_arg6) = m ((c : Thread nD τ).loc main_arg6) :=
  calc W5 m ρ c (Proc.devRef .tc main_arg6)
    _ = W4 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-! ## The attention call's entry arrays -/

/-- The attention call is entered with what the first projection left … -/
theorem heads_query : W7 m ρ c (Proc.devRef .tc main_v1) = (dat0 (V1 m ρ) c).arrAt 2 cfg0.N :=
  calc W7 m ρ c (Proc.devRef .tc main_v1)
    _ = W6 m ρ c (Proc.devRef .tc main_v1) := StableHlo.after_of_forall_not_mem (b := Proc.devRef .tc main_v1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v1) := W6_of_ne m ρ c main_v1 (by decide)
    _ = W4 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 2 cfg0.N := W2_arr m ρ c 2

/-- … what the second left … -/
theorem heads_key : W7 m ρ c (Proc.devRef .tc main_v3) = (dat1 (V3 m ρ) c).arrAt 2 cfg1.N :=
  calc W7 m ρ c (Proc.devRef .tc main_v3)
    _ = W6 m ρ c (Proc.devRef .tc main_v3) := StableHlo.after_of_forall_not_mem (b := Proc.devRef .tc main_v3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat1 (V3 m ρ) c).arrAt 2 cfg1.N := W4_arr m ρ c 2

/-- … what the third left … -/
theorem heads_value : W7 m ρ c (Proc.devRef .tc main_v5) = (dat2 (V5 m ρ) c).arrAt 2 cfg2.N :=
  calc W7 m ρ c (Proc.devRef .tc main_v5)
    _ = W6 m ρ c (Proc.devRef .tc main_v5) := StableHlo.after_of_forall_not_mem (b := Proc.devRef .tc main_v5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat2 (V5 m ρ) c).arrAt 2 cfg2.N := W6_arr m ρ c 2

/-- The mask bits reach the widening as launched. -/
theorem mask_bits : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- … and the mask bits widened to words. -/
theorem mask_words : W7 m ρ c (Proc.devRef .tc main_v6) = extui 32 (m ((c : Thread nD τ).loc main_arg3)) natLt_1_32 := by
  have h : W7 m ρ c (Proc.devRef .tc main_v6) = extui 32 (W6 m ρ c (Proc.devRef .tc main_arg3)) natLt_1_32 := by
    show StableHlo.after hostOps3 (W6 m ρ c) (Proc.devRef .tc main_v6) = _
    after_results
    all_goals rfl
  rw [h, mask_bits]

/-! ## The output call's entry arrays -/

/-- The output call is entered with the context the attention call left, heads moved behind positions and flattened … -/
theorem rows_context : W9 m ρ c (Proc.devRef .tc main_v9)
    = shapeCast S8192x1024 (transpose S4x2048x16x64 [0, 2, 1, 3] ((dat3 (V7 m ρ) c).arrAt 5 cfg3.N)
        transposes_S4x16x2048x64_S4x2048x16x64_0_2_1_3) shapeCasts_S4x2048x16x64_S8192x1024 := by
  have h : W9 m ρ c (Proc.devRef .tc main_v9)
      = shapeCast S8192x1024 (transpose S4x2048x16x64 [0, 2, 1, 3] (W8 m ρ c (Proc.devRef .tc main_v7_1))
          transposes_S4x16x2048x64_S4x2048x16x64_0_2_1_3) shapeCasts_S4x2048x16x64_S8192x1024 := by
    show StableHlo.after hostOps4 (W8 m ρ c) (Proc.devRef .tc main_v9) = _
    after_results
    all_goals rfl
  rw [h, show W8 m ρ c (Proc.devRef .tc main_v7_1) = (dat3 (V7 m ρ) c).arrAt 5 cfg3.N from W8_arr m ρ c 5]
/-- … the output weight as launched … -/
theorem weight_out : W9 m ρ c (Proc.devRef .tc main_arg7) = m ((c : Thread nD τ).loc main_arg7) :=
  calc W9 m ρ c (Proc.devRef .tc main_arg7)
    _ = W8 m ρ c (Proc.devRef .tc main_arg7) := StableHlo.after_of_forall_not_mem (b := Proc.devRef .tc main_arg7) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg7) := W8_of_ne m ρ c main_arg7 (by decide)
    _ = W6 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem rows_residual_src : W8 m ρ c (Proc.devRef .tc main_arg0) = m ((c : Thread nD τ).loc main_arg0) :=
  calc W8 m ρ c (Proc.devRef .tc main_arg0)
    _ = W7 m ρ c (Proc.devRef .tc main_arg0) := W8_of_ne m ρ c main_arg0 (by decide)
    _ = W6 m ρ c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- … and the query input flattened again, as the residual. -/
theorem rows_residual : W9 m ρ c (Proc.devRef .tc main_v10)
    = shapeCast S8192x1024 (m ((c : Thread nD τ).loc main_arg0)) shapeCasts_S4x2048x1024_S8192x1024 := by
  have h : W9 m ρ c (Proc.devRef .tc main_v10) = shapeCast S8192x1024 (W8 m ρ c (Proc.devRef .tc main_arg0)) shapeCasts_S4x2048x1024_S8192x1024 := by
    show StableHlo.after hostOps4 (W8 m ρ c) (Proc.devRef .tc main_v10) = _
    after_results
    all_goals rfl
  rw [h]
  all_goals exact congrArg (fun x => shapeCast S8192x1024 x shapeCasts_S4x2048x1024_S8192x1024) (rows_residual_src m ρ c)

/-! ## The two results -/

/-- The normalised rows: what the output call left, un-flattened. -/
theorem result_rows : W11 m ρ c (Proc.devRef .tc main_v12)
    = shapeCast S4x2048x1024 ((dat4 (V9 m ρ) c).arrAt 3 cfg4.N) shapeCasts_S8192x1024_S4x2048x1024 := by
  have h : W11 m ρ c (Proc.devRef .tc main_v12) = shapeCast S4x2048x1024 (W10 m ρ c (Proc.devRef .tc main_v11)) shapeCasts_S8192x1024_S4x2048x1024 := by
    show StableHlo.after hostOps5 (W10 m ρ c) (Proc.devRef .tc main_v12) = _
    after_results
    all_goals rfl
  rw [h, show W10 m ρ c (Proc.devRef .tc main_v11) = (dat4 (V9 m ρ) c).arrAt 3 cfg4.N from W10_arr m ρ c 3]

/-- The attention weights: what the attention call left, untouched afterwards. -/
theorem result_weights : W11 m ρ c (Proc.devRef .tc main_v7_0) = (dat3 (V7 m ρ) c).arrAt 4 cfg3.N :=
  calc W11 m ρ c (Proc.devRef .tc main_v7_0)
    _ = W10 m ρ c (Proc.devRef .tc main_v7_0) := StableHlo.after_of_forall_not_mem (b := Proc.devRef .tc main_v7_0) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v7_0) := W10_of_ne m ρ c main_v7_0 (by decide)
    _ = W8 m ρ c (Proc.devRef .tc main_v7_0) := StableHlo.after_of_forall_not_mem (b := Proc.devRef .tc main_v7_0) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat3 (V7 m ρ) c).arrAt 4 cfg3.N := W8_arr m ρ c 4

end Cert.KernelIdeal.Block

end
-- ==== Proof.LibRowSoftmax.lean ====
/-
  General lemmas for kernels that take a softmax along the rows of a matrix and multiply matrices row by column,
  read at an index given by coordinates, on the extended reals. Independent of any program.

  * `expRows s` — every row of `s` minus its maximum, exponentiated — and `normRows e` — every row of `e` over its
    sum — are written with the vector operations a kernel body prints (a lane reduction, the result kept as a column,
    the column broadcast back along the row), with the shape facts and the accumulator facts as arguments, so that a
    printed body is such a term by `rfl`. `expRows_apply` and `normRows_apply` read them at `(p, j)`: the entry's
    distance below the fold of `max` over row `p`, exponentiated; the entry over the `Fin n` sum of row `p`.
  * `matmul_rows_cols_apply` — a product `[a, n] · [n, b]` into the zero accumulator, read at `(p, c)`, is the sum
    over `k : Fin n` of the left factor at `(p, k)` times the right factor at `(k, c)`; the two kept-axis coordinate
    facts of the dimension numbers are the caller's (they are decided on the printed record).
-/
import Idealize.ShloMosaic.PureOps
import Idealize.ShloMosaic.PureOps.Ideal.Laws
import Idealize.ShloMosaic.Lib.ValueIdx
import Idealize.ShloMosaic.Lib.Pipeline.Value

noncomputable section

open scoped BigOperators

namespace Cert.RowSoftmax

open Idealize.ShloMosaic Idealize.ShloMosaic.ValueIdx

section Layout

variable {α : Type} {a n : ℕ}

/-- A vector `[a]` kept as the column `[a, 1]` holds, at `(p, u)`, the vector's entry `p`. -/
theorem column_apply (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, n]` holds, at `(p, c)`, the column's entry `p`. -/
theorem column_broadcast_apply (v : (⟨2, ![a, 1]⟩ : Shape).Idx → α)
    (h : (⟨2, ![a, 1]⟩ : Shape).Broadcasts ⟨2, ![a, n]⟩) (p : Fin a) (c : Fin n) :
    broadcastTo ⟨2, ![a, n]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `p` with the column coordinate `k` put back is the index `(p, k)`. -/
theorem row_lift (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

end Layout

section Terms

variable {F : FTy → Type} [FloatOps F] {a n : ℕ}

/-- Every row minus its maximum, exponentiated. -/
def expRows (s : FVec F ⟨2, ![a, n]⟩ .f32)
    (hr : (⟨2, ![a, n]⟩ : Shape).Reduces [1] (⟨1, ![a]⟩ : Shape)) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, n]⟩) :
    FVec F ⟨2, ![a, n]⟩ .f32 :=
  exp (subf s (broadcastTo ⟨2, ![a, n]⟩
    (shapeCast ⟨2, ![a, 1]⟩ (multiReduction .maximumf [1] ⟨1, ![a]⟩ s 0xFF800000#32 hr hφ hacc) hc) hb))

/-- Every row over its sum. -/
def normRows (e : FVec F ⟨2, ![a, n]⟩ .f32)
    (hr : (⟨2, ![a, n]⟩ : Shape).Reduces [1] (⟨1, ![a]⟩ : Shape)) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, n]⟩) :
    FVec F ⟨2, ![a, n]⟩ .f32 :=
  divf e (broadcastTo ⟨2, ![a, n]⟩
    (shapeCast ⟨2, ![a, 1]⟩ (multiReduction .add [1] ⟨1, ![a]⟩ e 0x00000000#32 hr hφ hacc) hc) hb)

end Terms

variable {a n : ℕ}

/-- Entry `(p, j)` of the exponentials: the exponential of the entry's distance below row `p`'s maximum, the
    maximum a fold of `max` from the accumulator word's value over the row. -/
theorem expRows_apply (s : FVec Ideal ⟨2, ![a, n]⟩ .f32)
    (hr : (⟨2, ![a, n]⟩ : Shape).Reduces [1] (⟨1, ![a]⟩ : Shape)) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, n]⟩)
    (p : Fin a) (j : Fin n) :
    expRows s hr hφ hacc hc hb (ix2 p j)
      = Ideal.exp (s (ix2 p j)
          - (Finset.univ : Finset (Fin n)).fold max (Ideal.ofBits .f32 0xFF800000#32) (fun j' => s (ix2 p j'))) := by
  unfold expRows
  show Ideal.exp (s (ix2 p j) - broadcastTo ⟨2, ![a, n]⟩ _ hb (ix2 p j)) = _
  rw [column_broadcast_apply, column_apply]
  refine congrArg (fun x => Ideal.exp (s (ix2 p j) - x)) ?_
  exact (Ideal.multiReduction_maximumf_single s _ hr hφ hacc (ix1 p)).trans
    (congrArg (fun f => (Finset.univ : Finset (Fin n)).fold max (Ideal.ofBits .f32 0xFF800000#32) f)
      (funext fun k => congrArg s (row_lift hr p k)))

/-- Entry `(p, j)` of the normalised rows: the entry over the sum of row `p`. -/
theorem normRows_apply (e : FVec Ideal ⟨2, ![a, n]⟩ .f32)
    (hr : (⟨2, ![a, n]⟩ : Shape).Reduces [1] (⟨1, ![a]⟩ : Shape)) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, n]⟩)
    (p : Fin a) (j : Fin n) :
    normRows e hr hφ hacc hc hb (ix2 p j) = Ideal.div (e (ix2 p j)) (∑ j' : Fin n, e (ix2 p j')) := by
  unfold normRows
  rw [divf_apply, column_broadcast_apply, column_apply]
  refine congrArg (Ideal.div (e (ix2 p j))) ?_
  exact (Ideal.multiReduction_add_single e _ hr hφ hacc (ix1 p)).trans
    (Finset.sum_congr rfl fun k _ => congrArg e (row_lift hr p k))

/-- A rows-by-columns product `[a, n] · [n, b]` into the zero accumulator, read at `(p, c)`: the sum over the shared
    axis of row `p` of the left factor against column `c` of the right one. The contracted coordinates follow from
    which axes are contracted; the kept ones (`hl0`, `hr1`) are the caller's. -/
theorem matmul_rows_cols_apply {b : ℕ} (d : DotDims ⟨2, ![a, n]⟩ ⟨2, ![n, b]⟩ ⟨2, ![a, b]⟩)
    (hr : d.contr.rank = 1) (hs : d.contr.size ⟨0, by omega⟩ = n)
    (hlc : d.lhsContracting = [1]) (hrc : d.rhsContracting = [0])
    (hl0 : ∀ (i : (⟨2, ![a, b]⟩ : Shape).Idx) (q : d.contr.Idx), (d.lhsIdx i q 0).val = (i 0).val)
    (hr1 : ∀ (i : (⟨2, ![a, b]⟩ : Shape).Idx) (q : d.contr.Idx), (d.rhsIdx i q 1).val = (i 1).val)
    {φ₁ φ₂ : FTy} (prec : Option ContractPrecision) (lhs : FVec Ideal ⟨2, ![a, n]⟩ φ₁) (rhs : FVec Ideal ⟨2, ![n, b]⟩ φ₂)
    (p : Fin a) (c : Fin b) :
    FloatOps.matmul d prec lhs rhs (constant ⟨2, ![a, b]⟩ .f32 0x00000000#32) (ix2 p c)
      = ∑ k : Fin n, lhs (ix2 p k) * rhs (ix2 k c) := by
  rw [Ideal.matmul_constant_zero_apply, ← Equiv.sum_comp (contrEquiv1 d n hr hs).symm]
  refine Finset.sum_congr rfl fun k _ => ?_
  have hk := contrEquiv1_symm_val d n hr hs k
  have hL : d.lhsIdx (ix2 p c) ((contrEquiv1 d n hr hs).symm k) = ix2 p k := by
    funext ax; apply Fin.ext
    match ax with
    | ⟨0, _⟩ => exact hl0 _ _
    | ⟨1, _⟩ => exact (d.lhsIdx_val_of_single hlc _ _).trans hk
  have hR : d.rhsIdx (ix2 p c) ((contrEquiv1 d n hr hs).symm k) = ix2 k c := by
    funext ax; apply Fin.ext
    match ax with
    | ⟨0, _⟩ => exact (d.rhsIdx_val_of_single hrc _ _).trans hk
    | ⟨1, _⟩ => exact hr1 _ _
  rw [hL, hR]

end Cert.RowSoftmax

end
-- ==== Proof.LibIndexReads.lean ====
/-
  Three general readings at an index, at the ideal values or at any values.

  * a matrix product into a zero accumulator whose dimension numbers contract ONE axis of extent `n`
    is, at an output index, the sum over `k : Fin n` of the left operand at `L k` times the right at `R k`,
    for whatever index maps `L`, `R` the caller shows the dimension numbers to induce;
  * an `[a, b]` array viewed as `[a, b, 1]` (a reduction's kept last axis), read at `(p, q, u)`, is entry `(p, q)`;
  * an `[a, b, 1]` array broadcast to `[a, b, c]`, read at `(p, q, r)`, is entry `(p, q, 0)`.
-/
import Idealize.ShloMosaic.PureOps.Ideal.Laws
import Idealize.ShloMosaic.Lib.ValueIdx
import Idealize.ShloMosaic.Lib.Pipeline.Value

noncomputable section

namespace Cert.IndexReads

open Idealize.ShloMosaic Idealize.ShloMosaic.ValueIdx

/-- A matrix product into the zero accumulator, contracting one axis of extent `n`, read at an output
    index `j`: the sum over that axis of the operands' products, the operands read where the dimension
    numbers say (`hL`, `hR`). -/
theorem matmul_zero_single {sl sr so : Shape} {φ₁ φ₂ : FTy} (d : DotDims sl sr so) (n : Nat) (hr : d.contr.rank = 1)
    (hs : d.contr.size ⟨0, by omega⟩ = n) (prec : Option ContractPrecision)
    (lhs : FVec Ideal sl φ₁) (rhs : FVec Ideal sr φ₂) (j : so.Idx) (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    FloatOps.matmul d prec lhs rhs (constant so .f32 0x00000000#32) j = ∑ k : Fin n, lhs (L k) * rhs (R k) := by
  rw [Ideal.matmul_constant_zero_apply, ← Equiv.sum_comp (contrEquiv1 d n hr hs).symm]
  exact Finset.sum_congr rfl fun k _ => by rw [hL k, hR k]

variable {α : Type}

/-- An `[a, b]` array viewed `[a, b, 1]`, at `(p, q, u)`, is entry `(p, q)`: the two indices have one row-major position. -/
theorem keepLast_apply {a b : ℕ} (v : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ v h (ix3 p q u) = v (ix2 p q) := by
  refine shapeCast_apply v h (ix3 p q u) (ix2 p q) ?_
  rw [Shape.rowMajor_val_two, Shape.rowMajor_val_three]
  show p.val * b + q.val = (p.val * b + q.val) * 1 + u.val
  have := u.isLt
  omega

/-- An `[a, b, 1]` array broadcast to `[a, b, c]`, at `(p, q, r)`, is entry `(p, q, 0)`. -/
theorem spreadLast_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q 0) := by
  refine broadcastTo_apply v h (ix3 p q r) (ix3 p q 0) fun i => ?_
  match i with
  | ⟨0, _⟩ =>
    show p.val = if a = 1 then 0 else p.val
    split_ifs with h1
    · have := p.isLt; omega
    · rfl
  | ⟨1, _⟩ =>
    show q.val = if b = 1 then 0 else q.val
    split_ifs with h1
    · have := q.isLt; omega
    · rfl
  | ⟨2, _⟩ => rfl

end Cert.IndexReads

end
-- ==== Proof.AttnBlock.lean ====
/-
  One block of the attention call, read at an index on the extended reals.

  The body takes 512 query rows q (one head of one batch), that head's 2048 key rows k and value rows v, and the
  512 x 2048 tile of mask words, and stores two things: the 512 x 2048 tile of attention weights and the 512 x 64
  tile of context rows. With s(p, j) = -10^9 where mask word (p, j) is non-zero and (Σ_e q(p, e) k(j, e)) / 8
  elsewhere, the weight at (p, j) is exp (s(p, j) - max_j' s(p, j')) over the sum over j' of those exponentials,
  and the context at (p, d) is the sum over j of the weight (p, j) times v(j, d).
-/
import proofs.«143923_j53437983097248_2_alg».proof.Proof.Gen.KernelIdeal.Frame
import proofs.«143923_j53437983097248_2_alg».proof.Proof.Spec
import proofs.«143923_j53437983097248_2_alg».proof.Proof.LibRowSoftmax
import proofs.«143923_j53437983097248_2_alg».proof.Proof.LibIndexReads

set_option maxRecDepth 16384

noncomputable section

open scoped BigOperators

namespace Cert.KernelIdeal.Block

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## Unit leading axes -/

section Layout

variable {α : Type} {a b : ℕ}

/-- A `[1, 1, a, b]` tile seen as the matrix `[a, b]`: entry `(p, q)` is entry `(0, 0, p, q)`. -/
theorem matrix_of_tile4 (x : (⟨4, ![1, 1, a, b]⟩ : Shape).Idx → α)
    (h : (⟨4, ![1, 1, a, b]⟩ : Shape).ShapeCasts ⟨2, ![a, b]⟩) (p : Fin a) (q : Fin b) :
    shapeCast ⟨2, ![a, b]⟩ x h (ix2 p q) = x (ix4 (0 : Fin 1) (0 : Fin 1) p q) :=
  shapeCast_apply x h _ _ (by
    rw [Shape.rowMajor_val_four, Shape.rowMajor_val_two]
    show ((0 * 1 + 0) * a + p.val) * b + q.val = p.val * b + q.val
    simp)

/-- A `[1, a, b]` tile seen as the matrix `[a, b]`: entry `(p, q)` is entry `(0, p, q)`. -/
theorem matrix_of_tile3 (x : (⟨3, ![1, a, b]⟩ : Shape).Idx → α)
    (h : (⟨3, ![1, a, b]⟩ : Shape).ShapeCasts ⟨2, ![a, b]⟩) (p : Fin a) (q : Fin b) :
    shapeCast ⟨2, ![a, b]⟩ x h (ix2 p q) = x (ix3 (0 : Fin 1) p q) :=
  shapeCast_apply x h _ _ (by
    rw [Shape.rowMajor_val_three, Shape.rowMajor_val_two]
    show (0 * a + p.val) * b + q.val = p.val * b + q.val
    simp)

/-- A matrix `[a, b]` seen as the tile `[1, 1, a, b]`: entry `(u, u', p, q)` is entry `(p, q)`. -/
theorem tile4_of_matrix (x : (⟨2, ![a, b]⟩ : Shape).Idx → α)
    (h : (⟨2, ![a, b]⟩ : Shape).ShapeCasts ⟨4, ![1, 1, a, b]⟩) (u u' : Fin 1) (p : Fin a) (q : Fin b) :
    shapeCast ⟨4, ![1, 1, a, b]⟩ x h (ix4 u u' p q) = x (ix2 p q) :=
  shapeCast_apply x h _ _ (by
    have hu : u.val = 0 := by omega
    have hu' : u'.val = 0 := by omega
    rw [Shape.rowMajor_val_four, Shape.rowMajor_val_two]
    show p.val * b + q.val = ((u.val * 1 + u'.val) * a + p.val) * b + q.val
    rw [hu, hu']; simp)

end Layout

/-! ## The masked, scaled scores of a block -/

/-- The body's scores as the vector term it prints: the query tile against the key tile (contracting the 64
    entries of a head), times one eighth, the large negative constant where the mask word is not zero. -/
def blockScores (q0 : Vec Ideal S1x1x512x64 .bf16) (k0 : Vec Ideal S1x1x2048x64 .bf16) (m0 : Vec Ideal S1x512x2048 .i32) :
    FVec Ideal S512x2048 .f32 :=
  select (cmpi .ne (shapeCast S512x2048 m0 shapeCasts_S1x512x2048_S512x2048) (constantI S512x2048 32 0#32))
    (broadcast S512x2048 (Scalar.ofBits (F := Ideal) .f32 0xCE6E6B28#32))
    (mulf (matmul dot_S512x64_S2048x64_S512x2048_1_1_0_0_n_n none
        (shapeCast S512x64 q0 shapeCasts_S1x1x512x64_S512x64 : FVec Ideal S512x64 .bf16)
        (shapeCast S2048x64 k0 shapeCasts_S1x1x2048x64_S2048x64 : FVec Ideal S2048x64 .bf16) (constant S512x2048 .f32 0x00000000#32))
      (broadcast S512x2048 (Scalar.ofBits (F := Ideal) .f32 0x3E000000#32)))

/-- The query-key product keeps the query row from its left factor … -/
theorem scores_lhs_row (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide),
    dif_pos (show (0 : Fin S512x64.rank) ∈ dot_S512x64_S2048x64_S512x2048_1_1_0_0_n_n.lhsNonContracting by decide)]
  rfl

/-- … and the key row from its right factor. -/
theorem scores_rhs_row (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide),
    dif_pos (show (0 : Fin S2048x64.rank) ∈ dot_S512x64_S2048x64_S512x2048_1_1_0_0_n_n.rhsNonContracting by decide)]
  rfl

/-- The scores at `(p, j)`. -/
theorem blockScores_apply (q0 : Vec Ideal S1x1x512x64 .bf16) (k0 : Vec Ideal S1x1x2048x64 .bf16) (m0 : Vec Ideal S1x512x2048 .i32)
    (p : Fin 512) (j : Fin 2048) :
    blockScores q0 k0 m0 (ix2 p j)
      = Scalar.select (IntOp.cmpi .ne (m0 (ix3 (0 : Fin 1) p j)) 0#32) Cert.Mha.negBig
          ((∑ e : Fin 64, q0 (ix4 (0 : Fin 1) (0 : Fin 1) p e) * k0 (ix4 (0 : Fin 1) (0 : Fin 1) j e)) * Cert.Mha.eighth) := by
  unfold blockScores
  rw [select_apply]
  have hm : cmpi .ne (shapeCast S512x2048 m0 shapeCasts_S1x512x2048_S512x2048) (constantI S512x2048 32 0#32) (ix2 p j)
      = IntOp.cmpi .ne (m0 (ix3 (0 : Fin 1) p j)) 0#32 := by
    show IntOp.cmpi .ne (shapeCast S512x2048 m0 shapeCasts_S1x512x2048_S512x2048 (ix2 p j)) _ = _
    rw [matrix_of_tile3]; rfl
  have hs : matmul dot_S512x64_S2048x64_S512x2048_1_1_0_0_n_n none
        (shapeCast S512x64 q0 shapeCasts_S1x1x512x64_S512x64 : FVec Ideal S512x64 .bf16)
        (shapeCast S2048x64 k0 shapeCasts_S1x1x2048x64_S2048x64 : FVec Ideal S2048x64 .bf16) (constant S512x2048 .f32 0x00000000#32) (ix2 p j)
      = ∑ e : Fin 64, q0 (ix4 (0 : Fin 1) (0 : Fin 1) p e) * k0 (ix4 (0 : Fin 1) (0 : Fin 1) j e) := by
    refine (Cert.IndexReads.matmul_zero_single dot_S512x64_S2048x64_S512x2048_1_1_0_0_n_n 64 rfl rfl none _ _ (ix2 p j)
      (fun e => ix2 p e) (fun e => ix2 j e) (fun e => ?_) (fun e => ?_)).trans ?_
    · funext ax; apply Fin.ext
      have hk := contrEquiv1_symm_val dot_S512x64_S2048x64_S512x2048_1_1_0_0_n_n 64 rfl rfl e
      match ax with
      | ⟨0, _⟩ => exact scores_lhs_row _ _
      | ⟨1, _⟩ => exact (dot_S512x64_S2048x64_S512x2048_1_1_0_0_n_n.lhsIdx_val_of_single rfl _ _).trans hk
    · funext ax; apply Fin.ext
      have hk := contrEquiv1_symm_val dot_S512x64_S2048x64_S512x2048_1_1_0_0_n_n 64 rfl rfl e
      match ax with
      | ⟨0, _⟩ => exact scores_rhs_row _ _
      | ⟨1, _⟩ => exact (dot_S512x64_S2048x64_S512x2048_1_1_0_0_n_n.rhsIdx_val_of_single rfl _ _).trans hk
    · exact Finset.sum_congr rfl fun e _ => by rw [matrix_of_tile4, matrix_of_tile4]
  rw [hm, mulf_apply, hs]
  rfl

/-! ## The two stores -/

/-- The weights the body computes are the softmax of the scores' rows, in the printed operations. -/
theorem weights_eq_softmax (q0 : Vec Ideal S1x1x512x64 .bf16) (k0 : Vec Ideal S1x1x2048x64 .bf16) (m0 : Vec Ideal S1x512x2048 .i32) :
    k3_pay2 (F := Ideal) q0 k0 m0
      = Cert.RowSoftmax.normRows (Cert.RowSoftmax.expRows (blockScores q0 k0 m0) reduces_S512x2048_S512 (.inl rfl) rfl
          shapeCasts_S512_S512x1 broadcasts_S512x1_S512x2048) reduces_S512x2048_S512 (.inl rfl) rfl
          shapeCasts_S512_S512x1 broadcasts_S512x1_S512x2048 := by
  unfold k3_pay2 Cert.RowSoftmax.normRows Cert.RowSoftmax.expRows blockScores
  rfl

/-- Entry `(p, j)` of a row's exponentials, over the row's scores `s`. -/
def rowExp (s : Fin 2048 → EReal) (j : Fin 2048) : EReal :=
  Ideal.exp (s j - (Finset.univ : Finset (Fin 2048)).fold max Cert.Mha.negInf s)

/-- The block's weights at `(p, j)`: the row's exponential at `j` over the row's sum of exponentials. -/
theorem blockWeights_apply (q0 : Vec Ideal S1x1x512x64 .bf16) (k0 : Vec Ideal S1x1x2048x64 .bf16) (m0 : Vec Ideal S1x512x2048 .i32)
    (p : Fin 512) (j : Fin 2048) :
    k3_pay2 (F := Ideal) q0 k0 m0 (ix2 p j)
      = Ideal.div (rowExp (fun j' => blockScores q0 k0 m0 (ix2 p j')) j)
          (∑ j' : Fin 2048, rowExp (fun j'' => blockScores q0 k0 m0 (ix2 p j'')) j') := by
  have he : ∀ j' : Fin 2048, Cert.RowSoftmax.expRows (blockScores q0 k0 m0) reduces_S512x2048_S512 (.inl rfl) rfl
      shapeCasts_S512_S512x1 broadcasts_S512x1_S512x2048 (ix2 p j') = rowExp (fun j'' => blockScores q0 k0 m0 (ix2 p j'')) j' :=
    fun j' => Cert.RowSoftmax.expRows_apply _ _ _ _ _ _ p j'
  rw [weights_eq_softmax]
  refine (Cert.RowSoftmax.normRows_apply _ reduces_S512x2048_S512 (.inl rfl) rfl shapeCasts_S512_S512x1
    broadcasts_S512x1_S512x2048 p j).trans ?_
  exact congrArg₂ Ideal.div (he j) (Finset.sum_congr rfl fun j' _ => he j')

/-- The weights' store at `(0, 0, p, j)`. -/
theorem weightsTile_apply (q0 : Vec Ideal S1x1x512x64 .bf16) (k0 : Vec Ideal S1x1x2048x64 .bf16) (v0 : Vec Ideal S1x1x2048x64 .bf16)
    (m0 : Vec Ideal S1x512x2048 .i32) (u u' : Fin 1) (p : Fin 512) (j : Fin 2048) :
    out3_4 (F := Ideal) q0 k0 v0 m0 (ix4 u u' p j) = k3_pay2 (F := Ideal) q0 k0 m0 (ix2 p j) := by
  have hz : (![0, 0, 0, 0] : Fin 4 → Nat) = fun _ => 0 := funext fun a => by fin_cases a <;> rfl
  have hz3 : (![0, 0, 0] : Fin 3 → Nat) = fun _ => 0 := funext fun a => by fin_cases a <;> rfl
  unfold out3_4
  rw [View.canon_unit_zero hz]
  simp only [View.ld_unit_zero (S := S1x1x512x64) hz, View.ld_unit_zero (S := S1x1x2048x64) hz,
    View.ld_unit_zero (S := S1x512x2048) hz3]
  unfold k3_pay3
  exact tile4_of_matrix _ _ u u' p j

/-- The context store at `(0, 0, p, d)`: the weights' row `p` against column `d` of the value tile. -/
theorem contextTile_apply (q0 : Vec Ideal S1x1x512x64 .bf16) (k0 : Vec Ideal S1x1x2048x64 .bf16) (v0 : Vec Ideal S1x1x2048x64 .bf16)
    (m0 : Vec Ideal S1x512x2048 .i32) (u u' : Fin 1) (p : Fin 512) (d : Fin 64) :
    out3_5 (F := Ideal) q0 k0 v0 m0 (ix4 u u' p d)
      = ∑ j : Fin 2048, k3_pay2 (F := Ideal) q0 k0 m0 (ix2 p j) * v0 (ix4 (0 : Fin 1) (0 : Fin 1) j d) := by
  have hz : (![0, 0, 0, 0] : Fin 4 → Nat) = fun _ => 0 := funext fun a => by fin_cases a <;> rfl
  have hz3 : (![0, 0, 0] : Fin 3 → Nat) = fun _ => 0 := funext fun a => by fin_cases a <;> rfl
  unfold out3_5
  rw [View.canon_unit_zero hz]
  simp only [View.ld_unit_zero (S := S1x1x512x64) hz, View.ld_unit_zero (S := S1x1x2048x64) hz,
    View.ld_unit_zero (S := S1x512x2048) hz3]
  unfold k3_pay1
  rw [tile4_of_matrix]
  unfold k3_pay4
  refine (Cert.RowSoftmax.matmul_rows_cols_apply dot_S512x2048_S2048x64_S512x64_1_0_0_1_n_n rfl rfl rfl rfl
    (fun i q => ?_) (fun i q => ?_) none _ _ p d).trans ?_
  · unfold DotDims.lhsIdx
    rw [dif_neg (show ¬(0 : Fin S512x2048.rank) ∈ dot_S512x2048_S2048x64_S512x64_1_0_0_1_n_n.lhsBatch by decide),
      dif_pos (show (0 : Fin S512x2048.rank) ∈ dot_S512x2048_S2048x64_S512x64_1_0_0_1_n_n.lhsNonContracting by decide)]
    rfl
  · unfold DotDims.rhsIdx
    rw [dif_neg (show ¬(1 : Fin S2048x64.rank) ∈ dot_S512x2048_S2048x64_S512x64_1_0_0_1_n_n.rhsBatch by decide),
      dif_pos (show (1 : Fin S2048x64.rank) ∈ dot_S512x2048_S2048x64_S512x64_1_0_0_1_n_n.rhsNonContracting by decide)]
    rfl
  · exact Finset.sum_congr rfl fun j _ => by rw [truncf_apply, matrix_of_tile4]

end Cert.KernelIdeal.Block

end
-- ==== Proof.AttnPoint.lean ====
/-
  One grid point of the attention call against whole arrays.

  Grid point (b, qi, h) works on head h of batch b and on query rows 512 qi … 512 qi + 511. If its query tile is
  those rows of Q(b, h), its key and value tiles are K(b, h) and V(b, h), and its mask tile is rows 512 qi … of the
  mask words of batch b, then the weights it stores are the softmax rows (b, h, 512 qi + p) of the masked scaled
  scores, and the context rows it stores are those weights against V(b, h). The mask here is still the array of
  32-bit words the kernel is given; the last lemma turns a widened bit back into the bit.
-/
import proofs.«143923_j53437983097248_2_alg».proof.Proof.Gen.KernelIdeal.Frame
import proofs.«143923_j53437983097248_2_alg».proof.Proof.Spec
import proofs.«143923_j53437983097248_2_alg».proof.Proof.AttnBlock

set_option maxRecDepth 16384

noncomputable section

open scoped BigOperators

namespace Cert.KernelIdeal.Block

open Cert.KernelIdeal Cert.KernelIdeal.Gen
open Idealize.ShloMosaic Idealize.ShloMosaic.TcCoe Idealize.ShloMosaic.ValueIdx Idealize.SL.Sem
open Idealize.ShloMosaic.Pipeline (Dat Cfg Window)

open Cert.Mha (SX SW SH SM SA negBig eighth negInf)

/-- The masked scaled scores over mask WORDS: the large negative constant where the word is not zero. -/
def scoreW (Q K : SH.Idx → EReal) (M : SM.Idx → BitVec 32) : SA.Idx → EReal := fun i =>
  Scalar.select (IntOp.cmpi .ne (M (ix3 (i 0) (i 2) (i 3))) 0#32) negBig
    ((∑ e : Fin 64, Q (ix4 (i 0) (i 1) (i 2) e) * K (ix4 (i 0) (i 1) (i 3) e)) * eighth)

/-- A mask bit widened to a word is non-zero exactly when the bit is set. -/
theorem widened_ne_zero : ∀ b : BitVec 1, IntOp.cmpi .ne (b.setWidth 32) 0#32 = b := by decide

/-- Over widened bits the word scores are the bit scores. -/
theorem scoreW_widen (Q K : SH.Idx → EReal) (M : SM.Idx → BitVec 1) :
    scoreW Q K (fun i => (M i).setWidth 32) = Cert.Mha.score Q K M := by
  funext i
  unfold scoreW Cert.Mha.score
  rw [widened_ne_zero]

/-- Row `512 qi + p`. -/
def queryRow (qi : Fin 4) (p : Fin 512) : Fin 2048 := ⟨qi.val * 512 + p.val, by have := qi.isLt; have := p.isLt; omega⟩

section Point

variable (Q K V : SH.Idx → EReal) (M : SM.Idx → BitVec 32) (b : Fin 4) (h : Fin 16) (qi : Fin 4)
  (q0 : Vec Ideal S1x1x512x64 .bf16) (k0 v0 : Vec Ideal S1x1x2048x64 .bf16) (m0 : Vec Ideal S1x512x2048 .i32)
  (hq : ∀ (p : Fin 512) (e : Fin 64), q0 (ix4 (0 : Fin 1) (0 : Fin 1) p e) = Q (ix4 b h (queryRow qi p) e))
  (hk : ∀ (j : Fin 2048) (e : Fin 64), k0 (ix4 (0 : Fin 1) (0 : Fin 1) j e) = K (ix4 b h j e))
  (hv : ∀ (j : Fin 2048) (d : Fin 64), v0 (ix4 (0 : Fin 1) (0 : Fin 1) j d) = V (ix4 b h j d))
  (hm : ∀ (p : Fin 512) (j : Fin 2048), m0 (ix3 (0 : Fin 1) p j) = M (ix3 b (queryRow qi p) j))

include hq hk hm in
/-- The block's scores are the array's scores on its rows. -/
theorem point_scores (p : Fin 512) (j : Fin 2048) :
    blockScores q0 k0 m0 (ix2 p j) = scoreW Q K M (ix4 b h (queryRow qi p) j) := by
  rw [blockScores_apply, hm]
  show _ = Scalar.select (IntOp.cmpi .ne (M (ix3 b (queryRow qi p) j)) 0#32) negBig
    ((∑ e : Fin 64, Q (ix4 b h (queryRow qi p) e) * K (ix4 b h j e)) * eighth)
  exact congrArg (fun t => Scalar.select _ negBig (t * eighth)) (Finset.sum_congr rfl fun e _ => by rw [hq, hk])

include hq hk hm in
/-- The block's weights are the array's softmax rows. -/
theorem point_weights (u u' : Fin 1) (p : Fin 512) (j : Fin 2048) :
    out3_4 (F := Ideal) q0 k0 v0 m0 (ix4 u u' p j) = Cert.Mha.attn (scoreW Q K M) (ix4 b h (queryRow qi p) j) := by
  have hrow : (fun j' => blockScores q0 k0 m0 (ix2 p j')) = fun j' => scoreW Q K M (ix4 b h (queryRow qi p) j') :=
    funext fun j' => point_scores Q K M b h qi q0 k0 m0 hq hk hm p j'
  rw [weightsTile_apply, blockWeights_apply, hrow]
  rfl

include hq hk hv hm in
/-- The block's context rows are the array's. -/
theorem point_context (u u' : Fin 1) (p : Fin 512) (d : Fin 64) :
    out3_5 (F := Ideal) q0 k0 v0 m0 (ix4 u u' p d)
      = Cert.Mha.ctx (Cert.Mha.attn (scoreW Q K M)) V (ix4 b h (queryRow qi p) d) := by
  rw [contextTile_apply]
  show _ = ∑ j : Fin 2048, Cert.Mha.attn (scoreW Q K M) (ix4 b h (queryRow qi p) j) * V (ix4 b h j d)
  refine Finset.sum_congr rfl fun j _ => ?_
  rw [hv, ← point_weights Q K M b h qi q0 k0 v0 m0 hq hk hm 0 0 p j, weightsTile_apply]

end Point

end Cert.KernelIdeal.Block

end
-- ==== Proof.AttnArray.lean ====
/-
  The attention call's two arrays after its 256 grid points.

  Point t = (b, qi, h) writes rows 512 qi … 512 qi + 511 of head h of batch b into both outputs; its query, key, value
  and mask tiles are the corresponding tiles of the arrays the call is entered with. Every index of either output
  lies in exactly the block of its own (b, h, row / 512), so after the last point the weights array is the softmax of
  the masked scaled scores and the context array is the weights against the values, as whole-array functions of
  the entry arrays.
-/
import proofs.«143923_j53437983097248_2_alg».proof.Proof.Gen.KernelIdeal.Frame
import proofs.«143923_j53437983097248_2_alg».proof.Proof.Spec
import proofs.«143923_j53437983097248_2_alg».proof.Proof.AttnBlock
import proofs.«143923_j53437983097248_2_alg».proof.Proof.AttnPoint

set_option maxRecDepth 16384

noncomputable section

open scoped BigOperators

namespace Cert.KernelIdeal.Block

open Cert.KernelIdeal Cert.KernelIdeal.Gen
open Idealize.ShloMosaic Idealize.ShloMosaic.TcCoe Idealize.ShloMosaic.ValueIdx Idealize.SL.Sem
open Idealize.ShloMosaic.Pipeline (Dat Cfg Window)

open Cert.Mha (SX SW SH SM SA)

/-- The printed index maps, decided once over the 256 points: the query, weights and context tiles sit at
    (b, h, qi, 0), the key and value tiles at (b, h, 0, 0), the mask tile at (b, qi, 0). -/
theorem attn_idx_facts : ∀ t : Fin cfg3.N,
    win3_0.index t (0 : Fin 4) = win3_4.index t (0 : Fin 4) ∧ win3_0.index t (1 : Fin 4) = win3_4.index t (1 : Fin 4)
    ∧ win3_0.index t (2 : Fin 4) = win3_4.index t (2 : Fin 4) ∧ win3_0.index t (3 : Fin 4) = 0
    ∧ win3_1.index t (0 : Fin 4) = win3_4.index t (0 : Fin 4) ∧ win3_1.index t (1 : Fin 4) = win3_4.index t (1 : Fin 4)
    ∧ win3_1.index t (2 : Fin 4) = 0 ∧ win3_1.index t (3 : Fin 4) = 0
    ∧ win3_2.index t (0 : Fin 4) = win3_4.index t (0 : Fin 4) ∧ win3_2.index t (1 : Fin 4) = win3_4.index t (1 : Fin 4)
    ∧ win3_2.index t (2 : Fin 4) = 0 ∧ win3_2.index t (3 : Fin 4) = 0
    ∧ win3_3.index t (0 : Fin 3) = win3_4.index t (0 : Fin 4) ∧ win3_3.index t (1 : Fin 3) = win3_4.index t (2 : Fin 4)
    ∧ win3_3.index t (2 : Fin 3) = 0
    ∧ win3_5.index t (0 : Fin 4) = win3_4.index t (0 : Fin 4) ∧ win3_5.index t (1 : Fin 4) = win3_4.index t (1 : Fin 4)
    ∧ win3_5.index t (2 : Fin 4) = win3_4.index t (2 : Fin 4) ∧ win3_5.index t (3 : Fin 4) = 0
    ∧ win3_4.index t (0 : Fin 4) ≤ 3 ∧ win3_4.index t (1 : Fin 4) ≤ 15 ∧ win3_4.index t (2 : Fin 4) ≤ 3
    ∧ win3_4.index t (3 : Fin 4) = 0 :=
  (by decide +kernel : ∀ t : Fin grid3.N, _)

/-- Every (batch, head, tile of rows) is some point's. -/
theorem attn_idx_onto : ∀ (b : Fin 4) (h : Fin 16) (qi : Fin 4), ∃ t : Fin cfg3.N, win3_4.index t = ![b.val, h.val, qi.val, 0] :=
  (by decide +kernel : ∀ (b : Fin 4) (h : Fin 16) (qi : Fin 4), ∃ t : Fin grid3.N, win3_4.index t = ![b.val, h.val, qi.val, 0])

/-- A point's batch, head and tile of query rows. -/
def pointBatch (t : Fin cfg3.N) : Fin 4 := ⟨win3_4.index t (0 : Fin 4), by have := (attn_idx_facts t).2.2.2.2.2.2.2.2.2.2.2.2.2.2.2.2.2.2.2.1; omega⟩
def pointHead (t : Fin cfg3.N) : Fin 16 := ⟨win3_4.index t (1 : Fin 4), by have := (attn_idx_facts t).2.2.2.2.2.2.2.2.2.2.2.2.2.2.2.2.2.2.2.2.1; omega⟩
def pointTile (t : Fin cfg3.N) : Fin 4 := ⟨win3_4.index t (2 : Fin 4), by have := (attn_idx_facts t).2.2.2.2.2.2.2.2.2.2.2.2.2.2.2.2.2.2.2.2.2.1; omega⟩

section Array

variable (V : (c : Dev nD) → (b : Ref sig .tc) → Buf (Elt Ideal) ((c : Thread nD τ).loc b)) (c : Dev nD)

/-- The query tile of point `t` is rows 512 qi … of Q(b, h). -/
theorem tile_query (t : Fin cfg3.N) (p : Fin 512) (e : Fin 64) :
    iblk3 V c 0 t (ix4 (0 : Fin 1) (0 : Fin 1) p e) = V c main_v1 (ix4 (pointBatch t) (pointHead t) (queryRow (pointTile t) p) e) := by
  obtain ⟨a0, a1, a2, a3, -⟩ := attn_idx_facts t
  show V c main_v1 (((cfg3.win 0).blk t).view.emb (ix4 (0 : Fin 1) (0 : Fin 1) p e)) = _
  refine congrArg (V c main_v1) (funext fun a => Fin.ext ?_)
  match a with
  | ⟨0, _⟩ => show win3_0.index t (0 : Fin 4) * 1 + 1 * 0 = win3_4.index t (0 : Fin 4); omega
  | ⟨1, _⟩ => show win3_0.index t (1 : Fin 4) * 1 + 1 * 0 = win3_4.index t (1 : Fin 4); omega
  | ⟨2, _⟩ => show win3_0.index t (2 : Fin 4) * 512 + 1 * p.val = win3_4.index t (2 : Fin 4) * 512 + p.val; omega
  | ⟨3, _⟩ => show win3_0.index t (3 : Fin 4) * 64 + 1 * e.val = e.val; omega

/-- The key tile of point `t` is K(b, h). -/
theorem tile_key (t : Fin cfg3.N) (j : Fin 2048) (e : Fin 64) :
    iblk3 V c 1 t (ix4 (0 : Fin 1) (0 : Fin 1) j e) = V c main_v3 (ix4 (pointBatch t) (pointHead t) j e) := by
  obtain ⟨-, -, -, -, k0, k1, k2, k3, -⟩ := attn_idx_facts t
  show V c main_v3 (((cfg3.win 1).blk t).view.emb (ix4 (0 : Fin 1) (0 : Fin 1) j e)) = _
  refine congrArg (V c main_v3) (funext fun a => Fin.ext ?_)
  match a with
  | ⟨0, _⟩ => show win3_1.index t (0 : Fin 4) * 1 + 1 * 0 = win3_4.index t (0 : Fin 4); omega
  | ⟨1, _⟩ => show win3_1.index t (1 : Fin 4) * 1 + 1 * 0 = win3_4.index t (1 : Fin 4); omega
  | ⟨2, _⟩ => show win3_1.index t (2 : Fin 4) * 2048 + 1 * j.val = j.val; omega
  | ⟨3, _⟩ => show win3_1.index t (3 : Fin 4) * 64 + 1 * e.val = e.val; omega

/-- The value tile of point `t` is V(b, h). -/
theorem tile_value (t : Fin cfg3.N) (j : Fin 2048) (d : Fin 64) :
    iblk3 V c 2 t (ix4 (0 : Fin 1) (0 : Fin 1) j d) = V c main_v5 (ix4 (pointBatch t) (pointHead t) j d) := by
  obtain ⟨-, -, -, -, -, -, -, -, v0, v1, v2, v3, -⟩ := attn_idx_facts t
  show V c main_v5 (((cfg3.win 2).blk t).view.emb (ix4 (0 : Fin 1) (0 : Fin 1) j d)) = _
  refine congrArg (V c main_v5) (funext fun a => Fin.ext ?_)
  match a with
  | ⟨0, _⟩ => show win3_2.index t (0 : Fin 4) * 1 + 1 * 0 = win3_4.index t (0 : Fin 4); omega
  | ⟨1, _⟩ => show win3_2.index t (1 : Fin 4) * 1 + 1 * 0 = win3_4.index t (1 : Fin 4); omega
  | ⟨2, _⟩ => show win3_2.index t (2 : Fin 4) * 2048 + 1 * j.val = j.val; omega
  | ⟨3, _⟩ => show win3_2.index t (3 : Fin 4) * 64 + 1 * d.val = d.val; omega

/-- The mask tile of point `t` is rows 512 qi … of the mask words of batch b. -/
theorem tile_mask (t : Fin cfg3.N) (p : Fin 512) (j : Fin 2048) :
    iblk3 V c 3 t (ix3 (0 : Fin 1) p j) = V c main_v6 (ix3 (pointBatch t) (queryRow (pointTile t) p) j) := by
  obtain ⟨-, -, -, -, -, -, -, -, -, -, -, -, m0, m1, m2, -⟩ := attn_idx_facts t
  show V c main_v6 (((cfg3.win 3).blk t).view.emb (ix3 (0 : Fin 1) p j)) = _
  refine congrArg (V c main_v6) (funext fun a => Fin.ext ?_)
  match a with
  | ⟨0, _⟩ => show win3_3.index t (0 : Fin 3) * 1 + 1 * 0 = win3_4.index t (0 : Fin 4); omega
  | ⟨1, _⟩ => show win3_3.index t (1 : Fin 3) * 512 + 1 * p.val = win3_4.index t (2 : Fin 4) * 512 + p.val; omega
  | ⟨2, _⟩ => show win3_3.index t (2 : Fin 3) * 2048 + 1 * j.val = j.val; omega

/-- What point `t` writes back into the weights array is block `t` of the array-level function. -/
theorem weights_flushed (t : Fin cfg3.N) :
    (dat3 V c).flushed 4 t = ((cfg3.win 4).blk t).view.read (Elt Ideal) (Cert.Mha.attn (scoreW (V c main_v1) (V c main_v3) (V c main_v6))) := by
  show (cfg3.win 4).cut (grid3.coords t) ((dat3 V c).after 4 t) = _
  rw [after3_4]
  obtain ⟨a0, a1, a2, a3, k0, k1, k2, k3, v0, v1, v2, v3, m0, m1, m2, c0, c1, c2, c3, r0, r1, r2, r3⟩ := attn_idx_facts t
  show (fun y : S1x1x512x2048.Idx => out3_4 (iblk3 V c 0 t) (iblk3 V c 1 t) (iblk3 V c 2 t) (iblk3 V c 3 t) y)
    = fun y => (Cert.Mha.attn (scoreW (V c main_v1) (V c main_v3) (V c main_v6))) (((cfg3.win 4).blk t).view.emb y)
  funext y
  obtain ⟨u, u', p, j, rfl⟩ : ∃ (u u' : Fin 1) (p : Fin 512) (j : Fin 2048), y = ix4 u u' p j :=
    ⟨y 0, y 1, y 2, y 3, eq_ix4 y⟩
  have hemb : ((cfg3.win 4).blk t).view.emb (ix4 u u' p j)
      = ix4 (pointBatch t) (pointHead t) (queryRow (pointTile t) p) j := funext fun a => Fin.ext (by
    have hu : u.val = 0 := by omega
    have hu' : u'.val = 0 := by omega
    match a with
    | ⟨0, _⟩ => show win3_4.index t (0 : Fin 4) * 1 + 1 * u.val = win3_4.index t (0 : Fin 4); omega
    | ⟨1, _⟩ => show win3_4.index t (1 : Fin 4) * 1 + 1 * u'.val = win3_4.index t (1 : Fin 4); omega
    | ⟨2, _⟩ => show win3_4.index t (2 : Fin 4) * 512 + 1 * p.val = win3_4.index t (2 : Fin 4) * 512 + p.val; omega
    | ⟨3, _⟩ => show win3_4.index t (3 : Fin 4) * 2048 + 1 * j.val = j.val; omega)
  rw [hemb]
  exact point_weights (V c main_v1) (V c main_v3) (V c main_v6) (pointBatch t) (pointHead t) (pointTile t)
    (iblk3 V c 0 t) (iblk3 V c 1 t) (iblk3 V c 2 t) (iblk3 V c 3 t)
    (tile_query V c t) (tile_key V c t) (tile_mask V c t) u u' p j

/-- An index of the weights array is in point `t`'s block iff each coordinate is in the block's range. -/
theorem weights_mem_blk (t : Fin cfg3.N) (i : S4x16x2048x2048.Idx) :
    i ∈ ((cfg3.win 4).blk t).view.set ↔ ∀ a : Fin 4, win3_4.index t a * S1x1x512x2048.size a ≤ (i a).val
      ∧ (i a).val < win3_4.index t a * S1x1x512x2048.size a + S1x1x512x2048.size a := by
  show i ∈ ((View.whole main_v7_0).slice (win3_4.rect t)).set ↔ _
  rw [View.set_slice_whole, Rect.mem_set_unit]
  exact Iff.rfl

/-- Every index of the weights array is in some point's block: the point of its batch, its head and its tile of rows. -/
theorem weights_cover (i : S4x16x2048x2048.Idx) :
    ∃ t : Fin cfg3.N, (cfg3.win 4).flush t = true ∧ i ∈ ((cfg3.win 4).blk t).view.set := by
  have hi0 : (i 0).val < 4 := (i 0).isLt
  have hi1 : (i 1).val < 16 := (i 1).isLt
  have hi2 : (i 2).val < 2048 := (i 2).isLt
  have hi3 : (i 3).val < 2048 := (i 3).isLt
  obtain ⟨t, ht⟩ := attn_idx_onto ⟨(i 0).val, hi0⟩ ⟨(i 1).val, hi1⟩ ⟨(i 2).val / 512, by omega⟩
  have q0 : win3_4.index t (0 : Fin 4) = (i 0).val := congrFun ht 0
  have q1 : win3_4.index t (1 : Fin 4) = (i 1).val := congrFun ht 1
  have q2 : win3_4.index t (2 : Fin 4) = (i 2).val / 512 := congrFun ht 2
  obtain ⟨a0, a1, a2, a3, k0, k1, k2, k3, v0, v1, v2, v3, m0, m1, m2, c0, c1, c2, c3, r0, r1, r2, r3⟩ := attn_idx_facts t
  refine ⟨t, flush3_4 t, ?_⟩
  rw [weights_mem_blk]
  intro a
  match a with
  | ⟨0, _⟩ => show win3_4.index t (0 : Fin 4) * 1 ≤ (i 0).val ∧ (i 0).val < win3_4.index t (0 : Fin 4) * 1 + 1; omega
  | ⟨1, _⟩ => show win3_4.index t (1 : Fin 4) * 1 ≤ (i 1).val ∧ (i 1).val < win3_4.index t (1 : Fin 4) * 1 + 1; omega
  | ⟨2, _⟩ => show win3_4.index t (2 : Fin 4) * 512 ≤ (i 2).val ∧ (i 2).val < win3_4.index t (2 : Fin 4) * 512 + 512; omega
  | ⟨3, _⟩ => show win3_4.index t (3 : Fin 4) * 2048 ≤ (i 3).val ∧ (i 3).val < win3_4.index t (3 : Fin 4) * 2048 + 2048; omega

/-- The weights array after the call. -/
theorem weights_array : (dat3 V c).arrAt 4 cfg3.N = Cert.Mha.attn (scoreW (V c main_v1) (V c main_v3) (V c main_v6)) :=
  (dat3 V c).arrAt_eq_of_cover 4 _ (fun t _ => weights_flushed V c t) (weights_cover)

/-- What point `t` writes back into the context array is block `t` of the array-level function. -/
theorem context_flushed (t : Fin cfg3.N) :
    (dat3 V c).flushed 5 t = ((cfg3.win 5).blk t).view.read (Elt Ideal) (Cert.Mha.ctx (Cert.Mha.attn (scoreW (V c main_v1) (V c main_v3) (V c main_v6))) (V c main_v5)) := by
  show (cfg3.win 5).cut (grid3.coords t) ((dat3 V c).after 5 t) = _
  rw [after3_5]
  obtain ⟨a0, a1, a2, a3, k0, k1, k2, k3, v0, v1, v2, v3, m0, m1, m2, c0, c1, c2, c3, r0, r1, r2, r3⟩ := attn_idx_facts t
  show (fun y : S1x1x512x64.Idx => out3_5 (iblk3 V c 0 t) (iblk3 V c 1 t) (iblk3 V c 2 t) (iblk3 V c 3 t) y)
    = fun y => (Cert.Mha.ctx (Cert.Mha.attn (scoreW (V c main_v1) (V c main_v3) (V c main_v6))) (V c main_v5)) (((cfg3.win 5).blk t).view.emb y)
  funext y
  obtain ⟨u, u', p, j, rfl⟩ : ∃ (u u' : Fin 1) (p : Fin 512) (j : Fin 64), y = ix4 u u' p j :=
    ⟨y 0, y 1, y 2, y 3, eq_ix4 y⟩
  have hemb : ((cfg3.win 5).blk t).view.emb (ix4 u u' p j)
      = ix4 (pointBatch t) (pointHead t) (queryRow (pointTile t) p) j := funext fun a => Fin.ext (by
    have hu : u.val = 0 := by omega
    have hu' : u'.val = 0 := by omega
    match a with
    | ⟨0, _⟩ => show win3_5.index t (0 : Fin 4) * 1 + 1 * u.val = win3_4.index t (0 : Fin 4); omega
    | ⟨1, _⟩ => show win3_5.index t (1 : Fin 4) * 1 + 1 * u'.val = win3_4.index t (1 : Fin 4); omega
    | ⟨2, _⟩ => show win3_5.index t (2 : Fin 4) * 512 + 1 * p.val = win3_4.index t (2 : Fin 4) * 512 + p.val; omega
    | ⟨3, _⟩ => show win3_5.index t (3 : Fin 4) * 64 + 1 * j.val = j.val; omega)
  rw [hemb]
  exact point_context (V c main_v1) (V c main_v3) (V c main_v5) (V c main_v6) (pointBatch t) (pointHead t) (pointTile t)
    (iblk3 V c 0 t) (iblk3 V c 1 t) (iblk3 V c 2 t) (iblk3 V c 3 t)
    (tile_query V c t) (tile_key V c t) (tile_value V c t) (tile_mask V c t) u u' p j

/-- An index of the context array is in point `t`'s block iff each coordinate is in the block's range. -/
theorem context_mem_blk (t : Fin cfg3.N) (i : S4x16x2048x64.Idx) :
    i ∈ ((cfg3.win 5).blk t).view.set ↔ ∀ a : Fin 4, win3_5.index t a * S1x1x512x64.size a ≤ (i a).val
      ∧ (i a).val < win3_5.index t a * S1x1x512x64.size a + S1x1x512x64.size a := by
  show i ∈ ((View.whole main_v7_1).slice (win3_5.rect t)).set ↔ _
  rw [View.set_slice_whole, Rect.mem_set_unit]
  exact Iff.rfl

/-- Every index of the context array is in some point's block: the point of its batch, its head and its tile of rows. -/
theorem context_cover (i : S4x16x2048x64.Idx) :
    ∃ t : Fin cfg3.N, (cfg3.win 5).flush t = true ∧ i ∈ ((cfg3.win 5).blk t).view.set := by
  have hi0 : (i 0).val < 4 := (i 0).isLt
  have hi1 : (i 1).val < 16 := (i 1).isLt
  have hi2 : (i 2).val < 2048 := (i 2).isLt
  have hi3 : (i 3).val < 64 := (i 3).isLt
  obtain ⟨t, ht⟩ := attn_idx_onto ⟨(i 0).val, hi0⟩ ⟨(i 1).val, hi1⟩ ⟨(i 2).val / 512, by omega⟩
  have q0 : win3_4.index t (0 : Fin 4) = (i 0).val := congrFun ht 0
  have q1 : win3_4.index t (1 : Fin 4) = (i 1).val := congrFun ht 1
  have q2 : win3_4.index t (2 : Fin 4) = (i 2).val / 512 := congrFun ht 2
  obtain ⟨a0, a1, a2, a3, k0, k1, k2, k3, v0, v1, v2, v3, m0, m1, m2, c0, c1, c2, c3, r0, r1, r2, r3⟩ := attn_idx_facts t
  refine ⟨t, flush3_5 t, ?_⟩
  rw [context_mem_blk]
  intro a
  match a with
  | ⟨0, _⟩ => show win3_5.index t (0 : Fin 4) * 1 ≤ (i 0).val ∧ (i 0).val < win3_5.index t (0 : Fin 4) * 1 + 1; omega
  | ⟨1, _⟩ => show win3_5.index t (1 : Fin 4) * 1 ≤ (i 1).val ∧ (i 1).val < win3_5.index t (1 : Fin 4) * 1 + 1; omega
  | ⟨2, _⟩ => show win3_5.index t (2 : Fin 4) * 512 ≤ (i 2).val ∧ (i 2).val < win3_5.index t (2 : Fin 4) * 512 + 512; omega
  | ⟨3, _⟩ => show win3_5.index t (3 : Fin 4) * 64 ≤ (i 3).val ∧ (i 3).val < win3_5.index t (3 : Fin 4) * 64 + 64; omega

/-- The context array after the call. -/
theorem context_array : (dat3 V c).arrAt 5 cfg3.N = Cert.Mha.ctx (Cert.Mha.attn (scoreW (V c main_v1) (V c main_v3) (V c main_v6))) (V c main_v5) :=
  (dat3 V c).arrAt_eq_of_cover 5 _ (fun t _ => context_flushed V c t) (context_cover)

end Array

end Cert.KernelIdeal.Block

end
-- ==== Proof.ProjBlock.lean ====
/-
  The projection calls, one block at a time. A call multiplies a [512, 1024] block of rows by the whole
  [1024, 1024] weight, contracting feature with feature, and writes the product's 1024 columns as 16 heads of 64
  columns each into a [1, 16, 512, 64] block. Read at an index, entry (0, h, r, d) of that block is the inner product
  of row r of the rows with row 64 h + d of the weight.
-/
import proofs.«143923_j53437983097248_2_alg».proof.Proof.Gen.KernelIdeal.Frame
import proofs.«143923_j53437983097248_2_alg».proof.Proof.Spec
import proofs.«143923_j53437983097248_2_alg».proof.Proof.LibIndexReads

noncomputable section

open scoped BigOperators

namespace Cert.KernelIdeal.Block

open Cert.KernelIdeal Cert.KernelIdeal.Gen Idealize.ShloMosaic Idealize.ShloMosaic.ValueIdx

/-- On the kept axis the product's left index is the output's row; -/
theorem lhs_row (j : S512x1024.Idx) (q : (dot_S512x1024_S1024x1024_S512x1024_1_1_0_0_n_n).contr.Idx) :
    ((dot_S512x1024_S1024x1024_S512x1024_1_1_0_0_n_n).lhsIdx j q 0).val = (j 0).val := by
  unfold DotDims.lhsIdx
  rw [dif_neg (show ¬(0 : Fin S512x1024.rank) ∈ (dot_S512x1024_S1024x1024_S512x1024_1_1_0_0_n_n).lhsBatch by decide),
    dif_pos (show (0 : Fin S512x1024.rank) ∈ (dot_S512x1024_S1024x1024_S512x1024_1_1_0_0_n_n).lhsNonContracting by decide)]
  rfl

/-- and its right index is the output's column: the weight's row. -/
theorem rhs_row (j : S512x1024.Idx) (q : (dot_S512x1024_S1024x1024_S512x1024_1_1_0_0_n_n).contr.Idx) :
    ((dot_S512x1024_S1024x1024_S512x1024_1_1_0_0_n_n).rhsIdx j q 0).val = (j 1).val := by
  unfold DotDims.rhsIdx
  rw [dif_neg (show ¬(0 : Fin S1024x1024.rank) ∈ (dot_S512x1024_S1024x1024_S512x1024_1_1_0_0_n_n).rhsBatch by decide),
    dif_pos (show (0 : Fin S1024x1024.rank) ∈ (dot_S512x1024_S1024x1024_S512x1024_1_1_0_0_n_n).rhsNonContracting by decide)]
  rfl

/-- The product of the row block with the weight, at (r, c): the inner product of row r with row c of the weight. -/
theorem product_apply (x0 : Vec Ideal S512x1024 .f32) (x1 : Vec Ideal S1024x1024 .f32) (r : Fin 512) (c : Fin 1024) :
    Gen.k0_pay7 (F := Ideal) x0 x1 (ix2 r c) = ∑ k : Fin 1024, x0 (ix2 r k) * x1 (ix2 c k) := by
  unfold Gen.k0_pay7
  refine (Cert.IndexReads.matmul_zero_single dot_S512x1024_S1024x1024_S512x1024_1_1_0_0_n_n 1024 rfl rfl none _ _ (ix2 r c)
    (fun k => ix2 r k) (fun k => ix2 c k) (fun k => ?_) (fun k => ?_)).trans ?_
  · have hk := contrEquiv1_symm_val dot_S512x1024_S1024x1024_S512x1024_1_1_0_0_n_n 1024 rfl rfl k
    funext a; apply Fin.ext
    match a with
    | ⟨0, _⟩ => exact lhs_row _ _
    | ⟨1, _⟩ => exact ((dot_S512x1024_S1024x1024_S512x1024_1_1_0_0_n_n).lhsIdx_val_of_single rfl _ _).trans hk
  · have hk := contrEquiv1_symm_val dot_S512x1024_S1024x1024_S512x1024_1_1_0_0_n_n 1024 rfl rfl k
    funext a; apply Fin.ext
    match a with
    | ⟨0, _⟩ => exact rhs_row _ _
    | ⟨1, _⟩ => exact ((dot_S512x1024_S1024x1024_S512x1024_1_1_0_0_n_n).rhsIdx_val_of_single rfl _ _).trans hk
  · refine Finset.sum_congr rfl fun k _ => ?_
    rw [truncf_apply, truncf_apply, shapeCast_self]

/-- The 64 columns from column `off` of a [512, 1024] array, seen as a [1, 1, 512, 64] block: entry (0, 0, r, d) is
    entry (r, off + d) of the array. -/
theorem columns_apply (v : FVec Ideal S512x1024 .f32) (off : Nat) (hs : S512x1024.Slices ![0, off] S512x64)
    (hb : FTy.bits .bf16 < FTy.bits .f32) (hc : S512x64.ShapeCasts S1x1x512x64) (a b : Fin 1) (r : Fin 512) (d : Fin 64)
    (c : Fin 1024) (hcv : c.val = off + d.val) :
    shapeCast S1x1x512x64 (truncf .bf16 (extractStridedSlice S512x64 ![0, off] v hs) hb : FVec Ideal S512x64 .bf16) hc
        (ix4 a b r d) = v (ix2 r c) := by
  refine (shapeCast_apply _ hc (ix4 a b r d) (ix2 r d) ?_).trans ?_
  · rw [Shape.rowMajor_val_two, Shape.rowMajor_val_four]
    have h0 := a.isLt
    have h1 := b.isLt
    show r.val * 64 + d.val = ((a.val * 1 + b.val) * 512 + r.val) * 64 + d.val
    omega
  · rw [truncf_apply]
    refine extractStridedSlice_apply _ v hs _ _ fun e => ?_
    match e with
    | ⟨0, _⟩ => show r.val = 0 + r.val; omega
    | ⟨1, _⟩ => show c.val = off + d.val; exact hcv

/-- The whole block of a projection call: entry (0, h, r, d) is the inner product of row r of the rows with row
    64 h + d of the weight. -/
def blockProj (x0 : Vec Ideal S512x1024 .f32) (x1 : Vec Ideal S1024x1024 .f32) : Vec Ideal S1x16x512x64 .bf16 := fun y =>
  ∑ k : Fin 1024, x0 (ix2 (y 2) k) * x1 (ix2 (Cert.Mha.headCol (y 1) (y 3)) k)

/-- Head `hd`'s place in the block: index (0, 0, r, d) of the piece is index (0, hd, r, d) of the block. -/
theorem emb_head (hd : Nat) (hhd : hd < 16)
    (inb : ∀ a, (![0, hd, 0, 0] : Fin 4 → Nat) a + S1x1x512x64.size a ≤ S1x16x512x64.size a)
    (a b : Fin 1) (r : Fin 512) (d : Fin 64) :
    (Rect.unit (s := S1x16x512x64) ![0, hd, 0, 0] S1x1x512x64.size inb).emb (ix4 a b r d)
      = ix4 (0 : Fin 1) (⟨hd, hhd⟩ : Fin 16) r d := by
  have h0 := a.isLt
  have h1 := b.isLt
  funext e; apply Fin.ext
  match e with
  | ⟨0, _⟩ => show 0 + 1 * a.val = 0; omega
  | ⟨1, _⟩ => show hd + 1 * b.val = hd; omega
  | ⟨2, _⟩ => show 0 + 1 * r.val = r.val; omega
  | ⟨3, _⟩ => show 0 + 1 * d.val = d.val; omega

/-- The zero offsets of a whole-block access. -/
theorem zeros2 : (![0, 0] : Fin 2 → Nat) = fun _ => 0 := funext fun a => by fin_cases a <;> rfl

/-- Head `hd`'s piece — columns 64 hd … 64 hd + 63 of the product — is the block's contents under it. -/
theorem head_piece (x0 : Vec Ideal S512x1024 .f32) (x1 : Vec Ideal S1024x1024 .f32) (hd : Nat) (hhd : hd < 16) (off : Nat)
    (hoff : off = hd * 64) (hs : S512x1024.Slices ![0, off] S512x64)
    (hb : FTy.bits .bf16 < FTy.bits .f32) (hc : S512x64.ShapeCasts S1x1x512x64)
    (inb : ∀ a, (![0, hd, 0, 0] : Fin 4 → Nat) a + S1x1x512x64.size a ≤ S1x16x512x64.size a) (x : S1x1x512x64.Idx) :
    shapeCast S1x1x512x64 (truncf .bf16 (extractStridedSlice S512x64 ![0, off]
        (Gen.k0_pay7 (F := Ideal) (View.ld x0 r0_0) (View.ld x1 r0_1)) hs) hb : FVec Ideal S512x64 .bf16) hc x
      = blockProj x0 x1 ((Rect.unit (s := S1x16x512x64) ![0, hd, 0, 0] S1x1x512x64.size inb).emb x) := by
  obtain ⟨a, b, r, d, rfl⟩ : ∃ (a b : Fin 1) (r : Fin 512) (d : Fin 64), x = ix4 a b r d := ⟨x 0, x 1, x 2, x 3, eq_ix4 x⟩
  refine (columns_apply _ off hs hb hc a b r d (Cert.Mha.headCol ⟨hd, hhd⟩ d) (by rw [hoff]; rfl)).trans ?_
  refine (product_apply _ _ r _).trans ?_
  rw [emb_head hd hhd inb a b r d, View.ld_unit_zero (S := S512x1024) zeros2, View.ld_unit_zero (S := S1024x1024) zeros2]
  rfl

/-- What a projection call leaves in its output block: `blockProj` of its two input blocks. The 16 stores are the
    16 heads' columns of one product, and together they fill the block. -/
theorem out0_2_eq (x0 : Vec Ideal S512x1024 .f32) (x1 : Vec Ideal S1024x1024 .f32) :
    Gen.out0_2 (F := Ideal) x0 x1 = blockProj x0 x1 := by
  funext y
  unfold Gen.out0_2
  refine View.canon_apply_of_pieces (Val := Elt Ideal) (blockProj x0 x1) _ ?_ y (Gen.cover0_2 _ _ _ _ _ _ _ _ _ _ _ _ _ _ _ _ y)
  intro p hp x
  simp only [List.mem_cons, List.not_mem_nil, or_false] at hp
  rcases hp with rfl | rfl | rfl | rfl | rfl | rfl | rfl | rfl | rfl | rfl | rfl | rfl | rfl | rfl | rfl | rfl
  · exact head_piece x0 x1 15 (by decide) 960 rfl Gen.slices_S512x1024_o0_960_S512x64 Gen.bitsLt_bf16_f32
      Gen.shapeCasts_S512x64_S1x1x512x64 Gen.inb_S1x16x512x64_S1x1x512x64_0_15_0_0 x
  · exact head_piece x0 x1 14 (by decide) 896 rfl Gen.slices_S512x1024_o0_896_S512x64 Gen.bitsLt_bf16_f32
      Gen.shapeCasts_S512x64_S1x1x512x64 Gen.inb_S1x16x512x64_S1x1x512x64_0_14_0_0 x
  · exact head_piece x0 x1 13 (by decide) 832 rfl Gen.slices_S512x1024_o0_832_S512x64 Gen.bitsLt_bf16_f32
      Gen.shapeCasts_S512x64_S1x1x512x64 Gen.inb_S1x16x512x64_S1x1x512x64_0_13_0_0 x
  · exact head_piece x0 x1 12 (by decide) 768 rfl Gen.slices_S512x1024_o0_768_S512x64 Gen.bitsLt_bf16_f32
      Gen.shapeCasts_S512x64_S1x1x512x64 Gen.inb_S1x16x512x64_S1x1x512x64_0_12_0_0 x
  · exact head_piece x0 x1 11 (by decide) 704 rfl Gen.slices_S512x1024_o0_704_S512x64 Gen.bitsLt_bf16_f32
      Gen.shapeCasts_S512x64_S1x1x512x64 Gen.inb_S1x16x512x64_S1x1x512x64_0_11_0_0 x
  · exact head_piece x0 x1 10 (by decide) 640 rfl Gen.slices_S512x1024_o0_640_S512x64 Gen.bitsLt_bf16_f32
      Gen.shapeCasts_S512x64_S1x1x512x64 Gen.inb_S1x16x512x64_S1x1x512x64_0_10_0_0 x
  · exact head_piece x0 x1 9 (by decide) 576 rfl Gen.slices_S512x1024_o0_576_S512x64 Gen.bitsLt_bf16_f32
      Gen.shapeCasts_S512x64_S1x1x512x64 Gen.inb_S1x16x512x64_S1x1x512x64_0_9_0_0 x
  · exact head_piece x0 x1 8 (by decide) 512 rfl Gen.slices_S512x1024_o0_512_S512x64 Gen.bitsLt_bf16_f32
      Gen.shapeCasts_S512x64_S1x1x512x64 Gen.inb_S1x16x512x64_S1x1x512x64_0_8_0_0 x
  · exact head_piece x0 x1 7 (by decide) 448 rfl Gen.slices_S512x1024_o0_448_S512x64 Gen.bitsLt_bf16_f32
      Gen.shapeCasts_S512x64_S1x1x512x64 Gen.inb_S1x16x512x64_S1x1x512x64_0_7_0_0 x
  · exact head_piece x0 x1 6 (by decide) 384 rfl Gen.slices_S512x1024_o0_384_S512x64 Gen.bitsLt_bf16_f32
      Gen.shapeCasts_S512x64_S1x1x512x64 Gen.inb_S1x16x512x64_S1x1x512x64_0_6_0_0 x
  · exact head_piece x0 x1 5 (by decide) 320 rfl Gen.slices_S512x1024_o0_320_S512x64 Gen.bitsLt_bf16_f32
      Gen.shapeCasts_S512x64_S1x1x512x64 Gen.inb_S1x16x512x64_S1x1x512x64_0_5_0_0 x
  · exact head_piece x0 x1 4 (by decide) 256 rfl Gen.slices_S512x1024_o0_256_S512x64 Gen.bitsLt_bf16_f32
      Gen.shapeCasts_S512x64_S1x1x512x64 Gen.inb_S1x16x512x64_S1x1x512x64_0_4_0_0 x
  · exact head_piece x0 x1 3 (by decide) 192 rfl Gen.slices_S512x1024_o0_192_S512x64 Gen.bitsLt_bf16_f32
      Gen.shapeCasts_S512x64_S1x1x512x64 Gen.inb_S1x16x512x64_S1x1x512x64_0_3_0_0 x
  · exact head_piece x0 x1 2 (by decide) 128 rfl Gen.slices_S512x1024_o0_128_S512x64 Gen.bitsLt_bf16_f32
      Gen.shapeCasts_S512x64_S1x1x512x64 Gen.inb_S1x16x512x64_S1x1x512x64_0_2_0_0 x
  · exact head_piece x0 x1 1 (by decide) 64 rfl Gen.slices_S512x1024_o0_64_S512x64 Gen.bitsLt_bf16_f32
      Gen.shapeCasts_S512x64_S1x1x512x64 Gen.inb_S1x16x512x64_S1x1x512x64_0_1_0_0 x
  · exact head_piece x0 x1 0 (by decide) 0 rfl Gen.slices_S512x1024_o0_0_S512x64 Gen.bitsLt_bf16_f32
      Gen.shapeCasts_S512x64_S1x1x512x64 Gen.inb_S1x16x512x64_S1x1x512x64_0_0_0_0 x

/-- The block at an index: entry (0, h, r, d) is the inner product of row r with row 64 h + d of the weight. -/
theorem proj_block (x0 : Vec Ideal S512x1024 .f32) (x1 : Vec Ideal S1024x1024 .f32) (h : Fin 16) (r : Fin 512) (d : Fin 64) :
    Gen.out0_2 (F := Ideal) x0 x1 (ValueIdx.ix4 (0 : Fin 1) h r d)
      = ∑ k : Fin 1024, x0 (ValueIdx.ix2 r k) * x1 (ValueIdx.ix2 (Cert.Mha.headCol h d) k) := by
  rw [out0_2_eq]; rfl

/-- The second and third projection calls run the same body. -/
theorem out1_eq : @Gen.out1_2 Ideal _ = @Gen.out0_2 Ideal _ := rfl
theorem out2_eq : @Gen.out2_2 Ideal _ = @Gen.out0_2 Ideal _ := rfl

end Cert.KernelIdeal.Block

end
-- ==== Proof.ProjArray.lean ====
/-
  From blocks to the array, for the three projection calls. The 16 grid points of a call each write one
  [1, 16, 512, 64] block of the [4, 16, 2048, 64] result; block t is batch t / 4, positions 512 (t % 4) … of every head,
  computed from rows 512 t … 512 t + 511 of the flat [8192, 1024] rows — row 2048 b + s for batch b, position s. The
  blocks fill the result, which is therefore the flat projection index by index.
-/
import proofs.«143923_j53437983097248_2_alg».proof.Proof.ProjBlock
import Idealize.ShloMosaic.Lib.Pipeline.Value

noncomputable section

open scoped BigOperators

namespace Cert.KernelIdeal.Block

open Cert.KernelIdeal Cert.KernelIdeal.Gen Idealize.ShloMosaic Idealize.ShloMosaic.ValueIdx
open Idealize.ShloMosaic.TcCoe Idealize.SL.Sem
open Idealize.ShloMosaic.Pipeline (Dat)

/-- A block of `blockProj` whose rows are rows of a flat array and whose weight block is the whole weight is the flat
    projection at the index the block's entry has in the result. -/
theorem blockProj_eq_projFlat (A : Cert.Mha.SF.Idx → EReal) (W : Cert.Mha.SW.Idx → EReal)
    (x0 : Vec Ideal S512x1024 .f32) (x1 : Vec Ideal S1024x1024 .f32) (y : S1x16x512x64.Idx) (i : Cert.Mha.SH.Idx)
    (h0 : ∀ k : Fin 1024, x0 (ix2 (y 2) k) = A (ix2 (Cert.Mha.flatRow (i 0) (i 2)) k))
    (h1 : ∀ e k : Fin 1024, x1 (ix2 e k) = W (ix2 e k))
    (hh : (i 1).val = (y 1).val) (hd : (i 3).val = (y 3).val) :
    blockProj x0 x1 y = Cert.Mha.projFlat A W i := by
  unfold blockProj Cert.Mha.projFlat
  refine Finset.sum_congr rfl fun k _ => ?_
  have hc : Cert.Mha.headCol (y 1) (y 3) = Cert.Mha.headCol (i 1) (i 3) :=
    Fin.ext (by show (y 1).val * 64 + (y 3).val = (i 1).val * 64 + (i 3).val; rw [hh, hd])
  rw [h0 k, h1, hc]

section Arrays

variable (V : (c : Dev nD) → (b : Ref sig .tc) → Buf (Elt Ideal) ((c : Thread nD τ).loc b))

/-! ## Call 0: rows `main_v0`, weight `main_arg4`, result `main_v1` -/

/-- The index maps over the grid: point t takes rows 512 t … 512 t + 511 and the whole weight, and writes batch t / 4,
    positions 512 (t % 4) … 512 (t % 4) + 511 of every head. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 4) = t.val / 4 ∧ win0_2.index t (1 : Fin 4) = 0
    ∧ win0_2.index t (2 : Fin 4) = t.val % 4 ∧ win0_2.index t (3 : Fin 4) = 0 :=
  (by decide +kernel : ∀ t : Fin grid0.N, _)

/-- What point t writes back is its block of the flat projection of the whole arrays. -/
theorem flushed0_eq (c : Dev nD) (t : Fin cfg0.N) :
    (dat0 V c).flushed 2 t
      = ((cfg0.win 2).blk t).view.read (Elt Ideal) (Cert.Mha.projFlat (V c main_v0) (V c main_arg4)) := by
  show (cfg0.win 2).cut (grid0.coords t) ((dat0 V c).after 2 t) = _
  rw [after0_2, out0_2_eq]
  obtain ⟨e0, e1, e2, e3, e4, e5, e6, e7⟩ := idx_facts0 t
  have ht : t.val < 16 := Nat.lt_of_lt_of_eq t.isLt N_0
  funext j
  have hj0 : (j 0).val < 1 := (j 0).isLt
  show blockProj (iblk0 V c 0 t) (iblk0 V c 1 t) j
    = Cert.Mha.projFlat (V c main_v0) (V c main_arg4) (((cfg0.win 2).blk t).view.emb j)
  refine blockProj_eq_projFlat _ _ _ _ _ _ (fun k => ?_) (fun e k => ?_) ?_ ?_
  · show V c main_v0 (((cfg0.win 0).blk t).view.emb (ix2 (j 2) k)) = V c main_v0 _
    refine congrArg _ (funext fun a => Fin.ext ?_)
    match a with
    | ⟨0, _⟩ =>
      show win0_0.index t (0 : Fin 2) * 512 + 1 * (j 2).val
        = (win0_2.index t (0 : Fin 4) * 1 + 1 * (j 0).val) * 2048 + (win0_2.index t (2 : Fin 4) * 512 + 1 * (j 2).val)
      omega
    | ⟨1, _⟩ => show win0_0.index t (1 : Fin 2) * 1024 + 1 * k.val = k.val; omega
  · show V c main_arg4 (((cfg0.win 1).blk t).view.emb (ix2 e k)) = V c main_arg4 _
    refine congrArg _ (funext fun a => Fin.ext ?_)
    match a with
    | ⟨0, _⟩ => show win0_1.index t (0 : Fin 2) * 1024 + 1 * e.val = e.val; omega
    | ⟨1, _⟩ => show win0_1.index t (1 : Fin 2) * 1024 + 1 * k.val = k.val; omega
  · show win0_2.index t (1 : Fin 4) * 16 + 1 * (j 1).val = (j 1).val; omega
  · show win0_2.index t (3 : Fin 4) * 64 + 1 * (j 3).val = (j 3).val; omega

/-- An index of the result is in point t's block iff each coordinate is in the block's range on its axis. -/
theorem mem_blk0 (t : Fin cfg0.N) (i : S4x16x2048x64.Idx) :
    i ∈ ((cfg0.win 2).blk t).view.set ↔ ∀ a : Fin 4, win0_2.index t a * S1x16x512x64.size a ≤ (i a).val
      ∧ (i a).val < win0_2.index t a * S1x16x512x64.size a + S1x16x512x64.size a := by
  show i ∈ ((View.whole main_v1).slice (win0_2.rect t)).set ↔ _
  rw [View.set_slice_whole, Rect.mem_set_unit]
  exact Iff.rfl

/-- Every index of the result is in some point's block: batch b, position s is written by point 4 b + s / 512. -/
theorem cover0 (i : S4x16x2048x64.Idx) :
    ∃ t : Fin cfg0.N, (cfg0.win 2).flush t = true ∧ i ∈ ((cfg0.win 2).blk t).view.set := by
  have h0 : (i 0).val < 4 := (i 0).isLt
  have h1 : (i 1).val < 16 := (i 1).isLt
  have h2 : (i 2).val < 2048 := (i 2).isLt
  have h3 : (i 3).val < 64 := (i 3).isLt
  obtain ⟨t, htv⟩ : ∃ t : Fin cfg0.N, t.val = 4 * (i 0).val + (i 2).val / 512 :=
    ⟨⟨4 * (i 0).val + (i 2).val / 512, Nat.lt_of_lt_of_eq (by omega : 4 * (i 0).val + (i 2).val / 512 < 16) N_0.symm⟩, rfl⟩
  obtain ⟨e0, e1, e2, e3, e4, e5, e6, e7⟩ := idx_facts0 t
  refine ⟨t, flush0_2 t, ?_⟩
  rw [mem_blk0]
  intro a
  match a with
  | ⟨0, _⟩ =>
    show win0_2.index t (0 : Fin 4) * 1 ≤ (i 0).val ∧ (i 0).val < win0_2.index t (0 : Fin 4) * 1 + 1
    omega
  | ⟨1, _⟩ =>
    show win0_2.index t (1 : Fin 4) * 16 ≤ (i 1).val ∧ (i 1).val < win0_2.index t (1 : Fin 4) * 16 + 16
    omega
  | ⟨2, _⟩ =>
    show win0_2.index t (2 : Fin 4) * 512 ≤ (i 2).val ∧ (i 2).val < win0_2.index t (2 : Fin 4) * 512 + 512
    omega
  | ⟨3, _⟩ =>
    show win0_2.index t (3 : Fin 4) * 64 ≤ (i 3).val ∧ (i 3).val < win0_2.index t (3 : Fin 4) * 64 + 64
    omega

/-- After the call the result array is the flat projection of the rows by the weight. -/
theorem proj_array0 (c : Dev nD) :
    (Gen.dat0 (F := Ideal) V c).arrAt 2 cfg0.N = Cert.Mha.projFlat (V c main_v0) (V c main_arg4) :=
  (dat0 V c).arrAt_eq_of_cover 2 (Cert.Mha.projFlat (V c main_v0) (V c main_arg4)) (fun t _ => flushed0_eq V c t) cover0

/-! ## Call 1: rows `main_v2`, weight `main_arg5`, result `main_v3` -/

/-- The index maps over the grid: point t takes rows 512 t … 512 t + 511 and the whole weight, and writes batch t / 4,
    positions 512 (t % 4) … 512 (t % 4) + 511 of every head. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 4) = t.val / 4 ∧ win1_2.index t (1 : Fin 4) = 0
    ∧ win1_2.index t (2 : Fin 4) = t.val % 4 ∧ win1_2.index t (3 : Fin 4) = 0 :=
  (by decide +kernel : ∀ t : Fin grid1.N, _)

/-- What point t writes back is its block of the flat projection of the whole arrays. -/
theorem flushed1_eq (c : Dev nD) (t : Fin cfg1.N) :
    (dat1 V c).flushed 2 t
      = ((cfg1.win 2).blk t).view.read (Elt Ideal) (Cert.Mha.projFlat (V c main_v2) (V c main_arg5)) := by
  show (cfg1.win 2).cut (grid1.coords t) ((dat1 V c).after 2 t) = _
  rw [after1_2, out1_eq, out0_2_eq]
  obtain ⟨e0, e1, e2, e3, e4, e5, e6, e7⟩ := idx_facts1 t
  have ht : t.val < 16 := Nat.lt_of_lt_of_eq t.isLt N_1
  funext j
  have hj0 : (j 0).val < 1 := (j 0).isLt
  show blockProj (iblk1 V c 0 t) (iblk1 V c 1 t) j
    = Cert.Mha.projFlat (V c main_v2) (V c main_arg5) (((cfg1.win 2).blk t).view.emb j)
  refine blockProj_eq_projFlat _ _ _ _ _ _ (fun k => ?_) (fun e k => ?_) ?_ ?_
  · show V c main_v2 (((cfg1.win 0).blk t).view.emb (ix2 (j 2) k)) = V c main_v2 _
    refine congrArg _ (funext fun a => Fin.ext ?_)
    match a with
    | ⟨0, _⟩ =>
      show win1_0.index t (0 : Fin 2) * 512 + 1 * (j 2).val
        = (win1_2.index t (0 : Fin 4) * 1 + 1 * (j 0).val) * 2048 + (win1_2.index t (2 : Fin 4) * 512 + 1 * (j 2).val)
      omega
    | ⟨1, _⟩ => show win1_0.index t (1 : Fin 2) * 1024 + 1 * k.val = k.val; omega
  · show V c main_arg5 (((cfg1.win 1).blk t).view.emb (ix2 e k)) = V c main_arg5 _
    refine congrArg _ (funext fun a => Fin.ext ?_)
    match a with
    | ⟨0, _⟩ => show win1_1.index t (0 : Fin 2) * 1024 + 1 * e.val = e.val; omega
    | ⟨1, _⟩ => show win1_1.index t (1 : Fin 2) * 1024 + 1 * k.val = k.val; omega
  · show win1_2.index t (1 : Fin 4) * 16 + 1 * (j 1).val = (j 1).val; omega
  · show win1_2.index t (3 : Fin 4) * 64 + 1 * (j 3).val = (j 3).val; omega

/-- An index of the result is in point t's block iff each coordinate is in the block's range on its axis. -/
theorem mem_blk1 (t : Fin cfg1.N) (i : S4x16x2048x64.Idx) :
    i ∈ ((cfg1.win 2).blk t).view.set ↔ ∀ a : Fin 4, win1_2.index t a * S1x16x512x64.size a ≤ (i a).val
      ∧ (i a).val < win1_2.index t a * S1x16x512x64.size a + S1x16x512x64.size a := by
  show i ∈ ((View.whole main_v3).slice (win1_2.rect t)).set ↔ _
  rw [View.set_slice_whole, Rect.mem_set_unit]
  exact Iff.rfl

/-- Every index of the result is in some point's block: batch b, position s is written by point 4 b + s / 512. -/
theorem cover1 (i : S4x16x2048x64.Idx) :
    ∃ t : Fin cfg1.N, (cfg1.win 2).flush t = true ∧ i ∈ ((cfg1.win 2).blk t).view.set := by
  have h0 : (i 0).val < 4 := (i 0).isLt
  have h1 : (i 1).val < 16 := (i 1).isLt
  have h2 : (i 2).val < 2048 := (i 2).isLt
  have h3 : (i 3).val < 64 := (i 3).isLt
  obtain ⟨t, htv⟩ : ∃ t : Fin cfg1.N, t.val = 4 * (i 0).val + (i 2).val / 512 :=
    ⟨⟨4 * (i 0).val + (i 2).val / 512, Nat.lt_of_lt_of_eq (by omega : 4 * (i 0).val + (i 2).val / 512 < 16) N_1.symm⟩, rfl⟩
  obtain ⟨e0, e1, e2, e3, e4, e5, e6, e7⟩ := idx_facts1 t
  refine ⟨t, flush1_2 t, ?_⟩
  rw [mem_blk1]
  intro a
  match a with
  | ⟨0, _⟩ =>
    show win1_2.index t (0 : Fin 4) * 1 ≤ (i 0).val ∧ (i 0).val < win1_2.index t (0 : Fin 4) * 1 + 1
    omega
  | ⟨1, _⟩ =>
    show win1_2.index t (1 : Fin 4) * 16 ≤ (i 1).val ∧ (i 1).val < win1_2.index t (1 : Fin 4) * 16 + 16
    omega
  | ⟨2, _⟩ =>
    show win1_2.index t (2 : Fin 4) * 512 ≤ (i 2).val ∧ (i 2).val < win1_2.index t (2 : Fin 4) * 512 + 512
    omega
  | ⟨3, _⟩ =>
    show win1_2.index t (3 : Fin 4) * 64 ≤ (i 3).val ∧ (i 3).val < win1_2.index t (3 : Fin 4) * 64 + 64
    omega

/-- After the call the result array is the flat projection of the rows by the weight. -/
theorem proj_array1 (c : Dev nD) :
    (Gen.dat1 (F := Ideal) V c).arrAt 2 cfg1.N = Cert.Mha.projFlat (V c main_v2) (V c main_arg5) :=
  (dat1 V c).arrAt_eq_of_cover 2 (Cert.Mha.projFlat (V c main_v2) (V c main_arg5)) (fun t _ => flushed1_eq V c t) cover1

/-! ## Call 2: rows `main_v4`, weight `main_arg6`, result `main_v5` -/

/-- The index maps over the grid: point t takes rows 512 t … 512 t + 511 and the whole weight, and writes batch t / 4,
    positions 512 (t % 4) … 512 (t % 4) + 511 of every head. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 4) = t.val / 4 ∧ win2_2.index t (1 : Fin 4) = 0
    ∧ win2_2.index t (2 : Fin 4) = t.val % 4 ∧ win2_2.index t (3 : Fin 4) = 0 :=
  (by decide +kernel : ∀ t : Fin grid2.N, _)

/-- What point t writes back is its block of the flat projection of the whole arrays. -/
theorem flushed2_eq (c : Dev nD) (t : Fin cfg2.N) :
    (dat2 V c).flushed 2 t
      = ((cfg2.win 2).blk t).view.read (Elt Ideal) (Cert.Mha.projFlat (V c main_v4) (V c main_arg6)) := by
  show (cfg2.win 2).cut (grid2.coords t) ((dat2 V c).after 2 t) = _
  rw [after2_2, out2_eq, out0_2_eq]
  obtain ⟨e0, e1, e2, e3, e4, e5, e6, e7⟩ := idx_facts2 t
  have ht : t.val < 16 := Nat.lt_of_lt_of_eq t.isLt N_2
  funext j
  have hj0 : (j 0).val < 1 := (j 0).isLt
  show blockProj (iblk2 V c 0 t) (iblk2 V c 1 t) j
    = Cert.Mha.projFlat (V c main_v4) (V c main_arg6) (((cfg2.win 2).blk t).view.emb j)
  refine blockProj_eq_projFlat _ _ _ _ _ _ (fun k => ?_) (fun e k => ?_) ?_ ?_
  · show V c main_v4 (((cfg2.win 0).blk t).view.emb (ix2 (j 2) k)) = V c main_v4 _
    refine congrArg _ (funext fun a => Fin.ext ?_)
    match a with
    | ⟨0, _⟩ =>
      show win2_0.index t (0 : Fin 2) * 512 + 1 * (j 2).val
        = (win2_2.index t (0 : Fin 4) * 1 + 1 * (j 0).val) * 2048 + (win2_2.index t (2 : Fin 4) * 512 + 1 * (j 2).val)
      omega
    | ⟨1, _⟩ => show win2_0.index t (1 : Fin 2) * 1024 + 1 * k.val = k.val; omega
  · show V c main_arg6 (((cfg2.win 1).blk t).view.emb (ix2 e k)) = V c main_arg6 _
    refine congrArg _ (funext fun a => Fin.ext ?_)
    match a with
    | ⟨0, _⟩ => show win2_1.index t (0 : Fin 2) * 1024 + 1 * e.val = e.val; omega
    | ⟨1, _⟩ => show win2_1.index t (1 : Fin 2) * 1024 + 1 * k.val = k.val; omega
  · show win2_2.index t (1 : Fin 4) * 16 + 1 * (j 1).val = (j 1).val; omega
  · show win2_2.index t (3 : Fin 4) * 64 + 1 * (j 3).val = (j 3).val; omega

/-- An index of the result is in point t's block iff each coordinate is in the block's range on its axis. -/
theorem mem_blk2 (t : Fin cfg2.N) (i : S4x16x2048x64.Idx) :
    i ∈ ((cfg2.win 2).blk t).view.set ↔ ∀ a : Fin 4, win2_2.index t a * S1x16x512x64.size a ≤ (i a).val
      ∧ (i a).val < win2_2.index t a * S1x16x512x64.size a + S1x16x512x64.size a := by
  show i ∈ ((View.whole main_v5).slice (win2_2.rect t)).set ↔ _
  rw [View.set_slice_whole, Rect.mem_set_unit]
  exact Iff.rfl

/-- Every index of the result is in some point's block: batch b, position s is written by point 4 b + s / 512. -/
theorem cover2 (i : S4x16x2048x64.Idx) :
    ∃ t : Fin cfg2.N, (cfg2.win 2).flush t = true ∧ i ∈ ((cfg2.win 2).blk t).view.set := by
  have h0 : (i 0).val < 4 := (i 0).isLt
  have h1 : (i 1).val < 16 := (i 1).isLt
  have h2 : (i 2).val < 2048 := (i 2).isLt
  have h3 : (i 3).val < 64 := (i 3).isLt
  obtain ⟨t, htv⟩ : ∃ t : Fin cfg2.N, t.val = 4 * (i 0).val + (i 2).val / 512 :=
    ⟨⟨4 * (i 0).val + (i 2).val / 512, Nat.lt_of_lt_of_eq (by omega : 4 * (i 0).val + (i 2).val / 512 < 16) N_2.symm⟩, rfl⟩
  obtain ⟨e0, e1, e2, e3, e4, e5, e6, e7⟩ := idx_facts2 t
  refine ⟨t, flush2_2 t, ?_⟩
  rw [mem_blk2]
  intro a
  match a with
  | ⟨0, _⟩ =>
    show win2_2.index t (0 : Fin 4) * 1 ≤ (i 0).val ∧ (i 0).val < win2_2.index t (0 : Fin 4) * 1 + 1
    omega
  | ⟨1, _⟩ =>
    show win2_2.index t (1 : Fin 4) * 16 ≤ (i 1).val ∧ (i 1).val < win2_2.index t (1 : Fin 4) * 16 + 16
    omega
  | ⟨2, _⟩ =>
    show win2_2.index t (2 : Fin 4) * 512 ≤ (i 2).val ∧ (i 2).val < win2_2.index t (2 : Fin 4) * 512 + 512
    omega
  | ⟨3, _⟩ =>
    show win2_2.index t (3 : Fin 4) * 64 ≤ (i 3).val ∧ (i 3).val < win2_2.index t (3 : Fin 4) * 64 + 64
    omega

/-- After the call the result array is the flat projection of the rows by the weight. -/
theorem proj_array2 (c : Dev nD) :
    (Gen.dat2 (F := Ideal) V c).arrAt 2 cfg2.N = Cert.Mha.projFlat (V c main_v4) (V c main_arg6) :=
  (dat2 V c).arrAt_eq_of_cover 2 (Cert.Mha.projFlat (V c main_v4) (V c main_arg6)) (fun t _ => flushed2_eq V c t) cover2

end Arrays

end Cert.KernelIdeal.Block

end
-- ==== Proof.LibKeepdims.lean ====
/-
  Reading a matrix row by row, at indices given by coordinates.

  Three facts every `keepdims` row statistic needs: a vector `[a]` viewed as a column `[a, 1]` holds, at `(p, 0)`,
  the vector's entry `p`; a sum over the columns of an `[m, n]` array, read at row `p`, is the sum over `k : Fin n` of
  the entries `(p, k)`; and a maximum over the columns, read at row `p`, is the fold of `max` over those entries.
  The last two hold on the extended reals, where a reduction has no order of evaluation left in it.
-/
import Idealize.ShloMosaic.Lib.Pipeline.Value
import Idealize.ShloMosaic.Lib.ValueIdx
import Idealize.ShloMosaic.PureOps.Ideal.Laws

namespace Cert.MemAttn.Layout

open Idealize.ShloMosaic Idealize.ShloMosaic.ValueIdx

variable {α : Type}

/-- An `[a]` array cast to the column `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- Row `p` with the column coordinate `k` put back is the index `(p, k)`. -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A sum over the columns of an `[m, n]` array of extended reals, read at row `p`: the sum of that row's entries. -/
theorem multiReduction_add_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ) (hacc : acc = FKind.add.neutral φ hφ)
    (p : Fin m) :
    multiReduction .add [1] ⟨1, ![m]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the columns of an `[m, n]` array of extended reals, read at row `p`: the fold of `max`, from the
    accumulator's value, over that row's entries. -/
theorem multiReduction_maximumf_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.maximumf.neutral φ hφ) (p : Fin m) :
    multiReduction .maximumf [1] ⟨1, ![m]⟩ src acc h hφ hacc (ix1 p)
      = (Finset.univ : Finset (Fin n)).fold max (Ideal.ofBits φ acc) (fun k => src (ix2 p k)) :=
  (Ideal.multiReduction_maximumf_single src acc h hφ hacc (ix1 p)).trans
    (congrArg (fun f => (Finset.univ : Finset (Fin n)).fold max (Ideal.ofBits φ acc) f)
      (funext fun k => congrArg src (lift_row h p k)))

end Cert.MemAttn.Layout
-- ==== Proof.NormBlock.lean ====
/-
  The last stage's body at an index: output projection, residual add and layer norm of one block of 512 rows.

  The body multiplies a block of 512 context rows by the weight (entry (r, n) is the inner product of row r of the
  block with row n of the weight), adds the block of residual rows, and normalises every row of the sum: the row
  minus its mean, times the reciprocal square root of the mean of the squared differences plus a small constant.
  The mean and the mean square are lane sums kept as a column, divided by the width, and broadcast back along the row.

  `payload_apply` reads the stored value at (r, n) as `rowNorm` of row r of the sum at column n; `payload_entry`
  sets it against the specification over whole arrays: when the two row blocks hold rows 512 b + r of two arrays of
  8192 rows, the stored value at (r, n) is the specification's normalised residual at (512 b + r, n), because a
  normalised row depends on no other row.
-/
import proofs.«143923_j53437983097248_2_alg».proof.Proof.Gen.KernelIdeal.Frame
import proofs.«143923_j53437983097248_2_alg».proof.Proof.Spec
import proofs.«143923_j53437983097248_2_alg».proof.Proof.LibIndexReads
import proofs.«143923_j53437983097248_2_alg».proof.Proof.LibKeepdims
import proofs.«143923_j53437983097248_2_alg».proof.Proof.LibRowSoftmax

noncomputable section

open scoped BigOperators

namespace Cert.KernelIdeal.Block

open Cert.KernelIdeal Cert.KernelIdeal.Gen Idealize.ShloMosaic Idealize.ShloMosaic.ValueIdx

/-- The mean of a row of 1024 entries. -/
def rowMean (y : Fin 1024 → EReal) : EReal := Ideal.div (∑ j : Fin 1024, y j) Cert.Mha.width

/-- A row of 1024 entries centred by its mean and scaled by the reciprocal square root of its variance plus the
    small constant. -/
def rowNorm (y : Fin 1024 → EReal) (n : Fin 1024) : EReal :=
  (y n - rowMean y)
    * Ideal.rsqrt (Ideal.div (∑ j : Fin 1024, (y j - rowMean y) * (y j - rowMean y)) Cert.Mha.width + Cert.Mha.eps)

/-- The left factor's kept axis is the product's first axis. -/
theorem lhs_kept (i : S512x1024.Idx) (q : dot_S512x1024_S1024x1024_S512x1024_1_1_0_0_n_n.contr.Idx) : (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide),
    dif_pos (show (0 : Fin S512x1024.rank) ∈ dot_S512x1024_S1024x1024_S512x1024_1_1_0_0_n_n.lhsNonContracting by decide)]
  rfl

/-- The right factor's kept axis is the product's second axis. -/
theorem rhs_kept (i : S512x1024.Idx) (q : dot_S512x1024_S1024x1024_S512x1024_1_1_0_0_n_n.contr.Idx) : (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide),
    dif_pos (show (0 : Fin S1024x1024.rank) ∈ dot_S512x1024_S1024x1024_S512x1024_1_1_0_0_n_n.rhsNonContracting by decide)]
  rfl

/-- The product's entry (r, n): row r of the left factor against row n of the right one, both contracted along
    their second axis. -/
theorem outProduct_apply (a : FVec Ideal S512x1024 .bf16) (b : FVec Ideal S1024x1024 .bf16) (r : Fin 512) (n : Fin 1024) :
    FloatOps.matmul dot_S512x1024_S1024x1024_S512x1024_1_1_0_0_n_n none a b (constant S512x1024 .f32 0x00000000#32) (ix2 r n)
      = ∑ e : Fin 1024, a (ix2 r e) * b (ix2 n e) := by
  refine Cert.IndexReads.matmul_zero_single dot_S512x1024_S1024x1024_S512x1024_1_1_0_0_n_n 1024 rfl rfl none a b (ix2 r n)
    (fun e => ix2 r e) (fun e => ix2 n e) (fun k => ?_) (fun k => ?_)
  · have hk := contrEquiv1_symm_val dot_S512x1024_S1024x1024_S512x1024_1_1_0_0_n_n 1024 rfl rfl k
    funext ax; apply Fin.ext
    match ax with
    | ⟨0, _⟩ => exact lhs_kept _ _
    | ⟨1, _⟩ => exact (dot_S512x1024_S1024x1024_S512x1024_1_1_0_0_n_n.lhsIdx_val_of_single rfl _ _).trans hk
  · have hk := contrEquiv1_symm_val dot_S512x1024_S1024x1024_S512x1024_1_1_0_0_n_n 1024 rfl rfl k
    funext ax; apply Fin.ext
    match ax with
    | ⟨0, _⟩ => exact rhs_kept _ _
    | ⟨1, _⟩ => exact (dot_S512x1024_S1024x1024_S512x1024_1_1_0_0_n_n.rhsIdx_val_of_single rfl _ _).trans hk

/-- Row r of a block of 512 rows, as a function of the column. -/
abbrev rowOf (v : S512x1024.Idx → EReal) (r : Fin 512) : Fin 1024 → EReal := fun k => v (ix2 r k)

/-- The lane sums of a block kept as a column and divided by a constant column: at (r, u), the sum of row r over
    the constant. -/
def columnMean (v : FVec Ideal S512x1024 .f32) (w : BitVec 32) : FVec Ideal S512x1 .f32 :=
  divf (shapeCast S512x1 (multiReduction (F := Ideal) .add [1] S512 v 0x00000000#32 reduces_S512x1024_S512 (.inl rfl) rfl)
      shapeCasts_S512_S512x1)
    (broadcast S512x1 (Scalar.ofBits .f32 w))

theorem columnMean_apply (v : FVec Ideal S512x1024 .f32) (w : BitVec 32) (r : Fin 512) (u : Fin 1) :
    columnMean v w (ix2 r u) = Ideal.div (∑ k : Fin 1024, v (ix2 r k)) (Ideal.ofBits .f32 w) := by
  unfold columnMean
  rw [divf_apply, broadcast_apply, Cert.RowSoftmax.column_apply]
  refine congrArg (fun s => Ideal.div s (Ideal.ofBits .f32 w)) ?_
  exact Cert.MemAttn.Layout.multiReduction_add_row v _ reduces_S512x1024_S512 (.inl rfl) rfl r

/-- Every row minus its mean. -/
def centreRows (v : FVec Ideal S512x1024 .f32) : FVec Ideal S512x1024 .f32 :=
  subf v (broadcastTo S512x1024 (columnMean v 0x44800000#32) broadcasts_S512x1_S512x1024)

theorem centreRows_apply (v : FVec Ideal S512x1024 .f32) (r : Fin 512) (n : Fin 1024) :
    centreRows v (ix2 r n) = v (ix2 r n) - rowMean (rowOf v r) := by
  unfold centreRows
  rw [subf_apply, Cert.RowSoftmax.column_broadcast_apply, columnMean_apply]
  rfl

/-- Every row scaled by the reciprocal square root of its mean square plus the small constant. -/
def scaleRows (d : FVec Ideal S512x1024 .f32) : FVec Ideal S512x1024 .f32 :=
  mulf d (broadcastTo S512x1024
    (rsqrt (addf (columnMean (mulf d d) 0x44800000#32) (broadcast S512x1 (Scalar.ofBits .f32 0x3727C5AC#32))))
    broadcasts_S512x1_S512x1024)

theorem scaleRows_apply (d : FVec Ideal S512x1024 .f32) (r : Fin 512) (n : Fin 1024) :
    scaleRows d (ix2 r n)
      = d (ix2 r n) * Ideal.rsqrt (Ideal.div (∑ k : Fin 1024, d (ix2 r k) * d (ix2 r k)) Cert.Mha.width + Cert.Mha.eps) := by
  unfold scaleRows
  rw [mulf_apply, Cert.RowSoftmax.column_broadcast_apply]
  show d (ix2 r n) * Ideal.rsqrt (columnMean (mulf d d) 0x44800000#32 (ix2 r (0 : Fin 1)) + Ideal.ofBits .f32 0x3727C5AC#32) = _
  rw [columnMean_apply]
  rfl

/-- The product of the context block with the weight, each row of the weight an output feature, plus the residual
    block. -/
def residBlock (x0 : Vec Ideal S512x1024 .f32) (x1 : Vec Ideal S1024x1024 .f32) (x2 : Vec Ideal S512x1024 .f32) :
    FVec Ideal S512x1024 .f32 :=
  addf (FloatOps.matmul dot_S512x1024_S1024x1024_S512x1024_1_1_0_0_n_n none
      (truncf .bf16 (shapeCast S512x1024 x0 shapeCasts_S512x1024_S512x1024) bitsLt_bf16_f32)
      (truncf .bf16 x1 bitsLt_bf16_f32) (constant S512x1024 .f32 0x00000000#32))
    (shapeCast S512x1024 x2 shapeCasts_S512x1024_S512x1024)

theorem residBlock_apply (x0 : Vec Ideal S512x1024 .f32) (x1 : Vec Ideal S1024x1024 .f32) (x2 : Vec Ideal S512x1024 .f32)
    (r : Fin 512) (n : Fin 1024) :
    residBlock x0 x1 x2 (ix2 r n) = (∑ e : Fin 1024, x0 (ix2 r e) * x1 (ix2 n e)) + x2 (ix2 r n) := by
  unfold residBlock
  rw [addf_apply, outProduct_apply, shapeCast_self, shapeCast_self]
  rfl

/-- The body's stored value is the residual block with its rows centred and scaled. -/
theorem payload_eq (x0 : Vec Ideal S512x1024 .f32) (x1 : Vec Ideal S1024x1024 .f32) (x2 : Vec Ideal S512x1024 .f32) :
    k4_pay1 (F := Ideal) x0 x1 x2 = scaleRows (centreRows (residBlock x0 x1 x2)) := rfl

/-- The body's stored value at (r, n): row r of the product plus the residual, normalised, at column n. -/
theorem payload_apply (x0 : Vec Ideal S512x1024 .f32) (x1 : Vec Ideal S1024x1024 .f32) (x2 : Vec Ideal S512x1024 .f32)
    (r : Fin 512) (n : Fin 1024) :
    k4_pay1 (F := Ideal) x0 x1 x2 (ix2 r n)
      = rowNorm (fun k => (∑ e : Fin 1024, x0 (ix2 r e) * x1 (ix2 k e)) + x2 (ix2 r k)) n := by
  rw [payload_eq, scaleRows_apply]
  simp only [centreRows_apply]
  have hrow : rowOf (residBlock x0 x1 x2) r = fun k => (∑ e : Fin 1024, x0 (ix2 r e) * x1 (ix2 k e)) + x2 (ix2 r k) :=
    funext fun k => residBlock_apply x0 x1 x2 r k
  rw [hrow]
  simp only [residBlock_apply]
  rfl

/-- The specification's normalised rows at (ρ, n): row ρ, normalised, at column n. -/
theorem lnFlat_apply (x : S8192x1024.Idx → EReal) (ρ : Fin 8192) (n : Fin 1024) :
    Cert.Mha.lnFlat x (ix2 ρ n) = rowNorm (fun k => x (ix2 ρ k)) n := rfl

/-- A block of the computation against the whole arrays. When the context block `x0` and the residual block `x2` hold
    rows `512 b + r` of the arrays `A` and `X`, and `x1` is the weight `W`, the body's stored value at (r, n) is the
    specification's normalised residual at (512 b + r, n): a normalised row depends on no other row. -/
theorem payload_entry (x0 x2 : Vec Ideal S512x1024 .f32) (x1 : Vec Ideal S1024x1024 .f32)
    (A X : S8192x1024.Idx → EReal) (W : S1024x1024.Idx → EReal) (b : ℕ)
    (h0 : ∀ (y : S512x1024.Idx) (k : S8192x1024.Idx), (k 0).val = b * 512 + (y 0).val → (k 1).val = (y 1).val → x0 y = A k)
    (h1 : ∀ y : S1024x1024.Idx, x1 y = W y)
    (h2 : ∀ (y : S512x1024.Idx) (k : S8192x1024.Idx), (k 0).val = b * 512 + (y 0).val → (k 1).val = (y 1).val → x2 y = X k)
    (j : S512x1024.Idx) (i : S8192x1024.Idx) (hi0 : (i 0).val = b * 512 + (j 0).val) (hi1 : (i 1).val = (j 1).val) :
    k4_pay1 (F := Ideal) x0 x1 x2 j = Cert.Mha.lnFlat (Cert.Mha.residFlat A W X) i := by
  obtain ⟨r, n, rfl⟩ : ∃ (r : Fin 512) (n : Fin 1024), j = ix2 r n := ⟨j 0, j 1, eq_ix2 j⟩
  obtain ⟨ρ, n', rfl⟩ : ∃ (ρ : Fin 8192) (n' : Fin 1024), i = ix2 ρ n' := ⟨i 0, i 1, eq_ix2 i⟩
  obtain rfl : n' = n := Fin.ext hi1
  have hρ : ρ.val = b * 512 + r.val := hi0
  rw [payload_apply, lnFlat_apply]
  refine congrArg (fun y => rowNorm y n') (funext fun k => ?_)
  show _ = (∑ e : Fin 1024, A (ix2 ρ e) * W (ix2 k e)) + X (ix2 ρ k)
  rw [h2 (ix2 r k) (ix2 ρ k) hρ rfl]
  refine congrArg (· + X (ix2 ρ k)) (Finset.sum_congr rfl fun e _ => ?_)
  rw [h0 (ix2 r e) (ix2 ρ e) hρ rfl, h1]

end Cert.KernelIdeal.Block

end
-- ==== Proof.NormArray.lean ====
/-
  The last stage's result array: the normalised residual of the arrays the stage finds.

  The stage runs over 16 points. Point t takes rows 512 t … 512 t + 511 of the context array and of the residual
  array, the whole weight, and writes rows 512 t … 512 t + 511 of the result array. Since a normalised row of the
  residual sum depends only on the same row of the context and residual arrays, what point t writes is block t of ONE
  function of the three arrays — the specification's `lnFlat (residFlat A W X)` — and the 16 blocks cover the 8192
  rows (row ρ lies in the block of point ρ / 512). So the result array ends holding that function.
-/
import proofs.«143923_j53437983097248_2_alg».proof.Proof.Gen.KernelIdeal.Frame
import proofs.«143923_j53437983097248_2_alg».proof.Proof.Spec
import proofs.«143923_j53437983097248_2_alg».proof.Proof.NormBlock
import Idealize.ShloMosaic.Lib.Pipeline.Value

noncomputable section

open scoped BigOperators

namespace Cert.KernelIdeal.Block

open Cert.KernelIdeal Cert.KernelIdeal.Gen Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The four windows' block indices over the 16 points: the context, residual and result blocks are the 512 rows from
    row 512 t on, the weight is taken whole. -/
theorem index_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- The context block at point t holds rows 512 t + r of the context array. -/
theorem context_block_apply (c : Dev nD) (t : Fin cfg4.N) (y : S512x1024.Idx) (k : S8192x1024.Idx)
    (hk0 : (k 0).val = t.val * 512 + (y 0).val) (hk1 : (k 1).val = (y 1).val) :
    (iblk4 V c 0 t : Vec Ideal S512x1024 .f32) y = (V c main_v9 : S8192x1024.Idx → EReal) k := by
  obtain ⟨e0, e1, -⟩ := index_facts t
  unfold iblk4
  rw [View.read_apply]
  show V c main_v9 _ = V c main_v9 _
  refine congrArg (V c main_v9) ?_
  funext a; apply Fin.ext
  match a with
  | ⟨0, _⟩ => show win4_0.index t (0 : Fin 2) * 512 + 1 * (y 0).val = (k 0).val; rw [e0, hk0]; omega
  | ⟨1, _⟩ => show win4_0.index t (1 : Fin 2) * 1024 + 1 * (y 1).val = (k 1).val; rw [e1, hk1]; omega

/-- The weight's one block is the weight. -/
theorem weight_block_apply (c : Dev nD) (t : Fin cfg4.N) (y : S1024x1024.Idx) :
    (iblk4 V c 1 t : Vec Ideal S1024x1024 .f32) y = (V c main_arg7 : S1024x1024.Idx → EReal) y := by
  obtain ⟨-, -, e0, e1, -⟩ := index_facts t
  unfold iblk4
  rw [View.read_apply]
  show V c main_arg7 _ = V c main_arg7 _
  refine congrArg (V c main_arg7) ?_
  funext a; apply Fin.ext
  match a with
  | ⟨0, _⟩ => show win4_1.index t (0 : Fin 2) * 1024 + 1 * (y 0).val = (y 0).val; rw [e0]; omega
  | ⟨1, _⟩ => show win4_1.index t (1 : Fin 2) * 1024 + 1 * (y 1).val = (y 1).val; rw [e1]; omega

/-- The residual block at point t holds rows 512 t + r of the residual array. -/
theorem residual_block_apply (c : Dev nD) (t : Fin cfg4.N) (y : S512x1024.Idx) (k : S8192x1024.Idx)
    (hk0 : (k 0).val = t.val * 512 + (y 0).val) (hk1 : (k 1).val = (y 1).val) :
    (iblk4 V c 2 t : Vec Ideal S512x1024 .f32) y = (V c main_v10 : S8192x1024.Idx → EReal) k := by
  obtain ⟨-, -, -, -, e0, e1, -⟩ := index_facts t
  unfold iblk4
  rw [View.read_apply]
  show V c main_v10 _ = V c main_v10 _
  refine congrArg (V c main_v10) ?_
  funext a; apply Fin.ext
  match a with
  | ⟨0, _⟩ => show win4_2.index t (0 : Fin 2) * 512 + 1 * (y 0).val = (k 0).val; rw [e0, hk0]; omega
  | ⟨1, _⟩ => show win4_2.index t (1 : Fin 2) * 1024 + 1 * (y 1).val = (k 1).val; rw [e1, hk1]; omega

/-- The normalised residual of the arrays as the last stage finds them. -/
abbrev normed (c : Dev nD) : S8192x1024.Idx → EReal :=
  Cert.Mha.lnFlat (Cert.Mha.residFlat (V c main_v9) (V c main_arg7) (V c main_v10))

/-- What point t writes back is block t of the normalised residual: rows 512 t … 512 t + 511. -/
theorem flushed_eq (c : Dev nD) (t : Fin cfg4.N) :
    (dat4 (F := Ideal) V c).flushed 3 t = ((cfg4.win 3).blk t).view.read (Elt Ideal) (normed V c) := by
  show (cfg4.win 3).cut (grid4.coords t) ((dat4 (F := Ideal) V c).after 3 t) = _
  rw [after4_3]
  unfold out4_3
  rw [View.canon_unit_zero zero_offsets]
  simp only [View.ld_unit_zero (S := S512x1024) zero_offsets, View.ld_unit_zero (S := S1024x1024) zero_offsets]
  obtain ⟨-, -, -, -, -, -, e0, e1⟩ := index_facts t
  funext j
  show k4_pay1 (F := Ideal) (iblk4 V c 0 t) (iblk4 V c 1 t) (iblk4 V c 2 t) j
    = normed V c (((cfg4.win 3).blk t).view.emb j)
  exact payload_entry (iblk4 V c 0 t) (iblk4 V c 2 t) (iblk4 V c 1 t) (V c main_v9) (V c main_v10) (V c main_arg7) t.val
    (fun y k h0 h1 => context_block_apply V c t y k h0 h1) (fun y => weight_block_apply V c t y)
    (fun y k h0 h1 => residual_block_apply V c t y k h0 h1) j (((cfg4.win 3).blk t).view.emb j)
    (by show win4_3.index t (0 : Fin 2) * 512 + 1 * (j 0).val = t.val * 512 + (j 0).val; rw [e0]; omega)
    (by show win4_3.index t (1 : Fin 2) * 1024 + 1 * (j 1).val = (j 1).val; rw [e1]; omega)

/-- An index of the result array is in point t's block iff each coordinate is in the block's range on its axis. -/
theorem mem_block (t : Fin cfg4.N) (i : S8192x1024.Idx) :
    i ∈ ((cfg4.win 3).blk t).view.set ↔ ∀ a : Fin 2, win4_3.index t a * S512x1024.size a ≤ (i a).val
      ∧ (i a).val < win4_3.index t a * S512x1024.size a + S512x1024.size a := by
  show i ∈ ((View.whole main_v11).slice (win4_3.rect t)).set ↔ _
  rw [View.set_slice_whole, Rect.mem_set_unit]
  exact Iff.rfl

/-- Row ρ of the result array lies in the block of point ρ / 512: the 16 blocks cover the array. -/
theorem covered (i : S8192x1024.Idx) :
    ∃ t : Fin cfg4.N, (cfg4.win 3).flush t = true ∧ i ∈ ((cfg4.win 3).blk t).view.set := by
  have hi0 : (i 0).val < 8192 := (i 0).isLt
  have hi1 : (i 1).val < 1024 := (i 1).isLt
  have hN : cfg4.N = 16 := N_4
  let t : Fin cfg4.N := ⟨(i 0).val / 512, by rw [hN]; omega⟩
  obtain ⟨-, -, -, -, -, -, e0, e1⟩ := index_facts t
  have ht : t.val = (i 0).val / 512 := rfl
  refine ⟨t, flush4_3 t, ?_⟩
  rw [mem_block]
  intro a
  match a with
  | ⟨0, _⟩ =>
    show win4_3.index t (0 : Fin 2) * 512 ≤ (i 0).val ∧ (i 0).val < win4_3.index t (0 : Fin 2) * 512 + 512
    rw [e0, ht]; omega
  | ⟨1, _⟩ =>
    show win4_3.index t (1 : Fin 2) * 1024 ≤ (i 1).val ∧ (i 1).val < win4_3.index t (1 : Fin 2) * 1024 + 1024
    rw [e1]; omega

/-- After the last stage's 16 points the result array holds the normalised residual of the arrays the stage found. -/
theorem norm_array (c : Dev nD) :
    (dat4 (F := Ideal) V c).arrAt 3 cfg4.N
      = Cert.Mha.lnFlat (Cert.Mha.residFlat (V c main_v9) (V c main_arg7) (V c main_v10)) :=
  (dat4 (F := Ideal) V c).arrAt_eq_of_cover 3 (normed V c) (fun t _ => flushed_eq V c t) covered

end Cert.KernelIdeal.Block

end
-- ==== Proof.KernelValue.lean ====
/-
  The idealized kernel's two results as functions of its argument arrays.

  Reading the program from the launch: each projection call is entered with a flattened input and a weight, and
  leaves that input's heads; the attention call is entered with the three sets of heads and the mask words, and
  leaves the attention weights and the context; the output call is entered with the context re-laid as 8192 rows of
  1024 features, the output weight and the flattened first input, and leaves the normalised rows, which are
  un-flattened at the end. Composed, the two result buffers hold the specification's `weights` and `output`.
-/
import proofs.«143923_j53437983097248_2_alg».proof.Proof.Gen.KernelIdeal.Frame
import proofs.«143923_j53437983097248_2_alg».proof.Proof.Spec
import proofs.«143923_j53437983097248_2_alg».proof.Proof.Flat
import proofs.«143923_j53437983097248_2_alg».proof.Proof.Stretches
import proofs.«143923_j53437983097248_2_alg».proof.Proof.AttnPoint
import proofs.«143923_j53437983097248_2_alg».proof.Proof.AttnArray
import proofs.«143923_j53437983097248_2_alg».proof.Proof.ProjArray
import proofs.«143923_j53437983097248_2_alg».proof.Proof.NormArray

set_option maxRecDepth 16384

noncomputable section

open scoped BigOperators

namespace Cert.KernelIdeal.Block

open Cert.KernelIdeal Cert.KernelIdeal.Gen
open Idealize.ShloMosaic Idealize.ShloMosaic.TcCoe Idealize.ShloMosaic.ValueIdx Idealize.SL.Sem
open Idealize.ShloMosaic.Pipeline (Dat Cfg Window)

open Cert.Mha (SX SW SH SM SA SF ST)

variable (m : (ℓ : Loc nD τ sig) → Buf (Elt Ideal) ℓ) (ρ : Dev nD → PrngReg) (c : Dev nD)

/-- What the first projection call leaves: the heads of the query input. -/
theorem heads_query_eq : W7 m ρ c (Proc.devRef .tc main_v1)
    = Cert.Mha.proj (m ((c : Thread nD τ).loc main_arg0)) (m ((c : Thread nD τ).loc main_arg4)) := by
  rw [heads_query, proj_array0 (V1 m ρ) c]
  show Cert.Mha.projFlat (W1 m ρ c (Proc.devRef .tc main_v0)) (W1 m ρ c (Proc.devRef .tc main_arg4)) = _
  rw [rows_query, weight_query]
  exact Cert.Mha.projFlat_flatten _ _ _

/-- What the second leaves: the heads of the key input. -/
theorem heads_key_eq : W7 m ρ c (Proc.devRef .tc main_v3)
    = Cert.Mha.proj (m ((c : Thread nD τ).loc main_arg1)) (m ((c : Thread nD τ).loc main_arg5)) := by
  rw [heads_key, proj_array1 (V3 m ρ) c]
  show Cert.Mha.projFlat (W3 m ρ c (Proc.devRef .tc main_v2)) (W3 m ρ c (Proc.devRef .tc main_arg5)) = _
  rw [rows_key, weight_key]
  exact Cert.Mha.projFlat_flatten _ _ _

/-- What the third leaves: the heads of the value input. -/
theorem heads_value_eq : W7 m ρ c (Proc.devRef .tc main_v5)
    = Cert.Mha.proj (m ((c : Thread nD τ).loc main_arg2)) (m ((c : Thread nD τ).loc main_arg6)) := by
  rw [heads_value, proj_array2 (V5 m ρ) c]
  show Cert.Mha.projFlat (W5 m ρ c (Proc.devRef .tc main_v4)) (W5 m ρ c (Proc.devRef .tc main_arg6)) = _
  rw [rows_value, weight_value]
  exact Cert.Mha.projFlat_flatten _ _ _

/-- The scores the attention call works on are the specification's: its mask words are the mask bits widened. -/
theorem entry_scores : scoreW (V7 m ρ c main_v1) (V7 m ρ c main_v3) (V7 m ρ c main_v6)
    = Cert.Mha.score (Cert.Mha.proj (m ((c : Thread nD τ).loc main_arg0)) (m ((c : Thread nD τ).loc main_arg4)))
        (Cert.Mha.proj (m ((c : Thread nD τ).loc main_arg1)) (m ((c : Thread nD τ).loc main_arg5)))
        (m ((c : Thread nD τ).loc main_arg3)) := by
  show scoreW (W7 m ρ c (Proc.devRef .tc main_v1)) (W7 m ρ c (Proc.devRef .tc main_v3)) (W7 m ρ c (Proc.devRef .tc main_v6)) = _
  rw [heads_query_eq, heads_key_eq, mask_words]
  exact scoreW_widen _ _ _

/-- THE FIRST RESULT: the attention weights' buffer ends holding the specification's weights. -/
theorem kernel_weights : W11 m ρ c (Proc.devRef .tc main_v7_0)
    = Cert.Mha.weights (m ((c : Thread nD τ).loc main_arg0)) (m ((c : Thread nD τ).loc main_arg1))
        (m ((c : Thread nD τ).loc main_arg3)) (m ((c : Thread nD τ).loc main_arg4)) (m ((c : Thread nD τ).loc main_arg5)) := by
  rw [result_weights, weights_array (V7 m ρ) c, entry_scores]
  rfl

/-- What the attention call leaves in its second output: the specification's context. -/
theorem context_eq : (dat3 (V7 m ρ) c).arrAt 5 cfg3.N
    = Cert.Mha.ctx (Cert.Mha.weights (m ((c : Thread nD τ).loc main_arg0)) (m ((c : Thread nD τ).loc main_arg1))
        (m ((c : Thread nD τ).loc main_arg3)) (m ((c : Thread nD τ).loc main_arg4)) (m ((c : Thread nD τ).loc main_arg5)))
        (Cert.Mha.proj (m ((c : Thread nD τ).loc main_arg2)) (m ((c : Thread nD τ).loc main_arg6))) := by
  rw [context_array (V7 m ρ) c, entry_scores]
  show Cert.Mha.ctx _ (W7 m ρ c (Proc.devRef .tc main_v5)) = _
  rw [heads_value_eq]
  rfl

/-- THE SECOND RESULT: the normalised rows' buffer ends holding the specification's output. -/
theorem kernel_output : W11 m ρ c (Proc.devRef .tc main_v12)
    = Cert.Mha.output (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  rw [result_rows, norm_array (V9 m ρ) c]
  show shapeCast S4x2048x1024 (Cert.Mha.lnFlat (Cert.Mha.residFlat (W9 m ρ c (Proc.devRef .tc main_v9))
    (W9 m ρ c (Proc.devRef .tc main_arg7)) (W9 m ρ c (Proc.devRef .tc main_v10)))) shapeCasts_S8192x1024_S4x2048x1024 = _
  rw [rows_context, weight_out, rows_residual, context_eq]
  funext i
  obtain ⟨b, s, n, rfl⟩ : ∃ (b : Fin 4) (s : Fin 2048) (n : Fin 1024), i = ix3 b s n := ⟨i 0, i 1, i 2, eq_ix3 i⟩
  refine (Cert.Mha.unflatten_apply _ shapeCasts_S8192x1024_S4x2048x1024 b s n).trans ?_
  exact Cert.Mha.lnFlat_rows _ _ (fun b' s' n' => Cert.Mha.residFlat_rows _ _ _
    transposes_S4x16x2048x64_S4x2048x16x64_0_2_1_3 shapeCasts_S4x2048x16x64_S8192x1024 shapeCasts_S4x2048x1024_S8192x1024 b' s' n') b s n

end Cert.KernelIdeal.Block

end
-- ==== Proof.RefProj.lean ====
/-
  The reference's projections. The product of X with the rows of W has 1024 output features per (batch, position);
  the reference cuts them into 16 heads of 64 and moves the head axis in front of the position axis. Read at
  (b, h, s, d), the result is the inner product of row (b, s) of X with row 64 h + d of W: the stage `proj`.
-/
import proofs.«143923_j53437983097248_2_alg».proof.Proof.Gen.ReferenceIdeal.Read
import proofs.«143923_j53437983097248_2_alg».proof.Proof.Spec

noncomputable section

open scoped BigOperators

namespace Cert.Mha.Ref

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.Read

/-- The position of entry (b, s, h, d) of the four-axis layout in the flat one: feature 64 h + d of row (b, s). The
    reshape keeps the row-major position, so the flat coordinates are the quotients and remainders of
    ((b · 2048 + s) · 16 + h) · 64 + d by 2048 · 1024 and 1024; with the head axis moved in front, entry
    (b, h, s, d) reads the left factor at (b, s, k). -/
theorem lidx_head (i : S4x16x2048x64.Idx) (k : Fin 1024) :
    lidx_main_v0 (idx_main_v1 (idx_main_v2 i)) k = ix3 (i 0) (i 2) k := by
  have h0 : (i 0).val < 4 := (i 0).isLt
  have h1 : (i 1).val < 16 := (i 1).isLt
  have h2 : (i 2).val < 2048 := (i 2).isLt
  have h3 : (i 3).val < 64 := (i 3).isLt
  funext a
  match a with
  | ⟨0, _⟩ =>
    exact Fin.ext (by
      show ((((i 0).val * 2048 + (i 2).val) * 16 + (i 1).val) * 64 + (i 3).val) / 2097152 = (i 0).val
      omega)
  | ⟨1, _⟩ =>
    exact Fin.ext (by
      show ((((i 0).val * 2048 + (i 2).val) * 16 + (i 1).val) * 64 + (i 3).val) / 1024 % 2048 = (i 2).val
      omega)
  | ⟨2, _⟩ => rfl

/-- … and the right factor, a row of W, at (64 h + d, k). -/
theorem ridx_head (i : S4x16x2048x64.Idx) (k : Fin 1024) :
    ridx_main_v0 (idx_main_v1 (idx_main_v2 i)) k = ix2 (headCol (i 1) (i 3)) k := by
  have h0 : (i 0).val < 4 := (i 0).isLt
  have h1 : (i 1).val < 16 := (i 1).isLt
  have h2 : (i 2).val < 2048 := (i 2).isLt
  have h3 : (i 3).val < 64 := (i 3).isLt
  funext a
  match a with
  | ⟨0, _⟩ =>
    exact Fin.ext (by
      show ((((i 0).val * 2048 + (i 2).val) * 16 + (i 1).val) * 64 + (i 3).val) % 1024 = (i 1).val * 64 + (i 3).val
      omega)
  | ⟨1, _⟩ => rfl

/-- The query projection: the reference's first three operations compute `proj X_Q W_Q`. -/
theorem proj_eq (x0 : (⟨S4x2048x1024, .f32⟩ : BufTy).Contents (Elt Ideal))
    (x4 : (⟨S1024x1024, .f32⟩ : BufTy).Contents (Elt Ideal)) :
    val_main_v2 (F := Ideal) x0 x4 = Cert.Mha.proj x0 x4 := by
  funext i
  rw [val_main_v2_apply, val_main_v1_apply, val_main_v0_apply]
  unfold Cert.Mha.proj
  refine Finset.sum_congr rfl fun k _ => ?_
  exact congrArg₂ (· * ·) (congrArg x0 (lidx_head i k)) (congrArg x4 (ridx_head i k))

/-- The key projection: the same three operations on X_K and W_K (their index maps are the query's, under other names). -/
theorem proj_eq_k (x1 : (⟨S4x2048x1024, .f32⟩ : BufTy).Contents (Elt Ideal))
    (x5 : (⟨S1024x1024, .f32⟩ : BufTy).Contents (Elt Ideal)) :
    val_main_v5 (F := Ideal) x1 x5 = Cert.Mha.proj x1 x5 := by
  funext i
  rw [val_main_v5_apply, val_main_v4_apply, val_main_v3_apply]
  unfold Cert.Mha.proj
  refine Finset.sum_congr rfl fun k _ => ?_
  exact congrArg₂ (· * ·) (congrArg x1 (lidx_head i k)) (congrArg x5 (ridx_head i k))

end Cert.Mha.Ref

end
-- ==== Proof.RefConsts.lean ====
/-
  The float constants the reference's attention weights use, as the extended reals their 32-bit words denote: 8,
  one eighth and minus infinity; and the two laws they are needed for: dividing by 8 is multiplying by one eighth,
  at the infinities too, and the maximum with minus infinity is the other operand. The words are evaluated here once.
-/
import Idealize.ShloMosaic.PureOps.Ideal

noncomputable section

namespace Cert.Mha.Ref

open Idealize.ShloMosaic

/-- The word 0x41000000 (sign 0, exponent 130, fraction 0) is 2³ = 8. -/
theorem ofBits_eight : Ideal.ofBits .f32 0x41000000#32 = ((8 : ℝ) : EReal) := by
  simp [Ideal.ofBits, Ideal.ieee, -EReal.coe_mul]; norm_num

/-- The word 0x3E000000 (sign 0, exponent 124, fraction 0) is 2⁻³ = 1/8. -/
theorem ofBits_eighth : Ideal.ofBits .f32 0x3E000000#32 = ((1 / 8 : ℝ) : EReal) := by
  simp [Ideal.ofBits, Ideal.ieee, -EReal.coe_mul]; norm_num

/-- The word 0xFF800000 (sign 1, exponent all ones, fraction 0) is minus infinity. -/
theorem ofBits_negInf : Ideal.ofBits .f32 0xFF800000#32 = (⊥ : EReal) := by
  simp [Ideal.ofBits, Ideal.ieee]

/-- Dividing by 8 is multiplying by one eighth, for every extended real: 8 is a nonzero real, so the quotient is the
    product with its reciprocal, at plus and minus infinity as well. -/
theorem div_eight (x : EReal) :
    Ideal.div x (Ideal.ofBits .f32 0x41000000#32) = x * Ideal.ofBits .f32 0x3E000000#32 := by
  rw [ofBits_eight, ofBits_eighth]
  exact Ideal.div_coe (by norm_num) x

/-- The maximum with minus infinity is the other operand. -/
theorem max_negInf (x : EReal) : max (Ideal.ofBits .f32 0xFF800000#32) x = x := by
  rw [ofBits_negInf]; exact max_eq_right bot_le

end Cert.Mha.Ref

end
-- ==== Proof.RefScores.lean ====
/-
  The reference's masked scores. For each batch and head the query and key projections are contracted over the 64
  entries of the head, the product is divided by 8, and where the mask bit (b, q, k) — the same for every head — is
  set the entry is replaced by the large negative constant. Dividing by 8 is multiplying by one eighth, so this is
  the stage `score` of the two projections.
-/
import proofs.«143923_j53437983097248_2_alg».proof.Proof.Gen.ReferenceIdeal.Read
import proofs.«143923_j53437983097248_2_alg».proof.Proof.Spec
import proofs.«143923_j53437983097248_2_alg».proof.Proof.RefProj
import proofs.«143923_j53437983097248_2_alg».proof.Proof.RefConsts

noncomputable section

open scoped BigOperators

namespace Cert.Mha.Ref

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.Read

/-- The mask is broadcast over the heads through a unit axis: entry (b, h, q, k) reads bit (b, q, k). -/
theorem mask_idx (i : S4x16x2048x2048.Idx) : idx_main_v12 (idx_main_call0_v0 i) = ix3 (i 0) (i 2) (i 3) := by
  funext a
  match a with
  | ⟨0, _⟩ => rfl
  | ⟨1, _⟩ => rfl
  | ⟨2, _⟩ => rfl

/-- The batched product's left factor at (b, h, q, k) and contraction index e is the query at (b, h, q, e) … -/
theorem lidx_score (i : S4x16x2048x2048.Idx) (e : Fin 64) : lidx_main_v9 i e = ix4 (i 0) (i 1) (i 2) e := by
  funext a
  match a with
  | ⟨0, _⟩ => rfl
  | ⟨1, _⟩ => rfl
  | ⟨2, _⟩ => rfl
  | ⟨3, _⟩ => rfl

/-- … and its right factor the key at (b, h, k, e). -/
theorem ridx_score (i : S4x16x2048x2048.Idx) (e : Fin 64) : ridx_main_v9 i e = ix4 (i 0) (i 1) (i 3) e := by
  funext a
  match a with
  | ⟨0, _⟩ => rfl
  | ⟨1, _⟩ => rfl
  | ⟨2, _⟩ => rfl
  | ⟨3, _⟩ => rfl

/-- The reference's masked scores are `score` of the two projections and the mask. -/
theorem score_eq (x0 x1 : (⟨S4x2048x1024, .f32⟩ : BufTy).Contents (Elt Ideal))
    (x3 : (⟨S4x2048x2048, .i1⟩ : BufTy).Contents (Elt Ideal))
    (x4 x5 : (⟨S1024x1024, .f32⟩ : BufTy).Contents (Elt Ideal)) :
    val_main_v13 (F := Ideal) x0 x1 x3 x4 x5 = Cert.Mha.score (Cert.Mha.proj x0 x4) (Cert.Mha.proj x1 x5) x3 := by
  funext i
  rw [val_main_v13_apply, val_main_call0_v0_apply, val_main_v12_apply, val_main_call0_v1_apply, val_main_cst_0_apply,
    val_main_v11_apply, val_main_v10_apply, val_main_cst_apply, val_main_v9_apply, proj_eq, proj_eq_k, mask_idx]
  unfold Cert.Mha.score
  have hs : (∑ e : Fin 64, Cert.Mha.proj x0 x4 (lidx_main_v9 i e) * Cert.Mha.proj x1 x5 (ridx_main_v9 i e))
      = ∑ e : Fin 64, Cert.Mha.proj x0 x4 (ix4 (i 0) (i 1) (i 2) e) * Cert.Mha.proj x1 x5 (ix4 (i 0) (i 1) (i 3) e) :=
    Finset.sum_congr rfl fun e _ =>
      congrArg₂ (· * ·) (congrArg (Cert.Mha.proj x0 x4) (lidx_score i e)) (congrArg (Cert.Mha.proj x1 x5) (ridx_score i e))
  rw [hs]
  exact congrArg (Scalar.select (x3 (ix3 (i 0) (i 2) (i 3))) Cert.Mha.negBig) (div_eight _)

end Cert.Mha.Ref

end
-- ==== Proof.RefWeights.lean ====
/-
  The reference's attention weights: the softmax of the masked scores along the key axis. Each row's maximum is
  taken from minus infinity (and once more against minus infinity, which changes nothing), subtracted from the row,
  the exponential taken, and the row divided by its sum from zero. This is the stage `attn`, so the reference's
  weights are `weights` of its arguments.
-/
import proofs.«143923_j53437983097248_2_alg».proof.Proof.Gen.ReferenceIdeal.Read
import proofs.«143923_j53437983097248_2_alg».proof.Proof.Spec
import proofs.«143923_j53437983097248_2_alg».proof.Proof.RefScores
import proofs.«143923_j53437983097248_2_alg».proof.Proof.RefConsts

noncomputable section

open scoped BigOperators

namespace Cert.Mha.Ref

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.Read

/-- The last axis of a [4, 16, 2048, 2048] array reduces to [4, 16, 2048]. -/
theorem reduces_last : S4x16x2048x2048.Reduces [3] S4x16x2048 := by decide

/-- Row (b, h, q) with the key coordinate k put back on the reduced axis is entry (b, h, q, k). -/
theorem lift_row (h : S4x16x2048x2048.Reduces [3] S4x16x2048) (j : S4x16x2048.Idx) (k : Fin (S4x16x2048x2048.size 3)) :
    h.lift j k = ix4 (j 0) (j 1) (j 2) (⟨k.val, k.isLt⟩ : Fin 2048) := by
  funext c
  apply Fin.ext
  match c with
  | ⟨0, _⟩ => rfl
  | ⟨1, _⟩ => rfl
  | ⟨2, _⟩ => rfl
  | ⟨3, _⟩ => rfl

/-- The row maximum. The reduction with a maximum body over the key axis is, at row (b, h, q), the fold of the maximum
    from minus infinity over the row's 2048 entries (the maximum is commutative and associative, so the order the
    reduction visits them in does not matter); the further maximum with minus infinity is the identity. -/
theorem rowmax_eq (x0 x1 : (⟨S4x2048x1024, .f32⟩ : BufTy).Contents (Elt Ideal))
    (x3 : (⟨S4x2048x2048, .i1⟩ : BufTy).Contents (Elt Ideal))
    (x4 x5 : (⟨S1024x1024, .f32⟩ : BufTy).Contents (Elt Ideal)) (j : S4x16x2048.Idx) :
    val_main_v16 (F := Ideal) x0 x1 x3 x4 x5 j
      = (Finset.univ : Finset (Fin 2048)).fold max Cert.Mha.negInf
          (fun k => val_main_v13 (F := Ideal) x0 x1 x3 x4 x5 (ix4 (j 0) (j 1) (j 2) k)) := by
  rw [val_main_v16_apply, val_main_v15_apply, val_main_cst_2_apply]
  show max (Ideal.ofBits .f32 0xFF800000#32) (val_main_v14 (F := Ideal) x0 x1 x3 x4 x5 j) = _
  rw [max_negInf]
  unfold val_main_v14
  rw [Host.reduce_eq_fold_single FloatOps.maximumf _ _ reducesTo_S4x16x2048x2048_S4x16x2048_d3 reduces_last h_S_]
  have hf : (val_main_v13 (F := Ideal) x0 x1 x3 x4 x5 ∘ reduces_last.lift j)
      = fun k : Fin 2048 => val_main_v13 (F := Ideal) x0 x1 x3 x4 x5 (ix4 (j 0) (j 1) (j 2) k) :=
    funext fun k => congrArg (val_main_v13 (F := Ideal) x0 x1 x3 x4 x5) (lift_row reduces_last j k)
  exact congrArg (fun f => Finset.fold max (Ideal.ofBits .f32 0xFF800000#32) f (Finset.univ : Finset (Fin 2048))) hf

/-- The exponentials: each entry's distance below its row's maximum, exponentiated. The row maximum is broadcast back
    along the key axis through a unit axis, so entry (b, h, q, k) reads the maximum of row (b, h, q). -/
theorem expo_eq (x0 x1 : (⟨S4x2048x1024, .f32⟩ : BufTy).Contents (Elt Ideal))
    (x3 : (⟨S4x2048x2048, .i1⟩ : BufTy).Contents (Elt Ideal))
    (x4 x5 : (⟨S1024x1024, .f32⟩ : BufTy).Contents (Elt Ideal)) (i : S4x16x2048x2048.Idx) :
    val_main_v20 (F := Ideal) x0 x1 x3 x4 x5 i = Cert.Mha.expo (val_main_v13 (F := Ideal) x0 x1 x3 x4 x5) i := by
  rw [val_main_v20_apply, val_main_v19_apply, val_main_v18_apply, val_main_v17_apply]
  have hm : val_main_v16 (F := Ideal) x0 x1 x3 x4 x5 (idx_main_v17 (idx_main_v18 i))
      = (Finset.univ : Finset (Fin 2048)).fold max Cert.Mha.negInf
          (fun k => val_main_v13 (F := Ideal) x0 x1 x3 x4 x5 (ix4 (i 0) (i 1) (i 2) k)) :=
    rowmax_eq x0 x1 x3 x4 x5 (idx_main_v17 (idx_main_v18 i))
  rw [hm]
  rfl

/-- The row sum is broadcast back the same way, and the sum runs over the entries (b, h, q, k) of the row. -/
theorem sum_idx (i : S4x16x2048x2048.Idx) (k : Fin 2048) :
    idx_main_v21 (idx_main_v22 (idx_main_v23 i)) k = ix4 (i 0) (i 1) (i 2) k := by
  funext a
  match a with
  | ⟨0, _⟩ => rfl
  | ⟨1, _⟩ => rfl
  | ⟨2, _⟩ => rfl
  | ⟨3, _⟩ => rfl

/-- The softmax of the masked scores: the exponentials over their row sums (the sum starts from zero). -/
theorem softmax_eq (x0 x1 : (⟨S4x2048x1024, .f32⟩ : BufTy).Contents (Elt Ideal))
    (x3 : (⟨S4x2048x2048, .i1⟩ : BufTy).Contents (Elt Ideal))
    (x4 x5 : (⟨S1024x1024, .f32⟩ : BufTy).Contents (Elt Ideal)) :
    val_main_v24 (F := Ideal) x0 x1 x3 x4 x5 = Cert.Mha.attn (val_main_v13 (F := Ideal) x0 x1 x3 x4 x5) := by
  funext i
  rw [val_main_v24_apply, val_main_v23_apply, val_main_v22_apply, val_main_v21_apply, val_main_cst_3_apply, expo_eq]
  have hs : (∑ k : Fin 2048, val_main_v20 (F := Ideal) x0 x1 x3 x4 x5 (idx_main_v21 (idx_main_v22 (idx_main_v23 i)) k))
      = ∑ k : Fin 2048, Cert.Mha.expo (val_main_v13 (F := Ideal) x0 x1 x3 x4 x5) (ix4 (i 0) (i 1) (i 2) k) :=
    Finset.sum_congr rfl fun k _ =>
      (congrArg (val_main_v20 (F := Ideal) x0 x1 x3 x4 x5) (sum_idx i k)).trans (expo_eq x0 x1 x3 x4 x5 _)
  rw [hs]
  show Ideal.div _ (Ideal.ofBits .f32 0x00000000#32 + _) = _
  rw [Ideal.ofBits_zero_f32, zero_add]
  rfl

/-- The reference's attention weights are `weights` of the query and key inputs, the mask and the two weight matrices. -/
theorem weights_eq (x0 x1 : (⟨S4x2048x1024, .f32⟩ : BufTy).Contents (Elt Ideal))
    (x3 : (⟨S4x2048x2048, .i1⟩ : BufTy).Contents (Elt Ideal))
    (x4 x5 : (⟨S1024x1024, .f32⟩ : BufTy).Contents (Elt Ideal)) :
    val_main_v24 (F := Ideal) x0 x1 x3 x4 x5 = Cert.Mha.weights x0 x1 x3 x4 x5 := by
  rw [softmax_eq, score_eq]
  rfl

end Cert.Mha.Ref

end
-- ==== Proof.RefOutResid.lean ====
/-
  The reference's value projection, context and residual, read index by index.

  * Operations 6-8: the product of the value input with the value weights contracting the feature axis, reshaped
    to [4, 2048, 16, 64] and transposed to [4, 16, 2048, 64]. Read at (b, h, s, d) it is the inner product of row
    (b, s) of the input with row 64 h + d of the weights: the reshape sends (b, s, h, d) to feature 64 h + d.
  * Operation 25: the batched product of the attention weights with the projected values, contracting the key
    position: the context.
  * Operations 26-29: the context transposed back to [4, 2048, 16, 64] and reshaped to [4, 2048, 1024] (feature e
    comes from head e / 64, place e % 64), multiplied by the output weights contracting the feature axis, plus the
    query input: the residual.
-/
import proofs.«143923_j53437983097248_2_alg».proof.Proof.Gen.ReferenceIdeal.Read
import proofs.«143923_j53437983097248_2_alg».proof.Proof.Spec

noncomputable section

open scoped BigOperators

namespace Cert.Mha.RefOut

open Idealize.ShloMosaic Idealize.ShloMosaic.ValueIdx Cert.ReferenceIdeal Cert.ReferenceIdeal.Read

variable (x0 x1 x2 : (⟨S4x2048x1024, .f32⟩ : BufTy).Contents (Elt Ideal))
  (x3 : (⟨S4x2048x2048, .i1⟩ : BufTy).Contents (Elt Ideal))
  (x4 x5 x6 x7 : (⟨S1024x1024, .f32⟩ : BufTy).Contents (Elt Ideal))

/-- The reshape and transpose of operations 7 and 8 send (b, h, s, d) to row (b, s), feature 64 h + d. -/
theorem lidx_v6_v7_v8 (i : S4x16x2048x64.Idx) (k : Fin 1024) :
    lidx_main_v6 (idx_main_v7 (idx_main_v8 i)) k = ix3 (i 0) (i 2) k := by
  have h0 : (i 0).val < 4 := (i 0).isLt
  have h1 : (i 1).val < 16 := (i 1).isLt
  have h2 : (i 2).val < 2048 := (i 2).isLt
  have h3 : (i 3).val < 64 := (i 3).isLt
  funext a
  match a with
  | ⟨0, _⟩ =>
    exact Fin.ext (by
      show ((((i 0).val * 2048 + (i 2).val) * 16 + (i 1).val) * 64 + (i 3).val) / 2097152 = (i 0).val
      omega)
  | ⟨1, _⟩ =>
    exact Fin.ext (by
      show ((((i 0).val * 2048 + (i 2).val) * 16 + (i 1).val) * 64 + (i 3).val) / 1024 % 2048 = (i 2).val
      omega)
  | ⟨2, _⟩ => rfl

theorem ridx_v6_v7_v8 (i : S4x16x2048x64.Idx) (k : Fin 1024) :
    ridx_main_v6 (idx_main_v7 (idx_main_v8 i)) k = ix2 (Cert.Mha.headCol (i 1) (i 3)) k := by
  have h0 : (i 0).val < 4 := (i 0).isLt
  have h1 : (i 1).val < 16 := (i 1).isLt
  have h2 : (i 2).val < 2048 := (i 2).isLt
  have h3 : (i 3).val < 64 := (i 3).isLt
  funext a
  match a with
  | ⟨0, _⟩ =>
    exact Fin.ext (by
      show ((((i 0).val * 2048 + (i 2).val) * 16 + (i 1).val) * 64 + (i 3).val) % 1024 = (i 1).val * 64 + (i 3).val
      omega)
  | ⟨1, _⟩ => rfl

/-- Operation 8 is the spec's projection of the value input. -/
theorem proj_v8_eq : Cert.ReferenceIdeal.Read.val_main_v8 (F := Ideal) x2 x6 = Cert.Mha.proj x2 x6 := by
  funext i
  rw [val_main_v8_apply, val_main_v7_apply, val_main_v6_apply]
  unfold Cert.Mha.proj
  refine Finset.sum_congr rfl fun k _ => ?_
  rw [lidx_v6_v7_v8, ridx_v6_v7_v8]
  rfl

/-- Operation 25 is the spec's context of the weights and the projected values. -/
theorem ctx_v25_eq (A : Cert.Mha.SA.Idx → EReal)
    (hA : Cert.ReferenceIdeal.Read.val_main_v24 (F := Ideal) x0 x1 x3 x4 x5 = A) :
    Cert.ReferenceIdeal.Read.val_main_v25 (F := Ideal) x0 x1 x2 x3 x4 x5 x6 = Cert.Mha.ctx A (Cert.Mha.proj x2 x6) := by
  funext i
  rw [val_main_v25_apply, hA, proj_v8_eq]
  unfold Cert.Mha.ctx
  refine Finset.sum_congr rfl fun k _ => ?_
  have el : lidx_main_v25 i k = ix4 (i 0) (i 1) (i 2) k := by
    funext a; match a with | ⟨0, _⟩ => rfl | ⟨1, _⟩ => rfl | ⟨2, _⟩ => rfl | ⟨3, _⟩ => rfl
  have er : ridx_main_v25 i k = ix4 (i 0) (i 1) k (i 3) := by
    funext a; match a with | ⟨0, _⟩ => rfl | ⟨1, _⟩ => rfl | ⟨2, _⟩ => rfl | ⟨3, _⟩ => rfl
  rw [el, er]
  rfl

/-- The transpose and reshape of operations 26 and 27 send row (b, s), feature e to (b, e / 64, s, e % 64). -/
theorem idx_v26_v27_v28 (i : S4x2048x1024.Idx) (k : Fin 1024) :
    idx_main_v26 (idx_main_v27 (lidx_main_v28 i k)) = ix4 (i 0) (Cert.Mha.headOf k) (i 1) (Cert.Mha.withinHead k) := by
  have h0 : (i 0).val < 4 := (i 0).isLt
  have h1 : (i 1).val < 2048 := (i 1).isLt
  have hk : k.val < 1024 := k.isLt
  funext a
  match a with
  | ⟨0, _⟩ =>
    exact Fin.ext (by
      show (((i 0).val * 2048 + (i 1).val) * 1024 + k.val) / 2097152 = (i 0).val
      omega)
  | ⟨1, _⟩ =>
    exact Fin.ext (by
      show (((i 0).val * 2048 + (i 1).val) * 1024 + k.val) / 64 % 16 = k.val / 64
      omega)
  | ⟨2, _⟩ =>
    exact Fin.ext (by
      show (((i 0).val * 2048 + (i 1).val) * 1024 + k.val) / 1024 % 2048 = (i 1).val
      omega)
  | ⟨3, _⟩ =>
    exact Fin.ext (by
      show (((i 0).val * 2048 + (i 1).val) * 1024 + k.val) % 64 = k.val % 64
      omega)

/-- Operation 29 is the spec's residual of the context. -/
theorem resid_v29_eq (A : Cert.Mha.SA.Idx → EReal)
    (hA : Cert.ReferenceIdeal.Read.val_main_v24 (F := Ideal) x0 x1 x3 x4 x5 = A) :
    Cert.ReferenceIdeal.Read.val_main_v29 (F := Ideal) x0 x1 x2 x3 x4 x5 x6 x7
      = Cert.Mha.resid (Cert.Mha.ctx A (Cert.Mha.proj x2 x6)) x7 x0 := by
  funext i
  rw [val_main_v29_apply, val_main_v28_apply, Ideal.addf_def]
  unfold Cert.Mha.resid
  refine congrArg (· + x0 i) (Finset.sum_congr rfl fun k _ => ?_)
  rw [val_main_v27_apply, val_main_v26_apply, ctx_v25_eq x0 x1 x2 x3 x4 x5 x6 A hA, idx_v26_v27_v28]
  have er : ridx_main_v28 i k = ix2 (i 2) k := by
    funext a; match a with | ⟨0, _⟩ => rfl | ⟨1, _⟩ => rfl
  rw [er]
  rfl

end Cert.Mha.RefOut

end
-- ==== Proof.RefOutLaws.lean ====
/-
  Laws of the extended reals that the layer norm's last steps need, and the two constants of the layer norm as
  real numbers.

  * The divisor 1024 and the small constant added to the variance are evaluated once, here, from their 32-bit words.
  * A product with the reciprocal square root is the quotient by the square root, for every positive extended real
    under the root and EVERY numerator: at +inf both sides are the numerator times 0, at a positive real r both are the
    numerator times the real 1/sqrt r.
  * A square is non-negative on the extended reals, so a mean of squares is non-negative, and adding a positive
    constant to it gives a positive number whatever the entries are.
-/
import proofs.«143923_j53437983097248_2_alg».proof.Proof.Spec
import Idealize.ShloMosaic.PureOps.Ideal.Laws

noncomputable section

open scoped BigOperators

namespace Cert.Mha.RefOut

open Idealize.ShloMosaic Idealize.ShloMosaic.ValueIdx

/-- The word 0x44800000 denotes the real 1024. -/
theorem width_eq : Cert.Mha.width = ((1024 : ℝ) : EReal) := by
  simp [Ideal.ofBits, Ideal.ieee, -EReal.coe_mul]; norm_num

/-- The word 0x3727C5AC denotes a positive real: sign bit 0, a normal number. -/
theorem eps_pos : (0 : EReal) < Cert.Mha.eps := by
  simp [Ideal.ofBits, Ideal.ieee, -EReal.coe_mul] <;> norm_num

/-- A product with the reciprocal square root of a positive extended real is the quotient by its square root. -/
theorem mul_rsqrt_eq_div_sqrt {v : EReal} (hv : 0 < v) (x : EReal) :
    x * Ideal.rsqrt v = Ideal.div x (Ideal.sqrt v) := by
  induction v using EReal.rec with
  | bot => exact absurd hv (not_lt_bot)
  | top =>
    rw [Ideal.rsqrt_top, Ideal.sqrt_top, Ideal.div, if_neg (by exact EReal.top_ne_zero), EReal.inv_top]
  | coe r =>
    have hr : 0 < r := EReal.coe_pos.1 hv
    have hs : Real.sqrt r ≠ 0 := (Real.sqrt_pos.2 hr).ne'
    rw [Ideal.rsqrt_coe, Ideal.sqrt_coe, if_neg (not_lt.2 hr.le), if_neg hr.ne', if_neg (not_lt.2 hr.le),
      Ideal.div_coe hs, one_div]

/-- A square is non-negative on the extended reals. -/
theorem mul_self_nonneg' (x : EReal) : 0 ≤ x * x :=
  EReal.mul_nonneg_iff.2 ((le_total 0 x).imp (fun h => ⟨h, h⟩) (fun h => ⟨h, h⟩))

/-- The quotient of a non-negative extended real by 1024 is non-negative. -/
theorem div_width_nonneg {a : EReal} (ha : 0 ≤ a) : 0 ≤ Ideal.div a Cert.Mha.width := by
  rw [width_eq, Ideal.div_coe (by norm_num)]
  exact EReal.mul_nonneg ha (EReal.coe_nonneg.2 (by norm_num))

/-- The variance of a row is non-negative, whatever the entries are. -/
theorem variance_nonneg (x : Cert.Mha.SX.Idx → EReal) (b : Fin 4) (s : Fin 2048) :
    0 ≤ Cert.Mha.variance x b s :=
  div_width_nonneg (Finset.sum_nonneg fun n _ => mul_self_nonneg' _)

/-- The variance plus the small constant is positive, whatever the entries are. -/
theorem variance_add_eps_pos (x : Cert.Mha.SX.Idx → EReal) (b : Fin 4) (s : Fin 2048) :
    0 < Cert.Mha.variance x b s + Cert.Mha.eps :=
  eps_pos.trans_le (le_add_of_nonneg_left (variance_nonneg x b s))

end Cert.Mha.RefOut

end
-- ==== Proof.RefOutput.lean ====
/-
  The reference's normalised output, given its attention weights.

  With R the residual (operation 29), each row (b, s, ·) of R is normalised:
  * operations 30-33: the row's sum from the initial value 0, over 1024: the mean;
  * operations 34-35 and 41-42: the entry minus its row's mean (computed twice, the same value): the centred entry;
  * operations 36-40: the row's sum of the squared centred entries from 0, over 1024: the variance;
  * operations 43-47: the centred entry over the square root of the variance plus the small constant.
  The spec multiplies by the reciprocal square root instead; the two agree because the variance plus the constant is
  positive whatever the entries are.
-/
import proofs.«143923_j53437983097248_2_alg».proof.Proof.RefOutResid
import proofs.«143923_j53437983097248_2_alg».proof.Proof.RefOutLaws

noncomputable section

open scoped BigOperators

namespace Cert.Mha.RefOut

open Idealize.ShloMosaic Idealize.ShloMosaic.ValueIdx Cert.ReferenceIdeal Cert.ReferenceIdeal.Read

variable (x0 x1 x2 : (⟨S4x2048x1024, .f32⟩ : BufTy).Contents (Elt Ideal))
  (x3 : (⟨S4x2048x2048, .i1⟩ : BufTy).Contents (Elt Ideal))
  (x4 x5 x6 x7 : (⟨S1024x1024, .f32⟩ : BufTy).Contents (Elt Ideal))

/-- Operation 33 at row (b, s): the mean of the residual's row. -/
theorem mean_v33 (R : Cert.Mha.SX.Idx → EReal)
    (hR : Cert.ReferenceIdeal.Read.val_main_v29 (F := Ideal) x0 x1 x2 x3 x4 x5 x6 x7 = R) (j : S4x2048x1.Idx) :
    Cert.ReferenceIdeal.Read.val_main_v33 (F := Ideal) x0 x1 x2 x3 x4 x5 x6 x7 j = Cert.Mha.mean R (j 0) (j 1) := by
  rw [val_main_v33_apply, val_main_v31_apply, val_main_v30_apply, val_main_v32_apply, val_main_cst_5_apply,
    val_main_cst_4_apply, hR, Ideal.hostDivf_def, Ideal.ofBits_def, Ideal.ofBits_def, Ideal.ofBits_zero_f32, zero_add]
  unfold Cert.Mha.mean
  refine congrArg (Ideal.div · Cert.Mha.width) (Finset.sum_congr rfl fun k _ => ?_)
  exact congrArg R (funext fun a => match a with | ⟨0, _⟩ => rfl | ⟨1, _⟩ => rfl | ⟨2, _⟩ => rfl)

/-- Operation 35: the residual's entry minus its row's mean. -/
theorem centred_v35 (R : Cert.Mha.SX.Idx → EReal)
    (hR : Cert.ReferenceIdeal.Read.val_main_v29 (F := Ideal) x0 x1 x2 x3 x4 x5 x6 x7 = R) (i : S4x2048x1024.Idx) :
    Cert.ReferenceIdeal.Read.val_main_v35 (F := Ideal) x0 x1 x2 x3 x4 x5 x6 x7 i = Cert.Mha.centred R i := by
  rw [val_main_v35_apply, val_main_v34_apply, mean_v33 x0 x1 x2 x3 x4 x5 x6 x7 R hR, hR, Ideal.subf_def]
  rfl

/-- Operation 42: the same centred entry, computed a second time. -/
theorem centred_v42 (R : Cert.Mha.SX.Idx → EReal)
    (hR : Cert.ReferenceIdeal.Read.val_main_v29 (F := Ideal) x0 x1 x2 x3 x4 x5 x6 x7 = R) (i : S4x2048x1024.Idx) :
    Cert.ReferenceIdeal.Read.val_main_v42 (F := Ideal) x0 x1 x2 x3 x4 x5 x6 x7 i = Cert.Mha.centred R i := by
  rw [val_main_v42_apply, val_main_v41_apply, mean_v33 x0 x1 x2 x3 x4 x5 x6 x7 R hR, hR, Ideal.subf_def]
  rfl

/-- Operation 40 at row (b, s): the variance of the residual's row. -/
theorem variance_v40 (R : Cert.Mha.SX.Idx → EReal)
    (hR : Cert.ReferenceIdeal.Read.val_main_v29 (F := Ideal) x0 x1 x2 x3 x4 x5 x6 x7 = R) (j : S4x2048x1.Idx) :
    Cert.ReferenceIdeal.Read.val_main_v40 (F := Ideal) x0 x1 x2 x3 x4 x5 x6 x7 j = Cert.Mha.variance R (j 0) (j 1) := by
  rw [val_main_v40_apply, val_main_v38_apply, val_main_v37_apply, val_main_v39_apply, val_main_cst_7_apply,
    val_main_cst_6_apply, Ideal.hostDivf_def, Ideal.ofBits_def, Ideal.ofBits_def, Ideal.ofBits_zero_f32, zero_add]
  unfold Cert.Mha.variance
  refine congrArg (Ideal.div · Cert.Mha.width) (Finset.sum_congr rfl fun k _ => ?_)
  have e : idx_main_v37 (idx_main_v38 j) k = ix3 (j 0) (j 1) k :=
    funext fun a => match a with | ⟨0, _⟩ => rfl | ⟨1, _⟩ => rfl | ⟨2, _⟩ => rfl
  rw [val_main_v36_apply, centred_v35 x0 x1 x2 x3 x4 x5 x6 x7 R hR, Ideal.mulf_def, e]
  rfl

/-- Operation 47 is the spec's layer norm of operation 29. -/
theorem ln_v47_eq (R : Cert.Mha.SX.Idx → EReal)
    (hR : Cert.ReferenceIdeal.Read.val_main_v29 (F := Ideal) x0 x1 x2 x3 x4 x5 x6 x7 = R) :
    Cert.ReferenceIdeal.Read.val_main_v47 (F := Ideal) x0 x1 x2 x3 x4 x5 x6 x7 = Cert.Mha.ln R := by
  funext i
  rw [val_main_v47_apply, val_main_v46_apply, val_main_v45_apply, val_main_v44_apply, val_main_v43_apply,
    val_main_cst_8_apply, variance_v40 x0 x1 x2 x3 x4 x5 x6 x7 R hR, centred_v42 x0 x1 x2 x3 x4 x5 x6 x7 R hR, Ideal.hostDivf_def,
    Ideal.hostUnary_sqrt_def, Ideal.addf_def, Ideal.ofBits_def]
  unfold Cert.Mha.ln
  exact (mul_rsqrt_eq_div_sqrt (variance_add_eps_pos R (i 0) (i 1)) _).symm

/-- The reference's normalised output is the spec's, given that its attention weights are A. -/
theorem output_eq_of_weights (A : Cert.Mha.SA.Idx → EReal)
    (hA : Cert.ReferenceIdeal.Read.val_main_v24 (F := Ideal) x0 x1 x3 x4 x5 = A) :
    Cert.ReferenceIdeal.Read.val_main_v47 (F := Ideal) x0 x1 x2 x3 x4 x5 x6 x7
      = Cert.Mha.ln (Cert.Mha.resid (Cert.Mha.ctx A (Cert.Mha.proj x2 x6)) x7 x0) :=
  ln_v47_eq x0 x1 x2 x3 x4 x5 x6 x7 _ (resid_v29_eq x0 x1 x2 x3 x4 x5 x6 x7 A hA)

end Cert.Mha.RefOut

end
-- ==== Proof.lean ====
/-
  Multi-head attention with a residual layer norm: the pipelined kernel against its array-level reference, on the
  extended reals.

  Both programs compute, from three inputs X_Q, X_K, X_V : [4, 2048, 1024], a mask of bits and four weights,
    (1) the attention weights  softmax_k ( mask ? -10^9 : (Q K^T) / 8 )  per batch and head, where Q, K, V are the
        inputs' projections cut into 16 heads of 64 features, and
    (2) the layer norm (no scale, no shift) of  (weights · V, heads joined) W_O^T + X_Q.
  The kernel does it in five pipelined calls over tiles of 512 rows, the reference on whole arrays. Their
  differences are three, none of which changes a value on the extended reals: the kernel multiplies the scores by
  1/8 where the reference divides by 8 (both exact powers of two); the reference takes max(-inf, row maximum), which is
  the row maximum; and the kernel multiplies the centred rows by rsqrt(var + eps) where the reference divides by
  sqrt(var + eps) — equal because var + eps is always positive (a mean of squares plus a positive constant), whether it
  is a real number or +inf. Tiling, the order of sums and changes of float format are invisible at exact values. The
  precondition is not used: the two results agree for every extended-real input.

  `Cert.Mha` (Proof/Spec.lean) states both results as index-by-index functions of the arguments; the kernel's run
  is read to them call by call (Proof/KernelValue.lean and what it imports), the reference's operation by operation
  (Proof/RefWeights.lean, Proof/RefOutput.lean).
-/
import proofs.«143923_j53437983097248_2_alg».proof.Defs
import proofs.«143923_j53437983097248_2_alg».proof.Proof.Gen.Kernel
import proofs.«143923_j53437983097248_2_alg».proof.Proof.Gen.Kernel.Skeleton
import proofs.«143923_j53437983097248_2_alg».proof.Proof.Gen.Kernel.Launch
import proofs.«143923_j53437983097248_2_alg».proof.Proof.Gen.Kernel.Points
import proofs.«143923_j53437983097248_2_alg».proof.Proof.Gen.Kernel.Frame
import proofs.«143923_j53437983097248_2_alg».proof.Proof.Gen.KernelIdeal
import proofs.«143923_j53437983097248_2_alg».proof.Proof.Gen.KernelIdeal.Skeleton
import proofs.«143923_j53437983097248_2_alg».proof.Proof.Gen.KernelIdeal.Launch
import proofs.«143923_j53437983097248_2_alg».proof.Proof.Gen.KernelIdeal.Points
import proofs.«143923_j53437983097248_2_alg».proof.Proof.Gen.KernelIdeal.Frame
import proofs.«143923_j53437983097248_2_alg».proof.Proof.Gen.ReferenceIdeal
import proofs.«143923_j53437983097248_2_alg».proof.Proof.Gen.Pre_finite_inputs
import proofs.«143923_j53437983097248_2_alg».proof.Proof.Gen.ReferenceIdeal.Run
import proofs.«143923_j53437983097248_2_alg».proof.Proof.Gen.ReferenceIdeal.Read
import proofs.«143923_j53437983097248_2_alg».proof.Proof.RunNamed
import proofs.«143923_j53437983097248_2_alg».proof.Proof.KernelValue
import proofs.«143923_j53437983097248_2_alg».proof.Proof.RefWeights
import proofs.«143923_j53437983097248_2_alg».proof.Proof.RefOutput
import Idealize.ShloMosaic.Adequacy
import Idealize.ShloMosaic.Init

noncomputable section

namespace Cert.Proof

open Idealize.ShloMosaic Idealize.ShloMosaic.TcCoe Idealize.SL.Sem

/-- The idealized kernel's run, its two results at the specification's functions of the launch arrays. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v12) = Cert.Mha.output
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
      ∧ r.2.mem ((c.tc : Thread Cert.KernelIdeal.nD Cert.KernelIdeal.τ).loc Cert.KernelIdeal.main_v7_0) = Cert.Mha.weights
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run Cert.KernelIdeal.defs _ _).mono
    (fun r h c => ⟨(h c).1.trans (Cert.KernelIdeal.Block.kernel_output m ρ c),
      (h c).2.1.trans (Cert.KernelIdeal.Block.kernel_weights m ρ c), (h c).2.2⟩)
    (Cert.KernelIdeal.Block.run_named (F := Ideal) m ρ)

/-- The two idealized programs, from memories agreeing on the arguments, end with equal results: both are the
    specification's functions of the same arrays. -/
theorem algebraic : Cert.algebraic_KernelIdeal_ReferenceIdeal := by
  intro m ρ m' ρ' _ hagree
  refine ⟨_, _, kernel_run m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨e0, e1, e2, e3, e4, e5, e6, e7⟩ := hagree c
    rw [Cert.ReferenceIdeal.Read.val_main_v47_eq, e0, e1, e2, e3, e4, e5, e6, e7]
    exact Cert.Mha.RefOut.output_eq_of_weights _ _ _ _ _ _ _ _ _ (Cert.Mha.Ref.weights_eq _ _ _ _ _)
  · obtain ⟨e0, e1, e2, e3, e4, e5, e6, e7⟩ := hagree c
    rw [Cert.ReferenceIdeal.Read.val_main_v24_eq, e0, e1, e3, e4, e5]
    exact Cert.Mha.Ref.weights_eq _ _ _ _ _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2) (Cert.ReferenceIdeal.Value.run (F := Ideal) m ρ),
  trivial,
  algebraic⟩

end Cert.Proof

end
